-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S128x50 : Shape := ⟨2, ![128, 50]⟩
abbrev S50 : Shape := ⟨1, ![50]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x50 : S_.BroadcastsInDim S128x50 (![] : Fin 0 → Fin S128x50.rank)
  reducesTo_S128x50_S_d0_1 : S128x50.ReducesTo [0, 1] S_
  bcast_S_S50 : S_.BroadcastsInDim S50 (![] : Fin 0 → Fin S50.rank)
  reducesTo_S50_S_d0 : S50.ReducesTo [0] S_

variable [Facts]

def fn_part4 {F : FTy → Type} [FloatOps F] (main_arg16 : FVec F S128 .f32) (main_arg17 : FVec F S128x50 .f32) (main_arg18 : FVec F S50 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x50 .f32 := Host.absf main_arg17
  let main_cst_28 : FVec F S_ .f32 := constant S_ .f32 0x7F800000#32
  let main_v75 : FVec F S128x50 .f32 := broadcastInDim S128x50 ![] bcast_S_S128x50 main_cst_28
  let main_v76 : IVec S128x50 1 := cmpf .olt main_v74 main_v75
  let main_c_29 : IVec S_ 1 := constantI S_ 1 1#1
  let main_v77 : IVec S_ 1 := (fun x v => Host.reduce IntOp.andi x v reducesTo_S128x50_S_d0_1 h_S_) main_v76 main_c_29
  let main_v78 : IVec S_ 1 := andi main_v73 main_v77
  let main_v79 : FVec F S50 .f32 := Host.absf main_arg18
  let main_cst_30 : FVec F S_ .f32 := constant S_ .f32 0x7F800000#32
  let main_v80 : FVec F S50 .f32 := broadcastInDim S50 ![] bcast_S_S50 main_cst_30
  let main_v81 : IVec S50 1 := cmpf .olt main_v79 main_v80
  let main_c_31 : IVec S_ 1 := constantI S_ 1 1#1
  let main_v82 : IVec S_ 1 := (fun x v => Host.reduce IntOp.andi x v reducesTo_S50_S_d0 h_S_) main_v81 main_c_31
  let main_v83 : IVec S_ 1 := andi main_v78 main_v82
  main_v83

def fn_part3 {F : FTy → Type} [FloatOps F] (main_arg13 : FVec F S128x1 .f32) (main_arg14 : FVec F S1 .f32) (main_arg15 : FVec F S256x128 .f32) (main_arg16 : FVec F S128 .f32) (main_arg17 : FVec F S128x50 .f32) (main_arg18 : FVec F S50 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S256x128 .f32 := Host.absf main_arg15
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg16 main_arg17 main_arg18 main_v63 main_v67

def fn_part2 {F : FTy → Type} [FloatOps F] (main_arg9 : FVec F S3x128 .f32) (main_arg10 : FVec F S3x128 .f32) (main_arg11 : FVec F S256x128 .f32) (main_arg12 : FVec F S128 .f32) (main_arg13 : FVec F S128x1 .f32) (main_arg14 : FVec F S1 .f32) (main_arg15 : FVec F S256x128 .f32) (main_arg16 : FVec F S128 .f32) (main_arg17 : FVec F S128x50 .f32) (main_arg18 : FVec F S50 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S3x128 .f32) (main_arg7 : FVec F S3x128 .f32) (main_arg8 : FVec F S3x128 .f32) (main_arg9 : FVec F S3x128 .f32) (main_arg10 : FVec F S3x128 .f32) (main_arg11 : FVec F S256x128 .f32) (main_arg12 : FVec F S128 .f32) (main_arg13 : FVec F S128x1 .f32) (main_arg14 : FVec F S1 .f32) (main_arg15 : FVec F S256x128 .f32) (main_arg16 : FVec F S128 .f32) (main_arg17 : FVec F S128x50 .f32) (main_arg18 : FVec F S50 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x256 .f32) (main_arg1 : IVec S800000 32) (main_arg2 : IVec S800000 32) (main_arg3 : FVec F S256x128 .f32) (main_arg4 : FVec F S128 .f32) (main_arg5 : FVec F S3x128x128 .f32) (main_arg6 : FVec F S3x128 .f32) (main_arg7 : FVec F S3x128 .f32) (main_arg8 : FVec F S3x128 .f32) (main_arg9 : FVec F S3x128 .f32) (main_arg10 : FVec F S3x128 .f32) (main_arg11 : FVec F S256x128 .f32) (main_arg12 : FVec F S128 .f32) (main_arg13 : FVec F S128x1 .f32) (main_arg14 : FVec F S1 .f32) (main_arg15 : FVec F S256x128 .f32) (main_arg16 : FVec F S128 .f32) (main_arg17 : FVec F S128x50 .f32) (main_arg18 : FVec F S50 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S128x50 : Shape := ⟨2, ![128, 50]⟩
abbrev S50 : Shape := ⟨1, ![50]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S50000x128 : Shape := ⟨2, ![50000, 128]⟩
abbrev S2000x256 : Shape := ⟨2, ![2000, 256]⟩
abbrev S2000x128 : Shape := ⟨2, ![2000, 128]⟩
abbrev S800000x128 : Shape := ⟨2, ![800000, 128]⟩
abbrev S50000x1 : Shape := ⟨2, ![50000, 1]⟩
abbrev S128x128 : Shape := ⟨2, ![128, 128]⟩
abbrev S1x1 : Shape := ⟨2, ![1, 1]⟩
abbrev S2000x1 : Shape := ⟨2, ![2000, 1]⟩
abbrev S1x128x128 : Shape := ⟨3, ![1, 128, 128]⟩
abbrev S1x50 : Shape := ⟨2, ![1, 50]⟩
abbrev S50000x50 : Shape := ⟨2, ![50000, 50]⟩
abbrev S2000x50 : Shape := ⟨2, ![2000, 50]⟩

abbrev nBuf : Space → Nat
  | .hbm => 179
  | .vmem => 60
  | .smem => 0
  | _ => 0

abbrev hbmTy0_0 (i : Nat) : BufTy := match i % 128 with
  | 0 => ⟨S50000x256, .f32⟩
  | 1 => ⟨S800000, .i32⟩
  | 2 => ⟨S800000, .i32⟩
  | 3 => ⟨S256x128, .f32⟩
  | 4 => ⟨S128, .f32⟩
  | 5 => ⟨S3x128x128, .f32⟩
  | 6 => ⟨S3x128, .f32⟩
  | 7 => ⟨S3x128, .f32⟩
  | 8 => ⟨S3x128, .f32⟩
  | 9 => ⟨S3x128, .f32⟩
  | 10 => ⟨S3x128, .f32⟩
  | 11 => ⟨S256x128, .f32⟩
  | 12 => ⟨S128, .f32⟩
  | 13 => ⟨S128x1, .f32⟩
  | 14 => ⟨S1, .f32⟩
  | 15 => ⟨S256x128, .f32⟩
  | 16 => ⟨S128, .f32⟩
  | 17 => ⟨S128x50, .f32⟩
  | 18 => ⟨S50, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S800000x1, .i32⟩
  | 28 => ⟨S50000, .f32⟩
  | 29 => ⟨S1x128, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S_, .f32⟩
  | 45 => ⟨S50000, .f32⟩
  | 46 => ⟨S50000, .f32⟩
  | 47 => ⟨S50000x1, .f32⟩
  | 48 => ⟨S50000x128, .f32⟩
  | 49 => ⟨S50000x128, .f32⟩
  | 50 => ⟨S128x128, .f32⟩
  | 51 => ⟨S128x128, .f32⟩
  | 52 => ⟨S128x128, .f32⟩
  | 53 => ⟨S128x128, .f32⟩
  | 54 => ⟨S1x128, .f32⟩
  | 55 => ⟨S1x128, .f32⟩
  | 56 => ⟨S1x1, .f32⟩
  | 57 => ⟨S50000x128, .f32⟩
  | 58 => ⟨S_, .f32⟩
  | 59 => ⟨S50000, .f32⟩
  | 60 => ⟨S50000, .f32⟩
  | 61 => ⟨S50000x1, .f32⟩
  | 62 => ⟨S_, .f32⟩
  | 63 => ⟨S50000x1, .f32⟩
  | 64 => ⟨S50000x1, .f32⟩
  | 65 => ⟨S_, .f32⟩
  | 66 => ⟨S50000, .f32⟩
  | 67 => ⟨S50000, .f32⟩
  | 68 => ⟨S50000x1, .f32⟩
  | 69 => ⟨S_, .f32⟩
  | 70 => ⟨S50000x1, .f32⟩
  | 71 => ⟨S50000x1, .f32⟩
  | 72 => ⟨S50000x128, .f32⟩
  | 73 => ⟨S50000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S50000x128, .f32⟩
  | 88 => ⟨S50000x128, .f32⟩
  | 89 => ⟨S1x128x128, .f32⟩
  | 90 => ⟨S128x128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S1x128, .f32⟩
  | 103 => ⟨S1x128, .f32⟩
  | 104 => ⟨S1x128, .f32⟩
  | 105 => ⟨S1x128, .f32⟩
  | 106 => ⟨S50000x128, .f32⟩
  | 107 => ⟨S50000x128, .f32⟩
  | 108 => ⟨S50000x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S50000x128, .f32⟩
  | 123 => ⟨S50000x128, .f32⟩
  | 124 => ⟨S1x128x128, .f32⟩
  | 125 => ⟨S128x128, .f32⟩
  | 126 => ⟨S1x128, .f32⟩
  | 127 => ⟨S128, .f32⟩
  | _ => ⟨S50000x256, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S1x128, .f32⟩
  | 10 => ⟨S1x128, .f32⟩
  | 11 => ⟨S1x128, .f32⟩
  | 12 => ⟨S1x128, .f32⟩
  | 13 => ⟨S50000x128, .f32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000x128, .f32⟩
  | 30 => ⟨S50000x128, .f32⟩
  | 31 => ⟨S1x128x128, .f32⟩
  | 32 => ⟨S128x128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S1x128, .f32⟩
  | 45 => ⟨S1x128, .f32⟩
  | 46 => ⟨S1x128, .f32⟩
  | 47 => ⟨S1x128, .f32⟩
  | 48 => ⟨S50000x128, .f32⟩
  | 49 => ⟨S1x50, .f32⟩
  | 50 => ⟨S50000x50, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S1x1, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S128x50, .f32⟩
  | .local _ .vmem, ⟨57, _⟩ => ⟨S1x50, .f32⟩
  | .local _ .vmem, ⟨58, _⟩ => ⟨S2000x50, .f32⟩
  | .local _ .vmem, ⟨59, _⟩ => ⟨S2000x50, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c : Ref sig .tc := ⟨.hbm, 31, rfl⟩
abbrev main_v9 : Ref sig .tc := ⟨.hbm, 32, rfl⟩
abbrev main_v10 : Ref sig .tc := ⟨.hbm, 33, rfl⟩
abbrev main_c_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_9 : Ref sig .tc := ⟨.hbm, 74, rfl⟩
abbrev main_v44 : Ref sig .tc := ⟨.hbm, 75, rfl⟩
abbrev main_v45 : Ref sig .tc := ⟨.hbm, 76, rfl⟩
abbrev main_c_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_12 : Ref sig .tc := ⟨.hbm, 109, rfl⟩
abbrev main_v76 : Ref sig .tc := ⟨.hbm, 110, rfl⟩
abbrev main_v77 : Ref sig .tc := ⟨.hbm, 111, rfl⟩
abbrev main_c_13 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_14 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_15 : Ref sig .tc := ⟨.hbm, 144, rfl⟩
abbrev main_v108 : Ref sig .tc := ⟨.hbm, 145, rfl⟩
abbrev main_v109 : Ref sig .tc := ⟨.hbm, 146, rfl⟩
abbrev main_c_16 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_17 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc3_stg8_0 : Ref sig .tc := ⟨.vmem, 40, rfl⟩
abbrev cc3_stg8_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg7_0 : Ref sig .tc := ⟨.vmem, 50, rfl⟩
abbrev cc4_stg7_1 : Ref sig .tc := ⟨.vmem, 51, rfl⟩
abbrev cc4_stg8_0 : Ref sig .tc := ⟨.vmem, 52, rfl⟩
abbrev cc4_stg8_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc3_sem8_0 : DmaSem sig := 40
abbrev cc3_sem8_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem4_0 : DmaSem sig := 47
abbrev cc4_sem5_0 : DmaSem sig := 48
abbrev cc4_sem6_0 : DmaSem sig := 49
abbrev cc4_sem7_0 : DmaSem sig := 50
abbrev cc4_sem7_1 : DmaSem sig := 51
abbrev cc4_sem8_0 : DmaSem sig := 52
abbrev cc4_sem8_1 : DmaSem sig := 53
abbrev cc5_sem0_0 : DmaSem sig := 54
abbrev cc5_sem0_1 : DmaSem sig := 55
abbrev cc5_sem1_0 : DmaSem sig := 56
abbrev cc5_sem2_0 : DmaSem sig := 57
abbrev cc5_sem3_0 : DmaSem sig := 58
abbrev cc5_sem3_1 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S2000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x50 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x50 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x50 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  shapeCasts_S1_S1x1 : S1.ShapeCasts S1x1
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x128 : S2000x1.Broadcasts S2000x128
  bcast_S_S50000x1 : S_.BroadcastsInDim S50000x1 (![] : Fin 0 → Fin S50000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S50_S1x50 : S50.ShapeCasts S1x50
  inb_S128x50_S128x50_0_0 : ∀ a, (![0, 0] : Fin 2 → Nat) a + S128x50.size a ≤ S128x50.size a
  h_S128x50 : 0 < S128x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S2000x50 : S1x50.Broadcasts S2000x50
  inb_S2000x50_S2000x50_0_0 : ∀ a, (![0, 0] : Fin 2 → Nat) a + S2000x50.size a ≤ S2000x50.size a
  h_S2000x50 : 0 < S2000x50.numel
  scatter_S50000_S800000x1_S800000_n_0_0_1_wf : ScatterDims.WF S50000 S800000x1 S800000 [] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  dot_S2000x128_S128x50_S2000x50_1_0_0_1_n_n_wf : DotDims.WF S2000x128 S128x50 S2000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x1.size a ≤ S128x1.size a
  hwx1_8 : ∀ i : grid1.Coords, EltTy.bits .f32 = 32 ∨ (Rect.block (s := S128x1) S128x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S50000x128.size a
  hwx3_7 : ∀ i : grid3.Coords, EltTy.bits .f32 = 32 ∨ (Rect.block (s := S50000x128) S2000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x128.size a ≤ S50000x128.size a
  hwx4_8 : ∀ i : grid4.Coords, EltTy.bits .f32 = 32 ∨ (Rect.block (s := S50000x128) S2000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x50.size a ≤ S128x50.size a
  hwx5_1 : ∀ i : grid5.Coords, EltTy.bits .f32 = 32 ∨ (Rect.block (s := S128x50) S128x50.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x50.size a ≤ S1x50.size a
  hwx5_2 : ∀ i : grid5.Coords, EltTy.bits .f32 = 32 ∨ (Rect.block (s := S1x50) S1x50.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x50.size a ≤ S50000x50.size a
  hwx5_3 : ∀ i : grid5.Coords, EltTy.bits .f32 = 32 ∨ (Rect.block (s := S50000x50) S2000x50.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def dot_S2000x128_S128x50_S2000x50_1_0_0_1_n_n : DotDims S2000x128 S128x50 S2000x50 where
  lhsContracting := [1]
  rhsContracting := [0]
  lhsNonContracting := [0]
  rhsNonContracting := [1]
  lhsBatch := []
  rhsBatch := []
  wf := dot_S2000x128_S128x50_S2000x50_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S128x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v31) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v55) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v73) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v87) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v100) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v101) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v102) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v104) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73) S2000x128.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v105) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v119) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v121) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v132) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v133) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v134) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v135) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v136) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v105) S2000x128.size cc4_transform_7 reads4_7 false false 2 stage4_7 sem4_7
    hrank4 hreads4_7 hinb4_7 nbuf4_7 (Memref.isWhole_whole _) hwx4_7 hstage4_7

abbrev win4_8 : Pipeline.Window sig grid4 :=
  Pipeline.Window.ofSpec (Memref.whole main_v137) S2000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v137) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg17) S128x50.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v138) S1x50.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v139) S2000x50.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S128x50 : Shape := ⟨2, ![128, 50]⟩
abbrev S50 : Shape := ⟨1, ![50]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S1x128 : Shape := ⟨2, ![1, 128]⟩
abbrev S800000x128 : Shape := ⟨2, ![800000, 128]⟩
abbrev S50000x1 : Shape := ⟨2, ![50000, 1]⟩
abbrev S1x1 : Shape := ⟨2, ![1, 1]⟩
abbrev S1x128x128 : Shape := ⟨3, ![1, 128, 128]⟩
abbrev S128x128 : Shape := ⟨2, ![128, 128]⟩
abbrev S50000x50 : Shape := ⟨2, ![50000, 50]⟩
abbrev S1x50 : Shape := ⟨2, ![1, 50]⟩

abbrev nBuf : Space → Nat
  | .hbm => 256
  | .vmem => 0
  | .smem => 0
  | _ => 0

abbrev hbmTy0_0 (i : Nat) : BufTy := match i % 128 with
  | 0 => ⟨S50000x256, .f32⟩
  | 1 => ⟨S800000, .i32⟩
  | 2 => ⟨S800000, .i32⟩
  | 3 => ⟨S256x128, .f32⟩
  | 4 => ⟨S128, .f32⟩
  | 5 => ⟨S3x128x128, .f32⟩
  | 6 => ⟨S3x128, .f32⟩
  | 7 => ⟨S3x128, .f32⟩
  | 8 => ⟨S3x128, .f32⟩
  | 9 => ⟨S3x128, .f32⟩
  | 10 => ⟨S3x128, .f32⟩
  | 11 => ⟨S256x128, .f32⟩
  | 12 => ⟨S128, .f32⟩
  | 13 => ⟨S128x1, .f32⟩
  | 14 => ⟨S1, .f32⟩
  | 15 => ⟨S256x128, .f32⟩
  | 16 => ⟨S128, .f32⟩
  | 17 => ⟨S128x50, .f32⟩
  | 18 => ⟨S50, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S800000x1, .i32⟩
  | 28 => ⟨S50000, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S_, .f32⟩
  | 50 => ⟨S50000, .f32⟩
  | 51 => ⟨S50000, .f32⟩
  | 52 => ⟨S50000x1, .f32⟩
  | 53 => ⟨S50000x128, .f32⟩
  | 54 => ⟨S50000x128, .f32⟩
  | 55 => ⟨S50000x256, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x256, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x1, .f32⟩
  | 72 => ⟨S1x1, .f32⟩
  | 73 => ⟨S50000x1, .f32⟩
  | 74 => ⟨S50000x1, .f32⟩
  | 75 => ⟨S50000x1, .f32⟩
  | 76 => ⟨S50000x1, .f32⟩
  | 77 => ⟨S_, .f32⟩
  | 78 => ⟨S50000x1, .f32⟩
  | 79 => ⟨S50000x1, .f32⟩
  | 80 => ⟨S_, .f32⟩
  | 81 => ⟨S50000x1, .f32⟩
  | 82 => ⟨S50000x1, .f32⟩
  | 83 => ⟨S50000x128, .f32⟩
  | 84 => ⟨S50000x128, .f32⟩
  | 85 => ⟨S50000x128, .f32⟩
  | 86 => ⟨S_, .f32⟩
  | 87 => ⟨S50000, .f32⟩
  | 88 => ⟨S50000, .f32⟩
  | 89 => ⟨S50000x1, .f32⟩
  | 90 => ⟨S_, .f32⟩
  | 91 => ⟨S50000x1, .f32⟩
  | 92 => ⟨S50000x1, .f32⟩
  | 93 => ⟨S_, .f32⟩
  | 94 => ⟨S50000, .f32⟩
  | 95 => ⟨S50000, .f32⟩
  | 96 => ⟨S50000x1, .f32⟩
  | 97 => ⟨S_, .f32⟩
  | 98 => ⟨S50000x1, .f32⟩
  | 99 => ⟨S50000x1, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000x128, .f32⟩
  | 116 => ⟨S50000x128, .f32⟩
  | 117 => ⟨S1x128x128, .f32⟩
  | 118 => ⟨S128x128, .f32⟩
  | 119 => ⟨S50000x128, .f32⟩
  | 120 => ⟨S1x128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S128, .f32⟩
  | 127 => ⟨S1x128, .f32⟩
  | _ => ⟨S50000x256, .f32⟩

abbrev hbmTy0_1 (i : Nat) : BufTy := match i % 128 with
  | 0 => ⟨S50000x128, .f32⟩
  | 1 => ⟨S50000x128, .f32⟩
  | 2 => ⟨S1x128, .f32⟩
  | 3 => ⟨S128, .f32⟩
  | 4 => ⟨S1x128, .f32⟩
  | 5 => ⟨S128, .f32⟩
  | 6 => ⟨S_, .f32⟩
  | 7 => ⟨S128, .f32⟩
  | 8 => ⟨S128, .f32⟩
  | 9 => ⟨S128, .f32⟩
  | 10 => ⟨S128, .f32⟩
  | 11 => ⟨S1x128, .f32⟩
  | 12 => ⟨S50000x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S50000x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000x128, .f32⟩
  | 38 => ⟨S50000x128, .f32⟩
  | 39 => ⟨S1x128x128, .f32⟩
  | 40 => ⟨S128x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S128, .f32⟩
  | 56 => ⟨S_, .f32⟩
  | 57 => ⟨S128, .f32⟩
  | 58 => ⟨S128, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S1x128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S50000x128, .f32⟩
  | 89 => ⟨S50000x128, .f32⟩
  | 90 => ⟨S1x128x128, .f32⟩
  | 91 => ⟨S128x128, .f32⟩
  | 92 => ⟨S50000x128, .f32⟩
  | 93 => ⟨S1x128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S128, .f32⟩
  | 107 => ⟨S_, .f32⟩
  | 108 => ⟨S128, .f32⟩
  | 109 => ⟨S128, .f32⟩
  | 110 => ⟨S128, .f32⟩
  | 111 => ⟨S128, .f32⟩
  | 112 => ⟨S1x128, .f32⟩
  | 113 => ⟨S50000x128, .f32⟩
  | 114 => ⟨S50000x128, .f32⟩
  | 115 => ⟨S1x128, .f32⟩
  | 116 => ⟨S128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S50000x128, .f32⟩
  | 124 => ⟨S50000x50, .f32⟩
  | 125 => ⟨S1x50, .f32⟩
  | 126 => ⟨S50000x50, .f32⟩
  | 127 => ⟨S50000x50, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call0_cst : Ref sig .tc := ⟨.hbm, 33, rfl⟩
abbrev main_call0_v0 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call1_cst : Ref sig .tc := ⟨.hbm, 60, rfl⟩
abbrev main_call1_v0 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_call2_cst : Ref sig .tc := ⟨.hbm, 68, rfl⟩
abbrev main_call2_v0 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_5 : Ref sig .tc := ⟨.hbm, 77, rfl⟩
abbrev main_v45 : Ref sig .tc := ⟨.hbm, 78, rfl⟩
abbrev main_v46 : Ref sig .tc := ⟨.hbm, 79, rfl⟩
abbrev main_cst_6 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_7 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_8 : Ref sig .tc := ⟨.hbm, 90, rfl⟩
abbrev main_v55 : Ref sig .tc := ⟨.hbm, 91, rfl⟩
abbrev main_v56 : Ref sig .tc := ⟨.hbm, 92, rfl⟩
abbrev main_cst_9 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_10 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_11 : Ref sig .tc := ⟨.hbm, 102, rfl⟩
abbrev main_v64 : Ref sig .tc := ⟨.hbm, 103, rfl⟩
abbrev main_v65 : Ref sig .tc := ⟨.hbm, 104, rfl⟩
abbrev main_c_12 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_13 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_14 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_call3_cst : Ref sig .tc := ⟨.hbm, 147, rfl⟩
abbrev main_call3_v0 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_c_15 : Ref sig .tc := ⟨.hbm, 152, rfl⟩
abbrev main_v108 : Ref sig .tc := ⟨.hbm, 153, rfl⟩
abbrev main_v109 : Ref sig .tc := ⟨.hbm, 154, rfl⟩
abbrev main_c_16 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_17 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_18 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_call4_cst : Ref sig .tc := ⟨.hbm, 197, rfl⟩
abbrev main_call4_v0 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_c_19 : Ref sig .tc := ⟨.hbm, 203, rfl⟩
abbrev main_v153 : Ref sig .tc := ⟨.hbm, 204, rfl⟩
abbrev main_v154 : Ref sig .tc := ⟨.hbm, 205, rfl⟩
abbrev main_c_20 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_21 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_cst_22 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_call5_cst : Ref sig .tc := ⟨.hbm, 248, rfl⟩
abbrev main_call5_v0 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S50_S1x50_1 : S50.BroadcastsInDim S1x50 (![1] : Fin 1 → Fin S1x50.rank)
  bcast_S1x50_S50000x50_0_1 : S1x50.BroadcastsInDim S50000x50 (![0, 1] : Fin 2 → Fin S50000x50.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []
  dot_S50000x128_S128x128_S50000x128_1_0_0_1_n_n_wf : DotDims.WF S50000x128 S128x128 S50000x128 [1] [0] [0] [1] [] []
  dot_S50000x128_S128x50_S50000x50_1_0_0_1_n_n_wf : DotDims.WF S50000x128 S128x50 S50000x50 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x50_S50000x50_1_0_0_1_n_n : DotDims S50000x128 S128x50 S50000x50 where
  lhsContracting := [1]
  rhsContracting := [0]
  lhsNonContracting := [0]
  rhsNonContracting := [1]
  lhsBatch := []
  rhsBatch := []
  wf := dot_S50000x128_S128x50_S50000x50_1_0_0_1_n_n_wf

class Facts : Prop extends Facts₀ where

variable [Facts]
-- ==== Proof.KernelRun.lean ====
/-
  The idealized kernel program's run with its RESULT named: every weakly fair execution of @main terminates, the
  argument arrays end as launched, and the result array ends at the last boundary's contents `W12` read at the result's
  buffer — the fold of the six regions' write-backs and the host operations between them over the launch memory.
  It is the frame run over the same segments with one more conjunct in the post.
-/
import proofs.«167285_j14499809591443_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's launch theorem finds its implicit arguments by unifying its conclusion with this one, which takes
-- unfolding plain definitions in a metavariable's type
set_option backward.isDefEq.respectTransparency.types false in
/-- The run of @main with the result array at `W12`. -/
theorem run_value : θ_run defs (onTc (τ := τ) (main (F := F))) ⟨m, fun _ => 0, ρ⟩ (fun r => ∀ c : Dev nD,
      r.2.mem ((c.tc : Thread nD τ).loc main_v139) = W12 m ρ c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v139 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.KernelIdeal.RunValue

end
-- ==== Proof.KCarry.lean ====
/-
  What the idealized kernel program's buffers hold at the boundaries between its host stretches and its six
  regions, for the buffers that are only CARRIED there: an argument array is never written, so at every boundary it
  holds its launch contents; the two degree vectors are written once, before the first region; the two degree
  normalisers once, between the second and third regions; a region's output array is not touched by the host
  stretch that follows it. Each fact walks the boundary contents back one segment at a time: through a host
  stretch because none of its operations writes the buffer, through a region because the buffer is none of its
  window arrays.
-/
import proofs.«167285_j14499809591443_1_alg».proof.Proof.Gen.KernelIdeal.Frame
import proofs.«167285_j14499809591443_1_alg».proof.Proof.Gen.ReferenceIdeal.Read
import Idealize.ShloMosaic.Lib.StableHlo.Run
import Idealize.ShloMosaic.Lib.ValueIdx
import Idealize.ShloMosaic.Lib.ValueLayout

set_option maxRecDepth 16384

noncomputable section

namespace Cert.Chain

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The argument arrays as launched -/
abbrev a0 : Buf (Elt Ideal) ((c : Thread nD τ).loc main_arg0) := m ((c : Thread nD τ).loc main_arg0)
abbrev a1 : Buf (Elt Ideal) ((c : Thread nD τ).loc main_arg1) := m ((c : Thread nD τ).loc main_arg1)
abbrev a2 : Buf (Elt Ideal) ((c : Thread nD τ).loc main_arg2) := m ((c : Thread nD τ).loc main_arg2)
abbrev a3 : Buf (Elt Ideal) ((c : Thread nD τ).loc main_arg3) := m ((c : Thread nD τ).loc main_arg3)
abbrev a4 : Buf (Elt Ideal) ((c : Thread nD τ).loc main_arg4) := m ((c : Thread nD τ).loc main_arg4)
abbrev a5 : Buf (Elt Ideal) ((c : Thread nD τ).loc main_arg5) := m ((c : Thread nD τ).loc main_arg5)
abbrev a6 : Buf (Elt Ideal) ((c : Thread nD τ).loc main_arg6) := m ((c : Thread nD τ).loc main_arg6)
abbrev a7 : Buf (Elt Ideal) ((c : Thread nD τ).loc main_arg7) := m ((c : Thread nD τ).loc main_arg7)
abbrev a8 : Buf (Elt Ideal) ((c : Thread nD τ).loc main_arg8) := m ((c : Thread nD τ).loc main_arg8)
abbrev a9 : Buf (Elt Ideal) ((c : Thread nD τ).loc main_arg9) := m ((c : Thread nD τ).loc main_arg9)
abbrev a10 : Buf (Elt Ideal) ((c : Thread nD τ).loc main_arg10) := m ((c : Thread nD τ).loc main_arg10)
abbrev a11 : Buf (Elt Ideal) ((c : Thread nD τ).loc main_arg11) := m ((c : Thread nD τ).loc main_arg11)
abbrev a12 : Buf (Elt Ideal) ((c : Thread nD τ).loc main_arg12) := m ((c : Thread nD τ).loc main_arg12)
abbrev a13 : Buf (Elt Ideal) ((c : Thread nD τ).loc main_arg13) := m ((c : Thread nD τ).loc main_arg13)
abbrev a14 : Buf (Elt Ideal) ((c : Thread nD τ).loc main_arg14) := m ((c : Thread nD τ).loc main_arg14)
abbrev a15 : Buf (Elt Ideal) ((c : Thread nD τ).loc main_arg15) := m ((c : Thread nD τ).loc main_arg15)
abbrev a16 : Buf (Elt Ideal) ((c : Thread nD τ).loc main_arg16) := m ((c : Thread nD τ).loc main_arg16)
abbrev a17 : Buf (Elt Ideal) ((c : Thread nD τ).loc main_arg17) := m ((c : Thread nD τ).loc main_arg17)
abbrev a18 : Buf (Elt Ideal) ((c : Thread nD τ).loc main_arg18) := m ((c : Thread nD τ).loc main_arg18)

/-- No operation of a host stretch writes the buffer: the stretch leaves it as it was. -/
macro "host_keep" : tactic => `(tactic|
  exact StableHlo.after_of_forall_not_mem _ _ (List.forall_iff_forall_mem.mp (by
    simp only [hostOps0, hostOps1, hostOps2, hostOps3, hostOps4, hostOps5, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## One segment back, for a buffer the segment does not write -/

section Steps
variable (b : Ref sig .tc)
theorem r0 (hb : ∀ w, Pipeline.arrRef spec0 w ≠ b) : W2 m ρ c (Proc.devRef .tc b) = W1 m ρ c (Proc.devRef .tc b) := W2_of_ne m ρ c b hb
theorem r1 (hb : ∀ w, Pipeline.arrRef spec1 w ≠ b) : W4 m ρ c (Proc.devRef .tc b) = W3 m ρ c (Proc.devRef .tc b) := W4_of_ne m ρ c b hb
theorem r2 (hb : ∀ w, Pipeline.arrRef spec2 w ≠ b) : W6 m ρ c (Proc.devRef .tc b) = W5 m ρ c (Proc.devRef .tc b) := W6_of_ne m ρ c b hb
theorem r3 (hb : ∀ w, Pipeline.arrRef spec3 w ≠ b) : W8 m ρ c (Proc.devRef .tc b) = W7 m ρ c (Proc.devRef .tc b) := W8_of_ne m ρ c b hb
theorem r4 (hb : ∀ w, Pipeline.arrRef spec4 w ≠ b) : W10 m ρ c (Proc.devRef .tc b) = W9 m ρ c (Proc.devRef .tc b) := W10_of_ne m ρ c b hb
end Steps

/-! ## The arguments at the boundaries where something reads them -/

theorem W1_arg0 : W1 m ρ c (Proc.devRef .tc main_arg0) = a0 m c := by
  refine Eq.trans (b := W0 m ρ c (Proc.devRef .tc main_arg0)) (by host_keep) rfl
theorem W1_arg1 : W1 m ρ c (Proc.devRef .tc main_arg1) = a1 m c := by
  refine Eq.trans (b := W0 m ρ c (Proc.devRef .tc main_arg1)) (by host_keep) rfl
theorem W2_arg1 : W2 m ρ c (Proc.devRef .tc main_arg1) = a1 m c := (r0 m ρ c main_arg1 (by decide)).trans (W1_arg1 m ρ c)
theorem W3_arg1 : W3 m ρ c (Proc.devRef .tc main_arg1) = a1 m c := by
  refine Eq.trans (b := W2 m ρ c (Proc.devRef .tc main_arg1)) (by host_keep) (W2_arg1 m ρ c)
theorem W4_arg1 : W4 m ρ c (Proc.devRef .tc main_arg1) = a1 m c := (r1 m ρ c main_arg1 (by decide)).trans (W3_arg1 m ρ c)
theorem W5_arg1 : W5 m ρ c (Proc.devRef .tc main_arg1) = a1 m c := by
  refine Eq.trans (b := W4 m ρ c (Proc.devRef .tc main_arg1)) (by host_keep) (W4_arg1 m ρ c)
theorem W6_arg1 : W6 m ρ c (Proc.devRef .tc main_arg1) = a1 m c := (r2 m ρ c main_arg1 (by decide)).trans (W5_arg1 m ρ c)
theorem W7_arg1 : W7 m ρ c (Proc.devRef .tc main_arg1) = a1 m c := by
  refine Eq.trans (b := W6 m ρ c (Proc.devRef .tc main_arg1)) (by host_keep) (W6_arg1 m ρ c)
theorem W8_arg1 : W8 m ρ c (Proc.devRef .tc main_arg1) = a1 m c := (r3 m ρ c main_arg1 (by decide)).trans (W7_arg1 m ρ c)
theorem W1_arg2 : W1 m ρ c (Proc.devRef .tc main_arg2) = a2 m c := by
  refine Eq.trans (b := W0 m ρ c (Proc.devRef .tc main_arg2)) (by host_keep) rfl
theorem W2_arg2 : W2 m ρ c (Proc.devRef .tc main_arg2) = a2 m c := (r0 m ρ c main_arg2 (by decide)).trans (W1_arg2 m ρ c)
theorem W3_arg2 : W3 m ρ c (Proc.devRef .tc main_arg2) = a2 m c := by
  refine Eq.trans (b := W2 m ρ c (Proc.devRef .tc main_arg2)) (by host_keep) (W2_arg2 m ρ c)
theorem W4_arg2 : W4 m ρ c (Proc.devRef .tc main_arg2) = a2 m c := (r1 m ρ c main_arg2 (by decide)).trans (W3_arg2 m ρ c)
theorem W5_arg2 : W5 m ρ c (Proc.devRef .tc main_arg2) = a2 m c := by
  refine Eq.trans (b := W4 m ρ c (Proc.devRef .tc main_arg2)) (by host_keep) (W4_arg2 m ρ c)
theorem W6_arg2 : W6 m ρ c (Proc.devRef .tc main_arg2) = a2 m c := (r2 m ρ c main_arg2 (by decide)).trans (W5_arg2 m ρ c)
theorem W7_arg2 : W7 m ρ c (Proc.devRef .tc main_arg2) = a2 m c := by
  refine Eq.trans (b := W6 m ρ c (Proc.devRef .tc main_arg2)) (by host_keep) (W6_arg2 m ρ c)
theorem W8_arg2 : W8 m ρ c (Proc.devRef .tc main_arg2) = a2 m c := (r3 m ρ c main_arg2 (by decide)).trans (W7_arg2 m ρ c)
theorem W1_arg3 : W1 m ρ c (Proc.devRef .tc main_arg3) = a3 m c := by
  refine Eq.trans (b := W0 m ρ c (Proc.devRef .tc main_arg3)) (by host_keep) rfl
theorem W1_arg5 : W1 m ρ c (Proc.devRef .tc main_arg5) = a5 m c := by
  refine Eq.trans (b := W0 m ρ c (Proc.devRef .tc main_arg5)) (by host_keep) rfl
theorem W2_arg5 : W2 m ρ c (Proc.devRef .tc main_arg5) = a5 m c := (r0 m ρ c main_arg5 (by decide)).trans (W1_arg5 m ρ c)
theorem W3_arg5 : W3 m ρ c (Proc.devRef .tc main_arg5) = a5 m c := by
  refine Eq.trans (b := W2 m ρ c (Proc.devRef .tc main_arg5)) (by host_keep) (W2_arg5 m ρ c)
theorem W4_arg5 : W4 m ρ c (Proc.devRef .tc main_arg5) = a5 m c := (r1 m ρ c main_arg5 (by decide)).trans (W3_arg5 m ρ c)
theorem W5_arg5 : W5 m ρ c (Proc.devRef .tc main_arg5) = a5 m c := by
  refine Eq.trans (b := W4 m ρ c (Proc.devRef .tc main_arg5)) (by host_keep) (W4_arg5 m ρ c)
theorem W6_arg5 : W6 m ρ c (Proc.devRef .tc main_arg5) = a5 m c := (r2 m ρ c main_arg5 (by decide)).trans (W5_arg5 m ρ c)
theorem W7_arg5 : W7 m ρ c (Proc.devRef .tc main_arg5) = a5 m c := by
  refine Eq.trans (b := W6 m ρ c (Proc.devRef .tc main_arg5)) (by host_keep) (W6_arg5 m ρ c)
theorem W8_arg5 : W8 m ρ c (Proc.devRef .tc main_arg5) = a5 m c := (r3 m ρ c main_arg5 (by decide)).trans (W7_arg5 m ρ c)
theorem W1_arg6 : W1 m ρ c (Proc.devRef .tc main_arg6) = a6 m c := by
  refine Eq.trans (b := W0 m ρ c (Proc.devRef .tc main_arg6)) (by host_keep) rfl
theorem W2_arg6 : W2 m ρ c (Proc.devRef .tc main_arg6) = a6 m c := (r0 m ρ c main_arg6 (by decide)).trans (W1_arg6 m ρ c)
theorem W3_arg6 : W3 m ρ c (Proc.devRef .tc main_arg6) = a6 m c := by
  refine Eq.trans (b := W2 m ρ c (Proc.devRef .tc main_arg6)) (by host_keep) (W2_arg6 m ρ c)
theorem W4_arg6 : W4 m ρ c (Proc.devRef .tc main_arg6) = a6 m c := (r1 m ρ c main_arg6 (by decide)).trans (W3_arg6 m ρ c)
theorem W5_arg6 : W5 m ρ c (Proc.devRef .tc main_arg6) = a6 m c := by
  refine Eq.trans (b := W4 m ρ c (Proc.devRef .tc main_arg6)) (by host_keep) (W4_arg6 m ρ c)
theorem W6_arg6 : W6 m ρ c (Proc.devRef .tc main_arg6) = a6 m c := (r2 m ρ c main_arg6 (by decide)).trans (W5_arg6 m ρ c)
theorem W7_arg6 : W7 m ρ c (Proc.devRef .tc main_arg6) = a6 m c := by
  refine Eq.trans (b := W6 m ρ c (Proc.devRef .tc main_arg6)) (by host_keep) (W6_arg6 m ρ c)
theorem W8_arg6 : W8 m ρ c (Proc.devRef .tc main_arg6) = a6 m c := (r3 m ρ c main_arg6 (by decide)).trans (W7_arg6 m ρ c)
theorem W1_arg7 : W1 m ρ c (Proc.devRef .tc main_arg7) = a7 m c := by
  refine Eq.trans (b := W0 m ρ c (Proc.devRef .tc main_arg7)) (by host_keep) rfl
theorem W2_arg7 : W2 m ρ c (Proc.devRef .tc main_arg7) = a7 m c := (r0 m ρ c main_arg7 (by decide)).trans (W1_arg7 m ρ c)
theorem W3_arg7 : W3 m ρ c (Proc.devRef .tc main_arg7) = a7 m c := by
  refine Eq.trans (b := W2 m ρ c (Proc.devRef .tc main_arg7)) (by host_keep) (W2_arg7 m ρ c)
theorem W4_arg7 : W4 m ρ c (Proc.devRef .tc main_arg7) = a7 m c := (r1 m ρ c main_arg7 (by decide)).trans (W3_arg7 m ρ c)
theorem W5_arg7 : W5 m ρ c (Proc.devRef .tc main_arg7) = a7 m c := by
  refine Eq.trans (b := W4 m ρ c (Proc.devRef .tc main_arg7)) (by host_keep) (W4_arg7 m ρ c)
theorem W6_arg7 : W6 m ρ c (Proc.devRef .tc main_arg7) = a7 m c := (r2 m ρ c main_arg7 (by decide)).trans (W5_arg7 m ρ c)
theorem W7_arg7 : W7 m ρ c (Proc.devRef .tc main_arg7) = a7 m c := by
  refine Eq.trans (b := W6 m ρ c (Proc.devRef .tc main_arg7)) (by host_keep) (W6_arg7 m ρ c)
theorem W8_arg7 : W8 m ρ c (Proc.devRef .tc main_arg7) = a7 m c := (r3 m ρ c main_arg7 (by decide)).trans (W7_arg7 m ρ c)
theorem W1_arg8 : W1 m ρ c (Proc.devRef .tc main_arg8) = a8 m c := by
  refine Eq.trans (b := W0 m ρ c (Proc.devRef .tc main_arg8)) (by host_keep) rfl
theorem W2_arg8 : W2 m ρ c (Proc.devRef .tc main_arg8) = a8 m c := (r0 m ρ c main_arg8 (by decide)).trans (W1_arg8 m ρ c)
theorem W3_arg8 : W3 m ρ c (Proc.devRef .tc main_arg8) = a8 m c := by
  refine Eq.trans (b := W2 m ρ c (Proc.devRef .tc main_arg8)) (by host_keep) (W2_arg8 m ρ c)
theorem W4_arg8 : W4 m ρ c (Proc.devRef .tc main_arg8) = a8 m c := (r1 m ρ c main_arg8 (by decide)).trans (W3_arg8 m ρ c)
theorem W5_arg8 : W5 m ρ c (Proc.devRef .tc main_arg8) = a8 m c := by
  refine Eq.trans (b := W4 m ρ c (Proc.devRef .tc main_arg8)) (by host_keep) (W4_arg8 m ρ c)
theorem W6_arg8 : W6 m ρ c (Proc.devRef .tc main_arg8) = a8 m c := (r2 m ρ c main_arg8 (by decide)).trans (W5_arg8 m ρ c)
theorem W7_arg8 : W7 m ρ c (Proc.devRef .tc main_arg8) = a8 m c := by
  refine Eq.trans (b := W6 m ρ c (Proc.devRef .tc main_arg8)) (by host_keep) (W6_arg8 m ρ c)
theorem W8_arg8 : W8 m ρ c (Proc.devRef .tc main_arg8) = a8 m c := (r3 m ρ c main_arg8 (by decide)).trans (W7_arg8 m ρ c)
theorem W1_arg9 : W1 m ρ c (Proc.devRef .tc main_arg9) = a9 m c := by
  refine Eq.trans (b := W0 m ρ c (Proc.devRef .tc main_arg9)) (by host_keep) rfl
theorem W2_arg9 : W2 m ρ c (Proc.devRef .tc main_arg9) = a9 m c := (r0 m ρ c main_arg9 (by decide)).trans (W1_arg9 m ρ c)
theorem W3_arg9 : W3 m ρ c (Proc.devRef .tc main_arg9) = a9 m c := by
  refine Eq.trans (b := W2 m ρ c (Proc.devRef .tc main_arg9)) (by host_keep) (W2_arg9 m ρ c)
theorem W4_arg9 : W4 m ρ c (Proc.devRef .tc main_arg9) = a9 m c := (r1 m ρ c main_arg9 (by decide)).trans (W3_arg9 m ρ c)
theorem W5_arg9 : W5 m ρ c (Proc.devRef .tc main_arg9) = a9 m c := by
  refine Eq.trans (b := W4 m ρ c (Proc.devRef .tc main_arg9)) (by host_keep) (W4_arg9 m ρ c)
theorem W6_arg9 : W6 m ρ c (Proc.devRef .tc main_arg9) = a9 m c := (r2 m ρ c main_arg9 (by decide)).trans (W5_arg9 m ρ c)
theorem W7_arg9 : W7 m ρ c (Proc.devRef .tc main_arg9) = a9 m c := by
  refine Eq.trans (b := W6 m ρ c (Proc.devRef .tc main_arg9)) (by host_keep) (W6_arg9 m ρ c)
theorem W8_arg9 : W8 m ρ c (Proc.devRef .tc main_arg9) = a9 m c := (r3 m ρ c main_arg9 (by decide)).trans (W7_arg9 m ρ c)
theorem W1_arg10 : W1 m ρ c (Proc.devRef .tc main_arg10) = a10 m c := by
  refine Eq.trans (b := W0 m ρ c (Proc.devRef .tc main_arg10)) (by host_keep) rfl
theorem W2_arg10 : W2 m ρ c (Proc.devRef .tc main_arg10) = a10 m c := (r0 m ρ c main_arg10 (by decide)).trans (W1_arg10 m ρ c)
theorem W3_arg10 : W3 m ρ c (Proc.devRef .tc main_arg10) = a10 m c := by
  refine Eq.trans (b := W2 m ρ c (Proc.devRef .tc main_arg10)) (by host_keep) (W2_arg10 m ρ c)
theorem W4_arg10 : W4 m ρ c (Proc.devRef .tc main_arg10) = a10 m c := (r1 m ρ c main_arg10 (by decide)).trans (W3_arg10 m ρ c)
theorem W5_arg10 : W5 m ρ c (Proc.devRef .tc main_arg10) = a10 m c := by
  refine Eq.trans (b := W4 m ρ c (Proc.devRef .tc main_arg10)) (by host_keep) (W4_arg10 m ρ c)
theorem W6_arg10 : W6 m ρ c (Proc.devRef .tc main_arg10) = a10 m c := (r2 m ρ c main_arg10 (by decide)).trans (W5_arg10 m ρ c)
theorem W7_arg10 : W7 m ρ c (Proc.devRef .tc main_arg10) = a10 m c := by
  refine Eq.trans (b := W6 m ρ c (Proc.devRef .tc main_arg10)) (by host_keep) (W6_arg10 m ρ c)
theorem W8_arg10 : W8 m ρ c (Proc.devRef .tc main_arg10) = a10 m c := (r3 m ρ c main_arg10 (by decide)).trans (W7_arg10 m ρ c)
theorem W1_arg11 : W1 m ρ c (Proc.devRef .tc main_arg11) = a11 m c := by
  refine Eq.trans (b := W0 m ρ c (Proc.devRef .tc main_arg11)) (by host_keep) rfl
theorem W2_arg11 : W2 m ρ c (Proc.devRef .tc main_arg11) = a11 m c := (r0 m ρ c main_arg11 (by decide)).trans (W1_arg11 m ρ c)
theorem W1_arg12 : W1 m ρ c (Proc.devRef .tc main_arg12) = a12 m c := by
  refine Eq.trans (b := W0 m ρ c (Proc.devRef .tc main_arg12)) (by host_keep) rfl
theorem W2_arg12 : W2 m ρ c (Proc.devRef .tc main_arg12) = a12 m c := (r0 m ρ c main_arg12 (by decide)).trans (W1_arg12 m ρ c)
theorem W1_arg13 : W1 m ρ c (Proc.devRef .tc main_arg13) = a13 m c := by
  refine Eq.trans (b := W0 m ρ c (Proc.devRef .tc main_arg13)) (by host_keep) rfl
theorem W2_arg13 : W2 m ρ c (Proc.devRef .tc main_arg13) = a13 m c := (r0 m ρ c main_arg13 (by decide)).trans (W1_arg13 m ρ c)
theorem W3_arg13 : W3 m ρ c (Proc.devRef .tc main_arg13) = a13 m c := by
  refine Eq.trans (b := W2 m ρ c (Proc.devRef .tc main_arg13)) (by host_keep) (W2_arg13 m ρ c)
theorem W1_arg14 : W1 m ρ c (Proc.devRef .tc main_arg14) = a14 m c := by
  refine Eq.trans (b := W0 m ρ c (Proc.devRef .tc main_arg14)) (by host_keep) rfl
theorem W2_arg14 : W2 m ρ c (Proc.devRef .tc main_arg14) = a14 m c := (r0 m ρ c main_arg14 (by decide)).trans (W1_arg14 m ρ c)
theorem W1_arg15 : W1 m ρ c (Proc.devRef .tc main_arg15) = a15 m c := by
  refine Eq.trans (b := W0 m ρ c (Proc.devRef .tc main_arg15)) (by host_keep) rfl
theorem W2_arg15 : W2 m ρ c (Proc.devRef .tc main_arg15) = a15 m c := (r0 m ρ c main_arg15 (by decide)).trans (W1_arg15 m ρ c)
theorem W1_arg16 : W1 m ρ c (Proc.devRef .tc main_arg16) = a16 m c := by
  refine Eq.trans (b := W0 m ρ c (Proc.devRef .tc main_arg16)) (by host_keep) rfl
theorem W2_arg16 : W2 m ρ c (Proc.devRef .tc main_arg16) = a16 m c := (r0 m ρ c main_arg16 (by decide)).trans (W1_arg16 m ρ c)
theorem W1_arg17 : W1 m ρ c (Proc.devRef .tc main_arg17) = a17 m c := by
  refine Eq.trans (b := W0 m ρ c (Proc.devRef .tc main_arg17)) (by host_keep) rfl
theorem W2_arg17 : W2 m ρ c (Proc.devRef .tc main_arg17) = a17 m c := (r0 m ρ c main_arg17 (by decide)).trans (W1_arg17 m ρ c)
theorem W3_arg17 : W3 m ρ c (Proc.devRef .tc main_arg17) = a17 m c := by
  refine Eq.trans (b := W2 m ρ c (Proc.devRef .tc main_arg17)) (by host_keep) (W2_arg17 m ρ c)
theorem W4_arg17 : W4 m ρ c (Proc.devRef .tc main_arg17) = a17 m c := (r1 m ρ c main_arg17 (by decide)).trans (W3_arg17 m ρ c)
theorem W5_arg17 : W5 m ρ c (Proc.devRef .tc main_arg17) = a17 m c := by
  refine Eq.trans (b := W4 m ρ c (Proc.devRef .tc main_arg17)) (by host_keep) (W4_arg17 m ρ c)
theorem W6_arg17 : W6 m ρ c (Proc.devRef .tc main_arg17) = a17 m c := (r2 m ρ c main_arg17 (by decide)).trans (W5_arg17 m ρ c)
theorem W7_arg17 : W7 m ρ c (Proc.devRef .tc main_arg17) = a17 m c := by
  refine Eq.trans (b := W6 m ρ c (Proc.devRef .tc main_arg17)) (by host_keep) (W6_arg17 m ρ c)
theorem W8_arg17 : W8 m ρ c (Proc.devRef .tc main_arg17) = a17 m c := (r3 m ρ c main_arg17 (by decide)).trans (W7_arg17 m ρ c)
theorem W9_arg17 : W9 m ρ c (Proc.devRef .tc main_arg17) = a17 m c := by
  refine Eq.trans (b := W8 m ρ c (Proc.devRef .tc main_arg17)) (by host_keep) (W8_arg17 m ρ c)
theorem W10_arg17 : W10 m ρ c (Proc.devRef .tc main_arg17) = a17 m c := (r4 m ρ c main_arg17 (by decide)).trans (W9_arg17 m ρ c)
theorem W11_arg17 : W11 m ρ c (Proc.devRef .tc main_arg17) = a17 m c := by
  refine Eq.trans (b := W10 m ρ c (Proc.devRef .tc main_arg17)) (by host_keep) (W10_arg17 m ρ c)
theorem W1_arg18 : W1 m ρ c (Proc.devRef .tc main_arg18) = a18 m c := by
  refine Eq.trans (b := W0 m ρ c (Proc.devRef .tc main_arg18)) (by host_keep) rfl
theorem W2_arg18 : W2 m ρ c (Proc.devRef .tc main_arg18) = a18 m c := (r0 m ρ c main_arg18 (by decide)).trans (W1_arg18 m ρ c)
theorem W3_arg18 : W3 m ρ c (Proc.devRef .tc main_arg18) = a18 m c := by
  refine Eq.trans (b := W2 m ρ c (Proc.devRef .tc main_arg18)) (by host_keep) (W2_arg18 m ρ c)
theorem W4_arg18 : W4 m ρ c (Proc.devRef .tc main_arg18) = a18 m c := (r1 m ρ c main_arg18 (by decide)).trans (W3_arg18 m ρ c)
theorem W5_arg18 : W5 m ρ c (Proc.devRef .tc main_arg18) = a18 m c := by
  refine Eq.trans (b := W4 m ρ c (Proc.devRef .tc main_arg18)) (by host_keep) (W4_arg18 m ρ c)
theorem W6_arg18 : W6 m ρ c (Proc.devRef .tc main_arg18) = a18 m c := (r2 m ρ c main_arg18 (by decide)).trans (W5_arg18 m ρ c)
theorem W7_arg18 : W7 m ρ c (Proc.devRef .tc main_arg18) = a18 m c := by
  refine Eq.trans (b := W6 m ρ c (Proc.devRef .tc main_arg18)) (by host_keep) (W6_arg18 m ρ c)
theorem W8_arg18 : W8 m ρ c (Proc.devRef .tc main_arg18) = a18 m c := (r3 m ρ c main_arg18 (by decide)).trans (W7_arg18 m ρ c)
theorem W9_arg18 : W9 m ρ c (Proc.devRef .tc main_arg18) = a18 m c := by
  refine Eq.trans (b := W8 m ρ c (Proc.devRef .tc main_arg18)) (by host_keep) (W8_arg18 m ρ c)
theorem W10_arg18 : W10 m ρ c (Proc.devRef .tc main_arg18) = a18 m c := (r4 m ρ c main_arg18 (by decide)).trans (W9_arg18 m ρ c)

/-! ## The degree vectors (written before the first region) and the bias row of the first region -/

/-- In-degree: the scatter-add of ones at `dst`. -/
theorem W1_v3 : W1 m ρ c (Proc.devRef .tc main_v3) = val_main_v3 (F := Ideal) (a2 m c) := by
  show StableHlo.after hostOps0 (W0 m ρ c) (Proc.devRef .tc main_v3) = _
  after_results_simp
  rfl
/-- Out-degree: the scatter-add of ones at `src`. -/
theorem W1_v6 : W1 m ρ c (Proc.devRef .tc main_v6) = val_main_v6 (F := Ideal) (a1 m c) := by
  show StableHlo.after hostOps0 (W0 m ρ c) (Proc.devRef .tc main_v6) = _
  after_results_simp
  rfl
/-- The encoder's bias as a row: the reshape of `b_in` to [1, 128]. -/
theorem W1_v7_row (j : Fin 128) : (W1 m ρ c (Proc.devRef .tc main_v7) : S1x128.Idx → EReal) (ix2 0 j) = (a4 m c : S128.Idx → EReal) (ix1 j) := by
  show StableHlo.after hostOps0 (W0 m ρ c) (Proc.devRef .tc main_v7) (ix2 0 j) = _
  after_results_simp
  exact shapeCast_a_1a_apply _ _ 0 j

theorem W2_v3 : W2 m ρ c (Proc.devRef .tc main_v3) = val_main_v3 (F := Ideal) (a2 m c) := (r0 m ρ c main_v3 (by decide)).trans (W1_v3 m ρ c)
theorem W2_v6 : W2 m ρ c (Proc.devRef .tc main_v6) = val_main_v6 (F := Ideal) (a1 m c) := (r0 m ρ c main_v6 (by decide)).trans (W1_v6 m ρ c)
theorem W3_v3 : W3 m ρ c (Proc.devRef .tc main_v3) = val_main_v3 (F := Ideal) (a2 m c) := by
  refine Eq.trans (b := W2 m ρ c (Proc.devRef .tc main_v3)) (by host_keep) (W2_v3 m ρ c)
theorem W3_v6 : W3 m ρ c (Proc.devRef .tc main_v6) = val_main_v6 (F := Ideal) (a1 m c) := by
  refine Eq.trans (b := W2 m ρ c (Proc.devRef .tc main_v6)) (by host_keep) (W2_v6 m ρ c)
theorem W4_v3 : W4 m ρ c (Proc.devRef .tc main_v3) = val_main_v3 (F := Ideal) (a2 m c) := (r1 m ρ c main_v3 (by decide)).trans (W3_v3 m ρ c)
theorem W4_v6 : W4 m ρ c (Proc.devRef .tc main_v6) = val_main_v6 (F := Ideal) (a1 m c) := (r1 m ρ c main_v6 (by decide)).trans (W3_v6 m ρ c)

end Cert.Chain

end
-- ==== Proof.Spec.lean ====
/-
  The network, layer by layer, as plain functions of matrices on the extended reals.

  A matrix is a function of a row and a column index; a vector a function of one index. Every layer below is
  what BOTH programs compute for that layer once each is read at an index: the tiled kernels (a product against a
  zero accumulator, a row vector spread over the rows of a tile) and the host operations of the reference
  (`dot_general`, `broadcast_in_dim`, `maximum`, ...). Sums are over the contracted axis in its natural order;
  no law of the extended reals beyond the commutative monoid (+) is used anywhere, so nothing here asks for finiteness.
-/
import Idealize.ShloMosaic.PureOps.Ideal

noncomputable section

namespace Cert.Spec

open Idealize.ShloMosaic

/-- The batch-norm epsilon, the binary32 value nearest 1e-5; both programs carry this same word. -/
def eps : EReal := Ideal.ofBits .f32 0x3727C5AC#32

/-- Row `k` of the upper half of a 256-row weight matrix (the rows that meet the first operand of a concatenation). -/
def lo (k : Fin 128) : Fin 256 := ⟨k.val, by omega⟩
/-- Row `k` of the lower half (the rows that meet the second operand): row `k + 128`. -/
def hi (k : Fin 128) : Fin 256 := ⟨k.val + 128, by omega⟩

/-- `relu (X · W + b)`: the input encoder, 256 features to 128. -/
def denseRelu (X : Fin 50000 → Fin 256 → EReal) (W : Fin 256 → Fin 128 → EReal) (b : Fin 128 → EReal)
    (r : Fin 50000) (j : Fin 128) : EReal :=
  max ((∑ k : Fin 256, X r k * W k j) + b j) 0

/-- `relu (h · Wh + n · Wn + b)`: a layer on the concatenation `[h, n]`, written with the weight matrix split into the
    rows that meet `h` and the rows that meet `n`. -/
def pairRelu (h n : Fin 50000 → Fin 128 → EReal) (Wh Wn : Fin 128 → Fin 128 → EReal) (b : Fin 128 → EReal)
    (r : Fin 50000) (j : Fin 128) : EReal :=
  max (((∑ k : Fin 128, h r k * Wh k j) + (∑ k : Fin 128, n r k * Wn k j)) + b j) 0

/-- The attention gate of a row: `sigmoid (a · w2 + b2)`. -/
def gate (a : Fin 50000 → Fin 128 → EReal) (w2 : Fin 128 → EReal) (b2 : EReal) (r : Fin 50000) : EReal :=
  Ideal.logistic ((∑ k : Fin 128, a r k * w2 k) + b2)

/-- The fused aggregation / attention layer: `agg = relu ([h, n] · Wagg + bagg)`, `a = relu ([h, agg] · W1 + b1)`,
    result `h + agg * sigmoid (a · w2 + b2)`. -/
def attn (h n : Fin 50000 → Fin 128 → EReal) (Wh Wn : Fin 128 → Fin 128 → EReal) (ba : Fin 128 → EReal)
    (Uh Ua : Fin 128 → Fin 128 → EReal) (b1 : Fin 128 → EReal) (w2 : Fin 128 → EReal) (b2 : EReal)
    (r : Fin 50000) (j : Fin 128) : EReal :=
  h r j + pairRelu h n Wh Wn ba r j * gate (pairRelu h (pairRelu h n Wh Wn ba) Uh Ua b1) w2 b2 r

/-- A graph-convolution layer after the aggregation: `relu ((R · W + b - mean) * (gamma * rsqrt (var + eps)) + beta)`. -/
def gc (R : Fin 50000 → Fin 128 → EReal) (W : Fin 128 → Fin 128 → EReal) (b gamma beta mean var : Fin 128 → EReal)
    (r : Fin 50000) (j : Fin 128) : EReal :=
  max (((((∑ k : Fin 128, R r k * W k j) + b j) - mean j) * (gamma j * Ideal.rsqrt (var j + eps))) + beta j) 0

/-- The same layer with the residual connection: `gc ... + hprev`. -/
def gcResid (R : Fin 50000 → Fin 128 → EReal) (W : Fin 128 → Fin 128 → EReal) (b gamma beta mean var : Fin 128 → EReal)
    (hprev : Fin 50000 → Fin 128 → EReal) (r : Fin 50000) (j : Fin 128) : EReal :=
  gc R W b gamma beta mean var r j + hprev r j

/-- The output projection `X · W + b`, 128 features to 50 classes. -/
def dense (X : Fin 50000 → Fin 128 → EReal) (W : Fin 128 → Fin 50 → EReal) (b : Fin 50 → EReal)
    (r : Fin 50000) (j : Fin 50) : EReal :=
  (∑ k : Fin 128, X r k * W k j) + b j

end Cert.Spec

end
-- ==== Proof.KRegionDense.lean ====
/-
  What the two plain dense kernels leave in their output arrays, index by index.

  Region 0 computes `max (x · w + b) 0` and region 5 computes `x · w + b`, each on 25 row tiles of 2000 rows.
  A tile's result at (p, q) is a product against a zero accumulator (the sum over the contracted axis of
  the products), plus the bias row spread over the tile's rows; the tile of grid point t sits at rows
  2000·t … 2000·t + 1999 of the array, and the 25 tiles cover all 50000 rows.
-/
import proofs.«167285_j14499809591443_1_alg».proof.Proof.Gen.KernelIdeal.Frame
import proofs.«167285_j14499809591443_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx Idealize.SL.Sem
open Idealize.ShloMosaic.TcCoe
open Idealize.ShloMosaic.Pipeline (Dat Cfg Window)

/-! ## The products against a zero accumulator, read at an index

The operand indices of a [m,k] × [k,n] product at output index (p, q) and contraction coordinate k are (p, k) and (k, q). -/

theorem denseRelu_dot_lhs0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem denseRelu_dot_lhs1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem denseRelu_dot_rhs0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem denseRelu_dot_rhs1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The [2000,256] × [256,128] product into the zero accumulator at (p, q): the sum over the 256 contracted
    coordinates of the products. -/
theorem denseRelu_prod_apply (x0 : FVec Ideal S2000x256 .f32) (x1 : FVec Ideal S256x128 .f32) (p : Fin 2000) (q : Fin 128) :
    matmul dot_S2000x256_S256x128_S2000x128_1_0_0_1_n_n none x0 x1 (constant (F := Ideal) S2000x128 .f32 0x00000000#32) (ix2 p q)
      = ∑ k : Fin 256, x0 (ix2 p k) * x1 (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k :=
    funext fun a => Fin.ext (by
      match a with
      | ⟨0, _⟩ => exact denseRelu_dot_lhs0 _ _
      | ⟨1, _⟩ => exact (denseRelu_dot_lhs1 _ _).trans hk)
  have er : dot_S2000x256_S256x128_S2000x128_1_0_0_1_n_n.rhsIdx (ix2 p q) ((contrEquiv1 dot_S2000x256_S256x128_S2000x128_1_0_0_1_n_n 256 rfl rfl).symm k) = ix2 k q :=
    funext fun a => Fin.ext (by
      match a with
      | ⟨0, _⟩ => exact (denseRelu_dot_rhs0 _ _).trans hk
      | ⟨1, _⟩ => exact denseRelu_dot_rhs1 _ _)
  rw [el, er]

theorem dense_dot_lhs0 (i : S2000x50.Idx) (q : dot_S2000x128_S128x50_S2000x50_1_0_0_1_n_n.contr.Idx) : (dot_S2000x128_S128x50_S2000x50_1_0_0_1_n_n.lhsIdx i q 0).val = (i 0).val := by
  unfold DotDims.lhsIdx
  rw [dif_neg (show ¬(0 : Fin S2000x128.rank) ∈ dot_S2000x128_S128x50_S2000x50_1_0_0_1_n_n.lhsBatch by decide), dif_pos (show (0 : Fin S2000x128.rank) ∈ dot_S2000x128_S128x50_S2000x50_1_0_0_1_n_n.lhsNonContracting by decide)]
  rfl
theorem dense_dot_lhs1 (i : S2000x50.Idx) (q : dot_S2000x128_S128x50_S2000x50_1_0_0_1_n_n.contr.Idx) : (dot_S2000x128_S128x50_S2000x50_1_0_0_1_n_n.lhsIdx i q 1).val = (q ⟨0, by decide⟩).val :=
  dot_S2000x128_S128x50_S2000x50_1_0_0_1_n_n.lhsIdx_val_of_single rfl i q
theorem dense_dot_rhs0 (i : S2000x50.Idx) (q : dot_S2000x128_S128x50_S2000x50_1_0_0_1_n_n.contr.Idx) : (dot_S2000x128_S128x50_S2000x50_1_0_0_1_n_n.rhsIdx i q 0).val = (q ⟨0, by decide⟩).val :=
  dot_S2000x128_S128x50_S2000x50_1_0_0_1_n_n.rhsIdx_val_of_single rfl i q
theorem dense_dot_rhs1 (i : S2000x50.Idx) (q : dot_S2000x128_S128x50_S2000x50_1_0_0_1_n_n.contr.Idx) : (dot_S2000x128_S128x50_S2000x50_1_0_0_1_n_n.rhsIdx i q 1).val = (i 1).val := by
  unfold DotDims.rhsIdx
  rw [dif_neg (show ¬(1 : Fin S128x50.rank) ∈ dot_S2000x128_S128x50_S2000x50_1_0_0_1_n_n.rhsBatch by decide), dif_pos (show (1 : Fin S128x50.rank) ∈ dot_S2000x128_S128x50_S2000x50_1_0_0_1_n_n.rhsNonContracting by decide)]
  rfl

/-- The [2000,128] × [128,50] product into the zero accumulator at (p, q): the sum over the 128 contracted
    coordinates of the products. -/
theorem dense_prod_apply (x0 : FVec Ideal S2000x128 .f32) (x1 : FVec Ideal S128x50 .f32) (p : Fin 2000) (q : Fin 50) :
    matmul dot_S2000x128_S128x50_S2000x50_1_0_0_1_n_n none x0 x1 (constant (F := Ideal) S2000x50 .f32 0x00000000#32) (ix2 p q)
      = ∑ k : Fin 128, x0 (ix2 p k) * x1 (ix2 k q) := by
  simp only [matmul]
  rw [Ideal.matmul_constant_zero_apply, ← Equiv.sum_comp (contrEquiv1 dot_S2000x128_S128x50_S2000x50_1_0_0_1_n_n 128 rfl rfl).symm]
  refine Finset.sum_congr rfl fun k _ => ?_
  have hk := contrEquiv1_symm_val dot_S2000x128_S128x50_S2000x50_1_0_0_1_n_n 128 rfl rfl k
  have el : dot_S2000x128_S128x50_S2000x50_1_0_0_1_n_n.lhsIdx (ix2 p q) ((contrEquiv1 dot_S2000x128_S128x50_S2000x50_1_0_0_1_n_n 128 rfl rfl).symm k) = ix2 p k :=
    funext fun a => Fin.ext (by
      match a with
      | ⟨0, _⟩ => exact dense_dot_lhs0 _ _
      | ⟨1, _⟩ => exact (dense_dot_lhs1 _ _).trans hk)
  have er : dot_S2000x128_S128x50_S2000x50_1_0_0_1_n_n.rhsIdx (ix2 p q) ((contrEquiv1 dot_S2000x128_S128x50_S2000x50_1_0_0_1_n_n 128 rfl rfl).symm k) = ix2 k q :=
    funext fun a => Fin.ext (by
      match a with
      | ⟨0, _⟩ => exact (dense_dot_rhs0 _ _).trans hk
      | ⟨1, _⟩ => exact dense_dot_rhs1 _ _)
  rw [el, er]

/-! ## The tiles' results at an index -/

/-- Region 0's tile at (p, q): `max (Σ_k x0[p,k] · x1[k,q] + x2[0,q]) 0`. -/
theorem tile0_apply (x0 : Vec Ideal S2000x256 .f32) (x1 : Vec Ideal S256x128 .f32) (x2 : Vec Ideal S1x128 .f32)
    (p : Fin 2000) (q : Fin 128) :
    k0_pay1 (F := Ideal) x0 x1 x2 (ix2 p q)
      = max ((∑ k : Fin 256, x0 (ix2 p k) * x1 (ix2 k q)) + x2 (ix2 0 q)) 0 := by
  unfold k0_pay1
  show max (matmul dot_S2000x256_S256x128_S2000x128_1_0_0_1_n_n none x0 x1 (constant (F := Ideal) S2000x128 .f32 0x00000000#32) (ix2 p q)
      + broadcastTo S2000x128 (shapeCast S1x128 x2 shapeCasts_S1x128_S1x128) broadcasts_S1x128_S2000x128 (ix2 p q))
    (Ideal.ofBits .f32 0x00000000#32) = _
  rw [denseRelu_prod_apply, shapeCast_self, Ideal.ofBits_zero_f32]
  exact congrArg (fun z => max ((∑ k : Fin 256, x0 (ix2 p k) * x1 (ix2 k q)) + z) 0)
    (broadcastTo_1b_ab_apply x2 broadcasts_S1x128_S2000x128 p q)

/-- Region 5's tile at (p, q): `Σ_k x0[p,k] · x1[k,q] + x2[0,q]`. -/
theorem tile5_apply (x0 : Vec Ideal S2000x128 .f32) (x1 : Vec Ideal S128x50 .f32) (x2 : Vec Ideal S1x50 .f32)
    (p : Fin 2000) (q : Fin 50) :
    k5_pay1 (F := Ideal) x0 x1 x2 (ix2 p q)
      = (∑ k : Fin 128, x0 (ix2 p k) * x1 (ix2 k q)) + x2 (ix2 0 q) := by
  unfold k5_pay1
  show matmul dot_S2000x128_S128x50_S2000x50_1_0_0_1_n_n none (shapeCast S2000x128 x0 shapeCasts_S2000x128_S2000x128) x1 (constant (F := Ideal) S2000x50 .f32 0x00000000#32) (ix2 p q)
      + broadcastTo S2000x50 (shapeCast S1x50 x2 shapeCasts_S1x50_S1x50) broadcasts_S1x50_S2000x50 (ix2 p q) = _
  rw [dense_prod_apply, shapeCast_self, shapeCast_self]
  exact congrArg (fun z => (∑ k : Fin 128, x0 (ix2 p k) * x1 (ix2 k q)) + z)
    (broadcastTo_1b_ab_apply x2 broadcasts_S1x50_S2000x50 p q)

/-! ## From the tiles to the arrays

The region's entry contents are a parameter `V`; each input window's array is named by a hypothesis. -/

variable (V : (c : Dev nD) → (b : Ref sig .tc) → Buf (Elt Ideal) ((c : Thread nD τ).loc b))

/-- The whole-tile rectangle's offsets are zero on both axes. -/
theorem denseTile_offsets_zero : (![0, 0] : Fin 2 → Nat) = fun _ => 0 := funext fun a => by fin_cases a <;> rfl

/-! ## Region 0: from the tiles to the array -/

/-- Region 0's output array as one function of its three input arrays: `max (A0 · A1 + A2) 0`, index by index. -/
def denseReluArr (A0 : S50000x256.Idx → EReal) (A1 : S256x128.Idx → EReal) (A2 : S1x128.Idx → EReal) : S50000x128.Idx → EReal :=
  fun i => Spec.denseRelu (fun r k => A0 (ix2 r k)) (fun k j => A1 (ix2 k j)) (fun j => A2 (ix2 0 j))
    ⟨(i 0).val, idx2_lt0 i⟩ ⟨(i 1).val, idx2_lt1 i⟩

/-- A tile of region 0 whose row-tiled input holds rows b … b + 1999 of `A0`, and whose other inputs are `A1` and `A2`,
    holds at (p, q) the whole-array function at (b + p, q). -/
theorem tile0_in_array (x0 : Vec Ideal S2000x256 .f32) (x1 : Vec Ideal S256x128 .f32) (x2 : Vec Ideal S1x128 .f32)
    (A0 : S50000x256.Idx → EReal) (A1 : S256x128.Idx → EReal) (A2 : S1x128.Idx → EReal) (b : Nat)
    (e0 : ∀ (p : Fin 2000) (k : Fin 256) (r : Fin 50000), r.val = b + p.val → x0 (ix2 p k) = A0 (ix2 r k))
    (e1 : ∀ (k : Fin 256) (q : Fin 128), x1 (ix2 k q) = A1 (ix2 k q))
    (e2 : ∀ q : Fin 128, x2 (ix2 0 q) = A2 (ix2 0 q))
    (p : Fin 2000) (q : Fin 128) (r : Fin 50000) (hr : r.val = b + p.val) :
    k0_pay1 (F := Ideal) x0 x1 x2 (ix2 p q) = denseReluArr A0 A1 A2 (ix2 r q) := by
  rw [tile0_apply]
  show _ = max ((∑ k : Fin 256, A0 (ix2 r k) * A1 (ix2 k q)) + A2 (ix2 0 q)) 0
  rw [e2 q]
  refine congrArg (fun z => max (z + A2 (ix2 0 q)) 0) (Finset.sum_congr rfl fun k _ => ?_)
  rw [e0 p k r hr, e1 k q]

/-- The index maps over the 25 grid points: the row-tiled windows sit at block (t, 0), the weight and bias windows at
    block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Tile t of the row-tiled input is rows 2000·t … 2000·t + 1999 of its array. -/
theorem blk0_0_apply (c : Dev nD) (A0 : S50000x256.Idx → EReal) (h0 : V c (Pipeline.arrRef spec0 0) = A0) (t : Fin cfg0.N)
    (p : Fin 2000) (k : Fin 256) (r : Fin 50000) (hr : r.val = 2000 * t.val + p.val) :
    (iblk0 (F := Ideal) V c 0 t : Vec Ideal S2000x256 .f32) (ix2 p k) = A0 (ix2 r k) := by
  subst h0
  obtain ⟨i0, i1, -⟩ := idx0 t
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 2000 + 1 * p.val = r.val; rw [i0, hr]; omega
  | ⟨1, _⟩ => show win0_0.index t (1 : Fin 2) * 256 + 1 * k.val = k.val; rw [i1]; omega

/-- The weight window's one tile is the whole weight matrix. -/
theorem blk0_1_apply (c : Dev nD) (A1 : S256x128.Idx → EReal) (h1 : V c (Pipeline.arrRef spec0 1) = A1) (t : Fin cfg0.N)
    (k : Fin 256) (q : Fin 128) :
    (iblk0 (F := Ideal) V c 1 t : Vec Ideal S256x128 .f32) (ix2 k q) = A1 (ix2 k q) := by
  subst h1
  obtain ⟨-, -, i0, i1, -⟩ := idx0 t
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 256 + 1 * k.val = k.val; rw [i0]; omega
  | ⟨1, _⟩ => show win0_1.index t (1 : Fin 2) * 128 + 1 * q.val = q.val; rw [i1]; omega

/-- The bias window's one tile is the whole bias row. -/
theorem blk0_2_apply (c : Dev nD) (A2 : S1x128.Idx → EReal) (h2 : V c (Pipeline.arrRef spec0 2) = A2) (t : Fin cfg0.N)
    (q : Fin 128) :
    (iblk0 (F := Ideal) V c 2 t : Vec Ideal S1x128 .f32) (ix2 0 q) = A2 (ix2 0 q) := by
  subst h2
  obtain ⟨-, -, -, -, i0, i1, -⟩ := idx0 t
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t (0 : Fin 2) * 1 + 1 * 0 = 0; rw [i0]
  | ⟨1, _⟩ => show win0_2.index t (1 : Fin 2) * 128 + 1 * q.val = q.val; rw [i1]; omega

/-- Element (p, q) of the output's tile t sits at row 2000·t + p, column q of the output array. -/
theorem out0_emb (t : Fin cfg0.N) (p : Fin 2000) (q : Fin 128) (r : Fin 50000) (hr : r.val = 2000 * t.val + p.val) :
    ((cfg0.win 3).blk t).view.emb (ix2 p q) = (ix2 r q : S50000x128.Idx) := by
  obtain ⟨-, -, -, -, -, -, i0, i1⟩ := idx0 t
  funext a; apply Fin.ext
  match a with
  | ⟨0, _⟩ => show win0_3.index t (0 : Fin 2) * 2000 + 1 * p.val = r.val; rw [i0, hr]; omega
  | ⟨1, _⟩ => show win0_3.index t (1 : Fin 2) * 128 + 1 * q.val = q.val; rw [i1]; omega

/-- What grid point t writes back is tile t of the whole-array function. -/
theorem flushed0_eq (c : Dev nD) (A0 : S50000x256.Idx → EReal) (A1 : S256x128.Idx → EReal) (A2 : S1x128.Idx → EReal)
    (h0 : V c (Pipeline.arrRef spec0 0) = A0) (h1 : V c (Pipeline.arrRef spec0 1) = A1) (h2 : V c (Pipeline.arrRef spec0 2) = A2)
    (t : Fin cfg0.N) :
    (dat0 (F := Ideal) V c).flushed 3 t = ((cfg0.win 3).blk t).view.read (Elt Ideal) (denseReluArr A0 A1 A2) := by
  show (cfg0.win 3).cut (grid0.coords t) ((dat0 V c).after 3 t) = _
  rw [after0_3]
  unfold out0_3
  rw [View.canon_unit_zero denseTile_offsets_zero]
  simp only [View.ld_unit_zero (S := S2000x256) denseTile_offsets_zero, View.ld_unit_zero (S := S256x128) denseTile_offsets_zero, View.ld_unit_zero (S := S1x128) denseTile_offsets_zero]
  funext j
  obtain ⟨p, q, rfl⟩ : ∃ (p : Fin 2000) (q : Fin 128), j = (ix2 p q : S2000x128.Idx) := ⟨j 0, j 1, @eq_ix2 2000 128 j⟩
  have hN : cfg0.N = 25 := N_0
  have hp : 2000 * t.val + p.val < 50000 := by have := t.isLt; have := p.isLt; omega
  show k0_pay1 (F := Ideal) (iblk0 V c 0 t) (iblk0 V c 1 t) (iblk0 V c 2 t) (ix2 p q)
    = denseReluArr A0 A1 A2 (((cfg0.win 3).blk t).view.emb (ix2 p q))
  rw [out0_emb t p q ⟨2000 * t.val + p.val, hp⟩ rfl]
  exact tile0_in_array (iblk0 V c 0 t) (iblk0 V c 1 t) (iblk0 V c 2 t) A0 A1 A2 (2000 * t.val)
    (fun p k r hr => blk0_0_apply V c A0 h0 t p k r hr) (fun k q => blk0_1_apply V c A1 h1 t k q)
    (fun q => blk0_2_apply V c A2 h2 t q) p q ⟨2000 * t.val + p.val, hp⟩ rfl

/-- An index of the output array is in tile t iff each coordinate is in the tile's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v8).slice (win0_3.rect t)).set ↔ _
  rw [View.set_slice_whole, Rect.mem_set_unit]
  exact Iff.rfl

/-- Row r of the output is covered by grid point r / 2000. -/
theorem cover0 (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 25 := N_0
  obtain ⟨t, ht⟩ : ∃ t : Fin cfg0.N, t.val = (i 0).val / 2000 :=
    ⟨⟨(i 0).val / 2000, lt_of_lt_of_eq (show (i 0).val / 2000 < 25 by omega) hN.symm⟩, rfl⟩
  obtain ⟨-, -, -, -, -, -, e0, e1⟩ := idx0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; rw [e0, ht]; omega
  | ⟨1, _⟩ => show win0_3.index t (1 : Fin 2) * 128 ≤ (i 1).val ∧ (i 1).val < win0_3.index t (1 : Fin 2) * 128 + 128; rw [e1]; omega

/-- The output array after the region: the whole-array function of the three input arrays. -/
theorem array0 (c : Dev nD) (A0 : S50000x256.Idx → EReal) (A1 : S256x128.Idx → EReal) (A2 : S1x128.Idx → EReal)
    (h0 : V c (Pipeline.arrRef spec0 0) = A0) (h1 : V c (Pipeline.arrRef spec0 1) = A1) (h2 : V c (Pipeline.arrRef spec0 2) = A2) :
    (dat0 (F := Ideal) V c).arrAt 3 cfg0.N = denseReluArr A0 A1 A2 :=
  (dat0 (F := Ideal) V c).arrAt_eq_of_cover 3 (denseReluArr A0 A1 A2) (fun t _ => flushed0_eq V c A0 A1 A2 h0 h1 h2 t) cover0

/-- REGION 0: the output array at (r, j) is `max (Σ_k x[r,k] · w[k,j] + b[0,j]) 0`. -/
theorem region0_value (c : Dev nD) (A0 : S50000x256.Idx → EReal) (A1 : S256x128.Idx → EReal) (A2 : S1x128.Idx → EReal)
    (h0 : V c (Pipeline.arrRef spec0 0) = A0) (h1 : V c (Pipeline.arrRef spec0 1) = A1) (h2 : V c (Pipeline.arrRef spec0 2) = A2)
    (r : Fin 50000) (j : Fin 128) :
    (dat0 (F := Ideal) V c).arrAt 3 cfg0.N (ix2 r j)
      = Spec.denseRelu (fun r k => A0 (ix2 r k)) (fun k j => A1 (ix2 k j)) (fun j => A2 (ix2 0 j)) r j := by
  rw [array0 V c A0 A1 A2 h0 h1 h2]
  rfl

/-! ## Region 5: from the tiles to the array -/

/-- Region 5's output array as one function of its three input arrays: `A0 · A1 + A2`, index by index. -/
def denseArr (A0 : S50000x128.Idx → EReal) (A1 : S128x50.Idx → EReal) (A2 : S1x50.Idx → EReal) : S50000x50.Idx → EReal :=
  fun i => Spec.dense (fun r k => A0 (ix2 r k)) (fun k j => A1 (ix2 k j)) (fun j => A2 (ix2 0 j))
    ⟨(i 0).val, idx2_lt0 i⟩ ⟨(i 1).val, idx2_lt1 i⟩

/-- A tile of region 5 whose row-tiled input holds rows b … b + 1999 of `A0`, and whose other inputs are `A1` and `A2`,
    holds at (p, q) the whole-array function at (b + p, q). -/
theorem tile5_in_array (x0 : Vec Ideal S2000x128 .f32) (x1 : Vec Ideal S128x50 .f32) (x2 : Vec Ideal S1x50 .f32)
    (A0 : S50000x128.Idx → EReal) (A1 : S128x50.Idx → EReal) (A2 : S1x50.Idx → EReal) (b : Nat)
    (e0 : ∀ (p : Fin 2000) (k : Fin 128) (r : Fin 50000), r.val = b + p.val → x0 (ix2 p k) = A0 (ix2 r k))
    (e1 : ∀ (k : Fin 128) (q : Fin 50), x1 (ix2 k q) = A1 (ix2 k q))
    (e2 : ∀ q : Fin 50, x2 (ix2 0 q) = A2 (ix2 0 q))
    (p : Fin 2000) (q : Fin 50) (r : Fin 50000) (hr : r.val = b + p.val) :
    k5_pay1 (F := Ideal) x0 x1 x2 (ix2 p q) = denseArr A0 A1 A2 (ix2 r q) := by
  rw [tile5_apply]
  show _ = (∑ k : Fin 128, A0 (ix2 r k) * A1 (ix2 k q)) + A2 (ix2 0 q)
  rw [e2 q]
  refine congrArg (fun z => z + A2 (ix2 0 q)) (Finset.sum_congr rfl fun k _ => ?_)
  rw [e0 p k r hr, e1 k q]

/-- The index maps over the 25 grid points: the row-tiled windows sit at block (t, 0), the weight and bias windows at
    block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Tile t of the row-tiled input is rows 2000·t … 2000·t + 1999 of its array. -/
theorem blk5_0_apply (c : Dev nD) (A0 : S50000x128.Idx → EReal) (h0 : V c (Pipeline.arrRef spec5 0) = A0) (t : Fin cfg5.N)
    (p : Fin 2000) (k : Fin 128) (r : Fin 50000) (hr : r.val = 2000 * t.val + p.val) :
    (iblk5 (F := Ideal) V c 0 t : Vec Ideal S2000x128 .f32) (ix2 p k) = A0 (ix2 r k) := by
  subst h0
  obtain ⟨i0, i1, -⟩ := idx5 t
  unfold iblk5
  rw [View.read_apply]
  show V c (Pipeline.arrRef spec5 0) _ = V c (Pipeline.arrRef spec5 0) _
  refine congrArg (V c (Pipeline.arrRef spec5 0)) (funext fun a => Fin.ext ?_)
  match a with
  | ⟨0, _⟩ => show win5_0.index t (0 : Fin 2) * 2000 + 1 * p.val = r.val; rw [i0, hr]; omega
  | ⟨1, _⟩ => show win5_0.index t (1 : Fin 2) * 128 + 1 * k.val = k.val; rw [i1]; omega

/-- The weight window's one tile is the whole weight matrix. -/
theorem blk5_1_apply (c : Dev nD) (A1 : S128x50.Idx → EReal) (h1 : V c (Pipeline.arrRef spec5 1) = A1) (t : Fin cfg5.N)
    (k : Fin 128) (q : Fin 50) :
    (iblk5 (F := Ideal) V c 1 t : Vec Ideal S128x50 .f32) (ix2 k q) = A1 (ix2 k q) := by
  subst h1
  obtain ⟨-, -, i0, i1, -⟩ := idx5 t
  unfold iblk5
  rw [View.read_apply]
  show V c (Pipeline.arrRef spec5 1) _ = V c (Pipeline.arrRef spec5 1) _
  refine congrArg (V c (Pipeline.arrRef spec5 1)) (funext fun a => Fin.ext ?_)
  match a with
  | ⟨0, _⟩ => show win5_1.index t (0 : Fin 2) * 128 + 1 * k.val = k.val; rw [i0]; omega
  | ⟨1, _⟩ => show win5_1.index t (1 : Fin 2) * 50 + 1 * q.val = q.val; rw [i1]; omega

/-- The bias window's one tile is the whole bias row. -/
theorem blk5_2_apply (c : Dev nD) (A2 : S1x50.Idx → EReal) (h2 : V c (Pipeline.arrRef spec5 2) = A2) (t : Fin cfg5.N)
    (q : Fin 50) :
    (iblk5 (F := Ideal) V c 2 t : Vec Ideal S1x50 .f32) (ix2 0 q) = A2 (ix2 0 q) := by
  subst h2
  obtain ⟨-, -, -, -, i0, i1, -⟩ := idx5 t
  unfold iblk5
  rw [View.read_apply]
  show V c (Pipeline.arrRef spec5 2) _ = V c (Pipeline.arrRef spec5 2) _
  refine congrArg (V c (Pipeline.arrRef spec5 2)) (funext fun a => Fin.ext ?_)
  match a with
  | ⟨0, _⟩ => show win5_2.index t (0 : Fin 2) * 1 + 1 * 0 = 0; rw [i0]
  | ⟨1, _⟩ => show win5_2.index t (1 : Fin 2) * 50 + 1 * q.val = q.val; rw [i1]; omega

/-- Element (p, q) of the output's tile t sits at row 2000·t + p, column q of the output array. -/
theorem out5_emb (t : Fin cfg5.N) (p : Fin 2000) (q : Fin 50) (r : Fin 50000) (hr : r.val = 2000 * t.val + p.val) :
    ((cfg5.win 3).blk t).view.emb (ix2 p q) = (ix2 r q : S50000x50.Idx) := by
  obtain ⟨-, -, -, -, -, -, i0, i1⟩ := idx5 t
  funext a; apply Fin.ext
  match a with
  | ⟨0, _⟩ => show win5_3.index t (0 : Fin 2) * 2000 + 1 * p.val = r.val; rw [i0, hr]; omega
  | ⟨1, _⟩ => show win5_3.index t (1 : Fin 2) * 50 + 1 * q.val = q.val; rw [i1]; omega

/-- What grid point t writes back is tile t of the whole-array function. -/
theorem flushed5_eq (c : Dev nD) (A0 : S50000x128.Idx → EReal) (A1 : S128x50.Idx → EReal) (A2 : S1x50.Idx → EReal)
    (h0 : V c (Pipeline.arrRef spec5 0) = A0) (h1 : V c (Pipeline.arrRef spec5 1) = A1) (h2 : V c (Pipeline.arrRef spec5 2) = A2)
    (t : Fin cfg5.N) :
    (dat5 (F := Ideal) V c).flushed 3 t = ((cfg5.win 3).blk t).view.read (Elt Ideal) (denseArr A0 A1 A2) := by
  show (cfg5.win 3).cut (grid5.coords t) ((dat5 V c).after 3 t) = _
  rw [after5_3]
  unfold out5_3
  rw [View.canon_unit_zero denseTile_offsets_zero]
  simp only [View.ld_unit_zero (S := S2000x128) denseTile_offsets_zero, View.ld_unit_zero (S := S128x50) denseTile_offsets_zero, View.ld_unit_zero (S := S1x50) denseTile_offsets_zero]
  funext j
  obtain ⟨p, q, rfl⟩ : ∃ (p : Fin 2000) (q : Fin 50), j = (ix2 p q : S2000x50.Idx) := ⟨j 0, j 1, @eq_ix2 2000 50 j⟩
  have hN : cfg5.N = 25 := N_5
  have hp : 2000 * t.val + p.val < 50000 := by have := t.isLt; have := p.isLt; omega
  show k5_pay1 (F := Ideal) (iblk5 V c 0 t) (iblk5 V c 1 t) (iblk5 V c 2 t) (ix2 p q)
    = denseArr A0 A1 A2 (((cfg5.win 3).blk t).view.emb (ix2 p q))
  rw [out5_emb t p q ⟨2000 * t.val + p.val, hp⟩ rfl]
  exact tile5_in_array (iblk5 V c 0 t) (iblk5 V c 1 t) (iblk5 V c 2 t) A0 A1 A2 (2000 * t.val)
    (fun p k r hr => blk5_0_apply V c A0 h0 t p k r hr) (fun k q => blk5_1_apply V c A1 h1 t k q)
    (fun q => blk5_2_apply V c A2 h2 t q) p q ⟨2000 * t.val + p.val, hp⟩ rfl

/-- An index of the output array is in tile t iff each coordinate is in the tile's range on its axis. -/
theorem mem_blk5 (t : Fin cfg5.N) (i : S50000x50.Idx) :
    i ∈ ((cfg5.win 3).blk t).view.set ↔ ∀ a : Fin 2, win5_3.index t a * S2000x50.size a ≤ (i a).val ∧ (i a).val < win5_3.index t a * S2000x50.size a + S2000x50.size a := by
  show i ∈ ((View.whole main_v139).slice (win5_3.rect t)).set ↔ _
  rw [View.set_slice_whole, Rect.mem_set_unit]
  exact Iff.rfl

/-- Row r of the output is covered by grid point r / 2000. -/
theorem cover5 (i : S50000x50.Idx) : ∃ t : Fin cfg5.N, (cfg5.win 3).flush t = true ∧ i ∈ ((cfg5.win 3).blk t).view.set := by
  have hi0 : (i 0).val < 50000 := idx2_lt0 i
  have hi1 : (i 1).val < 50 := idx2_lt1 i
  have hN : cfg5.N = 25 := N_5
  obtain ⟨t, ht⟩ : ∃ t : Fin cfg5.N, t.val = (i 0).val / 2000 :=
    ⟨⟨(i 0).val / 2000, lt_of_lt_of_eq (show (i 0).val / 2000 < 25 by omega) hN.symm⟩, rfl⟩
  obtain ⟨-, -, -, -, -, -, e0, e1⟩ := idx5 t
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; rw [e0, ht]; omega
  | ⟨1, _⟩ => show win5_3.index t (1 : Fin 2) * 50 ≤ (i 1).val ∧ (i 1).val < win5_3.index t (1 : Fin 2) * 50 + 50; rw [e1]; omega

/-- The output array after the region: the whole-array function of the three input arrays. -/
theorem array5 (c : Dev nD) (A0 : S50000x128.Idx → EReal) (A1 : S128x50.Idx → EReal) (A2 : S1x50.Idx → EReal)
    (h0 : V c (Pipeline.arrRef spec5 0) = A0) (h1 : V c (Pipeline.arrRef spec5 1) = A1) (h2 : V c (Pipeline.arrRef spec5 2) = A2) :
    (dat5 (F := Ideal) V c).arrAt 3 cfg5.N = denseArr A0 A1 A2 :=
  (dat5 (F := Ideal) V c).arrAt_eq_of_cover 3 (denseArr A0 A1 A2) (fun t _ => flushed5_eq V c A0 A1 A2 h0 h1 h2 t) cover5

/-- REGION 5: the output array at (r, j) is `Σ_k x[r,k] · w[k,j] + b[0,j]`. -/
theorem region5_value (c : Dev nD) (A0 : S50000x128.Idx → EReal) (A1 : S128x50.Idx → EReal) (A2 : S1x50.Idx → EReal)
    (h0 : V c (Pipeline.arrRef spec5 0) = A0) (h1 : V c (Pipeline.arrRef spec5 1) = A1) (h2 : V c (Pipeline.arrRef spec5 2) = A2)
    (r : Fin 50000) (j : Fin 50) :
    (dat5 (F := Ideal) V c).arrAt 3 cfg5.N (ix2 r j)
      = Spec.dense (fun r k => A0 (ix2 r k)) (fun k j => A1 (ix2 k j)) (fun j => A2 (ix2 0 j)) r j := by
  rw [array5 V c A0 A1 A2 h0 h1 h2]
  rfl

end Cert.KernelIdeal.RegionValue

end
-- ==== Proof.RefDense.lean ====
/-
  The reference's dense stages, read at one element.

  Each theorem takes one stage of the reference program at the index `(r, j)` and shows it is the corresponding layer of
  `Cert.Spec` applied to the stages below it: the input encoder `relu (X · W + b)`, the three graph-convolution layers
  `relu ((R · W + b - mean) * (gamma * rsqrt (var + eps)) + beta)` (the last two with the residual added), and the output
  projection `X · W + b`. The only facts used are how each host operation reads at an index: a `dot_general` is the sum over
  the contracted axis, a broadcast of a row vector forgets the row, a slice `[l : l+1]` followed by a reshape reads row `l`,
  and the elementwise operations are those of the extended reals. The aggregated inputs of the layers (the values built by
  gathers and scatters) are not opened: they are the same term on both sides.
-/
import proofs.«167285_j14499809591443_1_alg».proof.Proof.Gen.ReferenceIdeal.Read
import proofs.«167285_j14499809591443_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 : (⟨S50000x256, .f32⟩ : BufTy).Contents (Elt Ideal)) (x1 x2 : (⟨S800000, .i32⟩ : BufTy).Contents (Elt Ideal))
  (x3 : (⟨S256x128, .f32⟩ : BufTy).Contents (Elt Ideal)) (x4 : (⟨S128, .f32⟩ : BufTy).Contents (Elt Ideal))
  (x5 : (⟨S3x128x128, .f32⟩ : BufTy).Contents (Elt Ideal)) (x6 x7 x8 x9 x10 : (⟨S3x128, .f32⟩ : BufTy).Contents (Elt Ideal))
  (x11 : (⟨S256x128, .f32⟩ : BufTy).Contents (Elt Ideal)) (x12 : (⟨S128, .f32⟩ : BufTy).Contents (Elt Ideal))
  (x13 : (⟨S128x1, .f32⟩ : BufTy).Contents (Elt Ideal)) (x14 : (⟨S1, .f32⟩ : BufTy).Contents (Elt Ideal))
  (x15 : (⟨S256x128, .f32⟩ : BufTy).Contents (Elt Ideal)) (x16 : (⟨S128, .f32⟩ : BufTy).Contents (Elt Ideal))
  (x17 : (⟨S128x50, .f32⟩ : BufTy).Contents (Elt Ideal)) (x18 : (⟨S50, .f32⟩ : BufTy).Contents (Elt Ideal))

/-- The input encoder at `(r, j)`: the product's element is the sum over the 256 features, the bias is a row vector spread
    over the rows, and the relu is the maximum with the zero word. -/
theorem h_apply (r : Fin 50000) (j : Fin 128) :
    val_main_v11 (F := Ideal) x0 x3 x4 (ix2 r j)
      = Spec.denseRelu (fun r k => x0 (ix2 r k)) (fun k j => x3 (ix2 k j)) (fun j => x4 (ix1 j)) r j := by
  have el : ∀ k : Fin 256, lidx_main_v7 (ix2 r j) k = ix2 r k := fun k =>
    funext fun a => Fin.ext (by match a with | ⟨0, _⟩ => rfl | ⟨1, _⟩ => rfl)
  have er : ∀ k : Fin 256, ridx_main_v7 (ix2 r j) k = ix2 k j := fun k =>
    funext fun a => Fin.ext (by match a with | ⟨0, _⟩ => rfl | ⟨1, _⟩ => rfl)
  have eb : idx_main_v8 (idx_main_v9 (ix2 r j)) = ix1 j :=
    funext fun a => Fin.ext (by match a with | ⟨0, _⟩ => rfl)
  rw [val_main_v11_apply, val_main_v10_apply, val_main_v7_apply, val_main_v9_apply, val_main_v8_apply,
    val_main_call0_v0_apply, val_main_call0_cst_apply]
  simp only [el, er, eb, Ideal.addf_def, Ideal.maximumf_def, Ideal.ofBits_def, Ideal.ofBits_zero_f32]
  rfl

/-- Graph-convolution layer 0 at `(r, j)`. The weight is row 0 of the stacked weights (a slice `[0:1]` and a reshape that
    drops the unit axis, so element `(k, j)` is element `(0, k, j)`); bias, mean, gamma, var, beta are row 0 of their
    `[3,128]` stacks, read at column `j` whatever the row `r`; the scale `gamma * rsqrt (var + eps)` is formed on the vectors
    before it is spread over the rows. -/
theorem gc0_apply (r : Fin 50000) (j : Fin 128) :
    val_main_v105 (F := Ideal) x0 x1 x2 x3 x4 x5 x6 x7 x8 x9 x10 x11 x12 x13 x14 x15 x16 (ix2 r j)
      = Spec.gc (fun r k => val_main_v75 (F := Ideal) x0 x1 x2 x3 x4 x11 x12 x13 x14 x15 x16 (ix2 r k)) (fun k j => x5 (ix3 0 k j)) (fun j => x6 (ix2 0 j)) (fun j => x7 (ix2 0 j))
          (fun j => x8 (ix2 0 j)) (fun j => x9 (ix2 0 j)) (fun j => x10 (ix2 0 j)) r j := by
  -- the contraction reads row `r` of the aggregated input and column `j` of the weight slice
  have el : ∀ k : Fin 128, lidx_main_v78 (ix2 r j) k = ix2 r k := fun k =>
    funext fun a => Fin.ext (by match a with | ⟨0, _⟩ => rfl | ⟨1, _⟩ => rfl)
  have er : ∀ k : Fin 128, ridx_main_v78 (ix2 r j) k = ix2 k j := fun k =>
    funext fun a => Fin.ext (by match a with | ⟨0, _⟩ => rfl | ⟨1, _⟩ => rfl)
  -- the reshape [1,128,128] -> [128,128]: the row-major position k * 128 + j splits back into (k, j)
  have ew : ∀ k : Fin 128, idx_main_v76 (idx_main_v77 (ix2 k j)) = ix3 0 k j := fun k =>
    funext fun a => Fin.ext (by
      have hk : k.val < 128 := k.isLt
      have hj : j.val < 128 := j.isLt
      match a with
      | ⟨0, _⟩ => rfl
      | ⟨1, _⟩ => show (k.val * 128 + j.val) / 128 % 128 = k.val; omega
      | ⟨2, _⟩ => show (k.val * 128 + j.val) % 128 = j.val; omega)
  -- a row vector spread over the rows, itself row 0 of a [3,128] stack: column j, row 0
  have eb : idx_main_v79 (idx_main_v80 (idx_main_v81 (idx_main_v82 (ix2 r j)))) = ix2 0 j :=
    funext fun a => Fin.ext (by
      match a with
      | ⟨0, _⟩ => rfl
      | ⟨1, _⟩ => exact Nat.mod_eq_of_lt j.isLt)
  have em : idx_main_v84 (idx_main_v85 (idx_main_v86 (idx_main_v87 (ix2 r j)))) = ix2 0 j :=
    funext fun a => Fin.ext (by
      match a with
      | ⟨0, _⟩ => rfl
      | ⟨1, _⟩ => exact Nat.mod_eq_of_lt j.isLt)
  have et : idx_main_v100 (idx_main_v101 (idx_main_v102 (idx_main_v103 (ix2 r j)))) = ix2 0 j :=
    funext fun a => Fin.ext (by
      match a with
      | ⟨0, _⟩ => rfl
      | ⟨1, _⟩ => exact Nat.mod_eq_of_lt j.isLt)
  have eg : idx_main_v89 (idx_main_v90 (idx_main_v97 (idx_main_v98 (ix2 r j)))) = ix2 0 j :=
    funext fun a => Fin.ext (by
      match a with
      | ⟨0, _⟩ => rfl
      | ⟨1, _⟩ => exact Nat.mod_eq_of_lt j.isLt)
  have ev : idx_main_v91 (idx_main_v92 (idx_main_v97 (idx_main_v98 (ix2 r j)))) = ix2 0 j :=
    funext fun a => Fin.ext (by
      match a with
      | ⟨0, _⟩ => rfl
      | ⟨1, _⟩ => exact Nat.mod_eq_of_lt j.isLt)
  rw [val_main_v105_apply, val_main_v104_apply, val_main_v99_apply, val_main_v88_apply, val_main_v83_apply, val_main_v78_apply, val_main_v82_apply, val_main_v81_apply, val_main_v80_apply, val_main_v79_apply, val_main_v87_apply, val_main_v86_apply, val_main_v85_apply, val_main_v84_apply, val_main_v98_apply, val_main_v97_apply, val_main_v96_apply, val_main_v90_apply, val_main_v89_apply, val_main_v95_apply, val_main_v94_apply, val_main_v92_apply, val_main_v91_apply, val_main_v93_apply, val_main_cst_14_apply, val_main_v103_apply, val_main_v102_apply, val_main_v101_apply, val_main_v100_apply, val_main_call3_v0_apply, val_main_call3_cst_apply]
  simp only [el, er, val_main_v77_apply, val_main_v76_apply, ew, eb, em, et, eg, ev, Ideal.addf_def, Ideal.subf_def, Ideal.mulf_def,
    Ideal.maximumf_def, Ideal.hostUnary_rsqrt_def, Ideal.ofBits_def, Ideal.ofBits_zero_f32]
  rfl

/-- Graph-convolution layer 1 at `(r, j)`, with its residual: the same reading as layer 0 on row 1 of the stacked
    parameters, and the previous layer's value added after the relu. -/
theorem gc1_apply (r : Fin 50000) (j : Fin 128) :
    val_main_v150 (F := Ideal) x0 x1 x2 x3 x4 x5 x6 x7 x8 x9 x10 x11 x12 x13 x14 x15 x16 (ix2 r j)
      = Spec.gcResid (fun r k => val_main_v119 (F := Ideal) x0 x1 x2 x3 x4 x5 x6 x7 x8 x9 x10 x11 x12 x13 x14 x15 x16 (ix2 r k)) (fun k j => x5 (ix3 1 k j)) (fun j => x6 (ix2 1 j)) (fun j => x7 (ix2 1 j))
          (fun j => x8 (ix2 1 j)) (fun j => x9 (ix2 1 j)) (fun j => x10 (ix2 1 j)) (fun r j => val_main_v105 (F := Ideal) x0 x1 x2 x3 x4 x5 x6 x7 x8 x9 x10 x11 x12 x13 x14 x15 x16 (ix2 r j)) r j := by
  -- the contraction reads row `r` of the aggregated input and column `j` of the weight slice
  have el : ∀ k : Fin 128, lidx_main_v122 (ix2 r j) k = ix2 r k := fun k =>
    funext fun a => Fin.ext (by match a with | ⟨0, _⟩ => rfl | ⟨1, _⟩ => rfl)
  have er : ∀ k : Fin 128, ridx_main_v122 (ix2 r j) k = ix2 k j := fun k =>
    funext fun a => Fin.ext (by match a with | ⟨0, _⟩ => rfl | ⟨1, _⟩ => rfl)
  -- the reshape [1,128,128] -> [128,128]: the row-major position k * 128 + j splits back into (k, j)
  have ew : ∀ k : Fin 128, idx_main_v120 (idx_main_v121 (ix2 k j)) = ix3 1 k j := fun k =>
    funext fun a => Fin.ext (by
      have hk : k.val < 128 := k.isLt
      have hj : j.val < 128 := j.isLt
      match a with
      | ⟨0, _⟩ => rfl
      | ⟨1, _⟩ => show (k.val * 128 + j.val) / 128 % 128 = k.val; omega
      | ⟨2, _⟩ => show (k.val * 128 + j.val) % 128 = j.val; omega)
  -- a row vector spread over the rows, itself row 1 of a [3,128] stack: column j, row 1
  have eb : idx_main_v123 (idx_main_v124 (idx_main_v125 (idx_main_v126 (ix2 r j)))) = ix2 1 j :=
    funext fun a => Fin.ext (by
      match a with
      | ⟨0, _⟩ => rfl
      | ⟨1, _⟩ => exact Nat.mod_eq_of_lt j.isLt)
  have em : idx_main_v128 (idx_main_v129 (idx_main_v130 (idx_main_v131 (ix2 r j)))) = ix2 1 j :=
    funext fun a => Fin.ext (by
      match a with
      | ⟨0, _⟩ => rfl
      | ⟨1, _⟩ => exact Nat.mod_eq_of_lt j.isLt)
  have et : idx_main_v144 (idx_main_v145 (idx_main_v146 (idx_main_v147 (ix2 r j)))) = ix2 1 j :=
    funext fun a => Fin.ext (by
      match a with
      | ⟨0, _⟩ => rfl
      | ⟨1, _⟩ => exact Nat.mod_eq_of_lt j.isLt)
  have eg : idx_main_v133 (idx_main_v134 (idx_main_v141 (idx_main_v142 (ix2 r j)))) = ix2 1 j :=
    funext fun a => Fin.ext (by
      match a with
      | ⟨0, _⟩ => rfl
      | ⟨1, _⟩ => exact Nat.mod_eq_of_lt j.isLt)
  have ev : idx_main_v135 (idx_main_v136 (idx_main_v141 (idx_main_v142 (ix2 r j)))) = ix2 1 j :=
    funext fun a => Fin.ext (by
      match a with
      | ⟨0, _⟩ => rfl
      | ⟨1, _⟩ => exact Nat.mod_eq_of_lt j.isLt)
  rw [val_main_v150_apply, val_main_v149_apply, val_main_v148_apply, val_main_v143_apply, val_main_v132_apply, val_main_v127_apply, val_main_v122_apply, val_main_v126_apply, val_main_v125_apply, val_main_v124_apply, val_main_v123_apply, val_main_v131_apply, val_main_v130_apply, val_main_v129_apply, val_main_v128_apply, val_main_v142_apply, val_main_v141_apply, val_main_v140_apply, val_main_v134_apply, val_main_v133_apply, val_main_v139_apply, val_main_v138_apply, val_main_v136_apply, val_main_v135_apply, val_main_v137_apply, val_main_cst_18_apply, val_main_v147_apply, val_main_v146_apply, val_main_v145_apply, val_main_v144_apply, val_main_call4_v0_apply, val_main_call4_cst_apply]
  simp only [el, er, val_main_v121_apply, val_main_v120_apply, ew, eb, em, et, eg, ev, Ideal.addf_def, Ideal.subf_def, Ideal.mulf_def,
    Ideal.maximumf_def, Ideal.hostUnary_rsqrt_def, Ideal.ofBits_def, Ideal.ofBits_zero_f32]
  rfl

/-- Graph-convolution layer 2 at `(r, j)`, with its residual: the same reading as layer 0 on row 2 of the stacked
    parameters, and the previous layer's value added after the relu. -/
theorem gc2_apply (r : Fin 50000) (j : Fin 128) :
    val_main_v195 (F := Ideal) x0 x1 x2 x3 x4 x5 x6 x7 x8 x9 x10 x11 x12 x13 x14 x15 x16 (ix2 r j)
      = Spec.gcResid (fun r k => val_main_v164 (F := Ideal) x0 x1 x2 x3 x4 x5 x6 x7 x8 x9 x10 x11 x12 x13 x14 x15 x16 (ix2 r k)) (fun k j => x5 (ix3 2 k j)) (fun j => x6 (ix2 2 j)) (fun j => x7 (ix2 2 j))
          (fun j => x8 (ix2 2 j)) (fun j => x9 (ix2 2 j)) (fun j => x10 (ix2 2 j)) (fun r j => val_main_v150 (F := Ideal) x0 x1 x2 x3 x4 x5 x6 x7 x8 x9 x10 x11 x12 x13 x14 x15 x16 (ix2 r j)) r j := by
  -- the contraction reads row `r` of the aggregated input and column `j` of the weight slice
  have el : ∀ k : Fin 128, lidx_main_v167 (ix2 r j) k = ix2 r k := fun k =>
    funext fun a => Fin.ext (by match a with | ⟨0, _⟩ => rfl | ⟨1, _⟩ => rfl)
  have er : ∀ k : Fin 128, ridx_main_v167 (ix2 r j) k = ix2 k j := fun k =>
    funext fun a => Fin.ext (by match a with | ⟨0, _⟩ => rfl | ⟨1, _⟩ => rfl)
  -- the reshape [1,128,128] -> [128,128]: the row-major position k * 128 + j splits back into (k, j)
  have ew : ∀ k : Fin 128, idx_main_v165 (idx_main_v166 (ix2 k j)) = ix3 2 k j := fun k =>
    funext fun a => Fin.ext (by
      have hk : k.val < 128 := k.isLt
      have hj : j.val < 128 := j.isLt
      match a with
      | ⟨0, _⟩ => rfl
      | ⟨1, _⟩ => show (k.val * 128 + j.val) / 128 % 128 = k.val; omega
      | ⟨2, _⟩ => show (k.val * 128 + j.val) % 128 = j.val; omega)
  -- a row vector spread over the rows, itself row 2 of a [3,128] stack: column j, row 2
  have eb : idx_main_v168 (idx_main_v169 (idx_main_v170 (idx_main_v171 (ix2 r j)))) = ix2 2 j :=
    funext fun a => Fin.ext (by
      match a with
      | ⟨0, _⟩ => rfl
      | ⟨1, _⟩ => exact Nat.mod_eq_of_lt j.isLt)
  have em : idx_main_v173 (idx_main_v174 (idx_main_v175 (idx_main_v176 (ix2 r j)))) = ix2 2 j :=
    funext fun a => Fin.ext (by
      match a with
      | ⟨0, _⟩ => rfl
      | ⟨1, _⟩ => exact Nat.mod_eq_of_lt j.isLt)
  have et : idx_main_v189 (idx_main_v190 (idx_main_v191 (idx_main_v192 (ix2 r j)))) = ix2 2 j :=
    funext fun a => Fin.ext (by
      match a with
      | ⟨0, _⟩ => rfl
      | ⟨1, _⟩ => exact Nat.mod_eq_of_lt j.isLt)
  have eg : idx_main_v178 (idx_main_v179 (idx_main_v186 (idx_main_v187 (ix2 r j)))) = ix2 2 j :=
    funext fun a => Fin.ext (by
      match a with
      | ⟨0, _⟩ => rfl
      | ⟨1, _⟩ => exact Nat.mod_eq_of_lt j.isLt)
  have ev : idx_main_v180 (idx_main_v181 (idx_main_v186 (idx_main_v187 (ix2 r j)))) = ix2 2 j :=
    funext fun a => Fin.ext (by
      match a with
      | ⟨0, _⟩ => rfl
      | ⟨1, _⟩ => exact Nat.mod_eq_of_lt j.isLt)
  rw [val_main_v195_apply, val_main_v194_apply, val_main_v193_apply, val_main_v188_apply, val_main_v177_apply, val_main_v172_apply, val_main_v167_apply, val_main_v171_apply, val_main_v170_apply, val_main_v169_apply, val_main_v168_apply, val_main_v176_apply, val_main_v175_apply, val_main_v174_apply, val_main_v173_apply, val_main_v187_apply, val_main_v186_apply, val_main_v185_apply, val_main_v179_apply, val_main_v178_apply, val_main_v184_apply, val_main_v183_apply, val_main_v181_apply, val_main_v180_apply, val_main_v182_apply, val_main_cst_22_apply, val_main_v192_apply, val_main_v191_apply, val_main_v190_apply, val_main_v189_apply, val_main_call5_v0_apply, val_main_call5_cst_apply]
  simp only [el, er, val_main_v166_apply, val_main_v165_apply, ew, eb, em, et, eg, ev, Ideal.addf_def, Ideal.subf_def, Ideal.mulf_def,
    Ideal.maximumf_def, Ideal.hostUnary_rsqrt_def, Ideal.ofBits_def, Ideal.ofBits_zero_f32]
  rfl

/-- The output projection at `(r, j)`: the sum over the 128 features of the last layer against column `j` of the weight,
    plus the bias at `j`. -/
theorem out_apply (r : Fin 50000) (j : Fin 50) :
    val_main_v199 (F := Ideal) x0 x1 x2 x3 x4 x5 x6 x7 x8 x9 x10 x11 x12 x13 x14 x15 x16 x17 x18 (ix2 r j)
      = Spec.dense (fun r k => val_main_v195 (F := Ideal) x0 x1 x2 x3 x4 x5 x6 x7 x8 x9 x10 x11 x12 x13 x14 x15 x16 (ix2 r k)) (fun k j => x17 (ix2 k j)) (fun j => x18 (ix1 j)) r j := by
  have el : ∀ k : Fin 128, lidx_main_v196 (ix2 r j) k = ix2 r k := fun k =>
    funext fun a => Fin.ext (by match a with | ⟨0, _⟩ => rfl | ⟨1, _⟩ => rfl)
  have er : ∀ k : Fin 128, ridx_main_v196 (ix2 r j) k = ix2 k j := fun k =>
    funext fun a => Fin.ext (by match a with | ⟨0, _⟩ => rfl | ⟨1, _⟩ => rfl)
  have eb : idx_main_v197 (idx_main_v198 (ix2 r j)) = ix1 j :=
    funext fun a => Fin.ext (by match a with | ⟨0, _⟩ => rfl)
  rw [val_main_v199_apply, val_main_v196_apply, val_main_v198_apply, val_main_v197_apply]
  simp only [el, er, eb, Ideal.addf_def]
  rfl

end Cert.ReferenceIdeal.RefValue

end
-- ==== Proof.KStage0.lean ====
/-
  The first region: the input encoder. Its operands are two argument arrays and the bias row; its output array,
  read at (r, j), is relu (features · w_in + b_in) — which is what the reference's first five operations compute.
-/
import proofs.«167285_j14499809591443_1_alg».proof.Proof.KCarry
import proofs.«167285_j14499809591443_1_alg».proof.Proof.KRegionDense
import proofs.«167285_j14499809591443_1_alg».proof.Proof.RefDense

set_option maxRecDepth 16384

noncomputable section

namespace Cert.Chain

open Cert.KernelIdeal Cert.KernelIdeal.Gen Cert.ReferenceIdeal.Read
open Idealize.ShloMosaic Idealize.ShloMosaic.TcCoe Idealize.ShloMosaic.ValueIdx Idealize.SL.Sem Idealize.ShloMosaic.StableHlo
open Cert.KernelIdeal.RegionValue Cert.ReferenceIdeal.RefValue

variable (m : (ℓ : Loc nD τ sig) → Buf (Elt Ideal) ℓ) (ρ : Dev nD → PrngReg) (c : Dev nD)

/-- After the first region the encoder's output array holds the reference's `h`. -/
theorem stage0 : W2 m ρ c (Proc.devRef .tc main_v8) = val_main_v11 (F := Ideal) (a0 m c) (a3 m c) (a4 m c) := by
  refine (W2_arr m ρ c 3).trans ?_
  show ((dat0 (V1 m ρ) c).arrAt 3 cfg0.N : S50000x128.Idx → EReal) = _
  funext i
  obtain ⟨r, j, rfl⟩ : ∃ (r : Fin 50000) (j : Fin 128), i = ix2 r j := ⟨i 0, i 1, eq_ix2 i⟩
  have hb : (fun j : Fin 128 => (W1 m ρ c (Proc.devRef .tc main_v7) : S1x128.Idx → EReal) (ix2 0 j))
      = fun j => (a4 m c : S128.Idx → EReal) (ix1 j) := funext fun j => W1_v7_row m ρ c j
  rw [region0_value (V1 m ρ) c (a0 m c) (a3 m c) (W1 m ρ c (Proc.devRef .tc main_v7)) (W1_arg0 m ρ c) (W1_arg3 m ρ c) rfl r j,
    h_apply, hb]

end Cert.Chain

end
-- ==== Proof.KRegionAttn.lean ====
/-
  Region 1: the fused aggregation / attention layer, read off the output array index by index.

  The body at one grid point computes, on a tile of 2000 rows, three values one after the other:
  the aggregation  agg = relu (h · Wh + n · Wn + ba)  (two products against a zero accumulator, one row spread over the rows),
  the gate's logit  (relu (h · Uh + agg · Ua + b1)) · w2  (three more products), and the result
  h + agg * sigmoid (logit + b2)  (the gate's one column spread over the 128 lanes).
  Every one of them is ROW-LOCAL: row p of the tile's result depends on row p of h and of n and on the whole weights.
  So the layer is written once as a function of one row (rowAttn), the tile's payload is that function of the tile's
  row p, the specification is that function of the array's row r, and tile t holds rows 2000 t … 2000 t + 1999.
-/
import proofs.«167285_j14499809591443_1_alg».proof.Proof.Gen.KernelIdeal.Frame
import proofs.«167285_j14499809591443_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

namespace Attn

/-! ## The layer on one row -/

/-- relu (h · Wh + n · Wn + b) on one row: h and n are the row's 128 entries. -/
def rowPairRelu (h n : Fin 128 → EReal) (Wh Wn : Fin 128 → Fin 128 → EReal) (b : Fin 128 → EReal) (j : Fin 128) : EReal :=
  max (((∑ k : Fin 128, h k * Wh k j) + (∑ k : Fin 128, n k * Wn k j)) + b j) 0

/-- The gate's logit before the bias: (relu (h · Uh + agg · Ua + b1)) · w2, with agg the row's aggregation. -/
def rowLogit (h n : Fin 128 → EReal) (Wh Wn : Fin 128 → Fin 128 → EReal) (ba : Fin 128 → EReal)
    (Uh Ua : Fin 128 → Fin 128 → EReal) (b1 : Fin 128 → EReal) (w2 : Fin 128 → EReal) : EReal :=
  ∑ k : Fin 128, rowPairRelu h (rowPairRelu h n Wh Wn ba) Uh Ua b1 k * w2 k

/-- The whole layer on one row: h + agg * sigmoid (logit + b2). -/
def rowAttn (h n : Fin 128 → EReal) (Wh Wn : Fin 128 → Fin 128 → EReal) (ba : Fin 128 → EReal)
    (Uh Ua : Fin 128 → Fin 128 → EReal) (b1 : Fin 128 → EReal) (w2 : Fin 128 → EReal) (b2 : EReal) (j : Fin 128) : EReal :=
  h j + rowPairRelu h n Wh Wn ba j * Ideal.logistic (rowLogit h n Wh Wn ba Uh Ua b1 w2 + b2)

/-- The specification's layer at row r is the row function of the arrays' rows r: every sum in it runs over one row. -/
theorem spec_attn_row (h n : Fin 50000 → Fin 128 → EReal) (Wh Wn : Fin 128 → Fin 128 → EReal) (ba : Fin 128 → EReal)
    (Uh Ua : Fin 128 → Fin 128 → EReal) (b1 : Fin 128 → EReal) (w2 : Fin 128 → EReal) (b2 : EReal) (r : Fin 50000) (j : Fin 128) :
    Spec.attn h n Wh Wn ba Uh Ua b1 w2 b2 r j = rowAttn (h r) (n r) Wh Wn ba Uh Ua b1 w2 b2 j := rfl

/-! ## The non-pointwise operations of the payload, at an index -/

/-- A [2000,128] × [128,128] product into the zero accumulator, at (p, q): the sum over the contracted axis. -/
theorem matmul_sq_apply (x : FVec Ideal S2000x128 .f32) (w : FVec Ideal S128x128 .f32) (p : Fin 2000) (q : Fin 128) :
    matmul (F := Ideal) dot_S2000x128_S128x128_S2000x128_1_0_0_1_n_n none x w (constant (F := Ideal) S2000x128 .f32 0x00000000#32) (ix2 p q)
      = ∑ k : Fin 128, x (ix2 p k) * w (ix2 k q) := by
  show FloatOps.matmul dot_S2000x128_S128x128_S2000x128_1_0_0_1_n_n none x w (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ =>
        show (dot_S2000x128_S128x128_S2000x128_1_0_0_1_n_n.lhsIdx (ix2 p q) _ 0).val = p.val
        unfold DotDims.lhsIdx
        rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
        rfl
      | ⟨1, _⟩ => exact (dot_S2000x128_S128x128_S2000x128_1_0_0_1_n_n.lhsIdx_val_of_single rfl (ix2 p q) _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl (ix2 p q) _).trans hk
      | ⟨1, _⟩ =>
        show (dot_S2000x128_S128x128_S2000x128_1_0_0_1_n_n.rhsIdx (ix2 p q) _ 1).val = q.val
        unfold DotDims.rhsIdx
        rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
        rfl)
  rw [el, er]

/-- A [2000,128] × [128,1] product into the zero accumulator, at (p, q): the same sum, the result one column wide. -/
theorem matmul_col_apply (x : FVec Ideal S2000x128 .f32) (w : FVec Ideal S128x1 .f32) (p : Fin 2000) (q : Fin 1) :
    matmul (F := Ideal) dot_S2000x128_S128x1_S2000x1_1_0_0_1_n_n none x w (constant (F := Ideal) S2000x1 .f32 0x00000000#32) (ix2 p q)
      = ∑ k : Fin 128, x (ix2 p k) * w (ix2 k q) := by
  show FloatOps.matmul dot_S2000x128_S128x1_S2000x1_1_0_0_1_n_n none x w (constant (F := Ideal) S2000x1 .f32 0x00000000#32) (ix2 p q) = _
  rw [Ideal.matmul_constant_zero_apply, ← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 p q) ((contrEquiv1 dot_S2000x128_S128x1_S2000x1_1_0_0_1_n_n 128 rfl rfl).symm k) = ix2 p k :=
    funext fun a => Fin.ext (by
      match a with
      | ⟨0, _⟩ =>
        show (dot_S2000x128_S128x1_S2000x1_1_0_0_1_n_n.lhsIdx (ix2 p q) _ 0).val = p.val
        unfold DotDims.lhsIdx
        rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
        rfl
      | ⟨1, _⟩ => exact (dot_S2000x128_S128x1_S2000x1_1_0_0_1_n_n.lhsIdx_val_of_single rfl (ix2 p q) _).trans hk)
  have er : dot_S2000x128_S128x1_S2000x1_1_0_0_1_n_n.rhsIdx (ix2 p q) ((contrEquiv1 dot_S2000x128_S128x1_S2000x1_1_0_0_1_n_n 128 rfl rfl).symm k) = ix2 k q :=
    funext fun a => Fin.ext (by
      match a with
      | ⟨0, _⟩ => exact (dot_S2000x128_S128x1_S2000x1_1_0_0_1_n_n.rhsIdx_val_of_single rfl (ix2 p q) _).trans hk
      | ⟨1, _⟩ =>
        show (dot_S2000x128_S128x1_S2000x1_1_0_0_1_n_n.rhsIdx (ix2 p q) _ 1).val = q.val
        unfold DotDims.rhsIdx
        rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
        rfl)
  rw [el, er]

/-- One column spread over b lanes: an [a,1] array broadcast to [a,b] reads, at (p, c), the operand's row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The shape both relu layers of the body have: two products, a row of biases spread over the tile, the maximum with
    zero. At (p, q) it is the one-row layer of the operands' rows p. -/
theorem pair_apply (x y : FVec Ideal S2000x128 .f32) (w1 w2 : FVec Ideal S128x128 .f32) (b : FVec Ideal S1x128 .f32)
    (hb : S1x128.Broadcasts S2000x128) (p : Fin 2000) (q : Fin 128) :
    maximumf (addf (addf (matmul (F := Ideal) dot_S2000x128_S128x128_S2000x128_1_0_0_1_n_n none x w1 (constant (F := Ideal) S2000x128 .f32 0x00000000#32))
          (matmul (F := Ideal) dot_S2000x128_S128x128_S2000x128_1_0_0_1_n_n none y w2 (constant (F := Ideal) S2000x128 .f32 0x00000000#32)))
        (broadcastTo S2000x128 b hb)) (broadcast S2000x128 (Scalar.ofBits (F := Ideal) .f32 0x00000000#32)) (ix2 p q)
      = rowPairRelu (fun k => x (ix2 p k)) (fun k => y (ix2 p k)) (fun k j => w1 (ix2 k j)) (fun k j => w2 (ix2 k j)) (fun j => b (ix2 0 j)) q := by
  refine (maximumf_apply _ _ _).trans ?_
  unfold rowPairRelu
  refine congrArg₂ max ?_ Ideal.ofBits_zero_f32
  refine (addf_apply _ _ _).trans ?_
  refine congrArg₂ (· + ·) ?_ (broadcastTo_1b_ab_apply b hb p q)
  refine (addf_apply _ _ _).trans ?_
  exact congrArg₂ (· + ·) (matmul_sq_apply x w1 p q) (matmul_sq_apply y w2 p q)

/-- The first value the body keeps is the h tile itself (a cast of a shape to itself). -/
theorem pay2_eq (v0 : Vec Ideal S2000x128 .f32) : k1_pay2 (F := Ideal) v0 = v0 := by
  unfold k1_pay2
  exact shapeCast_self _ _

/-- The aggregation at (p, q): the one-row layer of row p of the h and n tiles. -/
theorem pay3_apply (v0 v2 : Vec Ideal S2000x128 .f32) (v4 v7 : Vec Ideal S128x128 .f32) (v11 : Vec Ideal S1x128 .f32)
    (p : Fin 2000) (q : Fin 128) :
    k1_pay3 (F := Ideal) v0 v2 v4 v7 v11 (ix2 p q)
      = rowPairRelu (fun k => v0 (ix2 p k)) (fun k => v2 (ix2 p k)) (fun k j => v4 (ix2 k j)) (fun k j => v7 (ix2 k j)) (fun j => v11 (ix2 0 j)) q := by
  unfold k1_pay3
  simp only [pay2_eq, shapeCast_self]
  exact pair_apply v0 v2 v4 v7 v11 _ p q

/-- The gate's logit at row p (the result is one column wide): the sum over the hidden layer's 128 units. -/
theorem pay4_apply (v0 v2 : Vec Ideal S2000x128 .f32) (v4 v7 : Vec Ideal S128x128 .f32) (v11 : Vec Ideal S1x128 .f32)
    (v17 v20 : Vec Ideal S128x128 .f32) (v24 : Vec Ideal S1x128 .f32) (v30 : Vec Ideal S128x1 .f32) (p : Fin 2000) :
    k1_pay4 (F := Ideal) v0 v2 v4 v7 v11 v17 v20 v24 v30 (ix2 p (0 : Fin 1))
      = rowLogit (fun k => v0 (ix2 p k)) (fun k => v2 (ix2 p k)) (fun k j => v4 (ix2 k j)) (fun k j => v7 (ix2 k j)) (fun j => v11 (ix2 0 j))
          (fun k j => v17 (ix2 k j)) (fun k j => v20 (ix2 k j)) (fun j => v24 (ix2 0 j)) (fun k => v30 (ix2 k (0 : Fin 1))) := by
  unfold k1_pay4
  simp only [pay2_eq, shapeCast_self]
  refine (matmul_col_apply _ _ p 0).trans ?_
  unfold rowLogit
  refine Finset.sum_congr rfl fun k _ => ?_
  refine congrArg (· * v30 (ix2 k (0 : Fin 1))) ?_
  refine (pair_apply v0 (k1_pay3 (F := Ideal) v0 v2 v4 v7 v11) v17 v20 v24 _ p k).trans ?_
  exact congrArg (fun y => rowPairRelu (fun l => v0 (ix2 p l)) y (fun l j => v17 (ix2 l j)) (fun l j => v20 (ix2 l j)) (fun j => v24 (ix2 0 j)) k)
    (funext fun l => pay3_apply v0 v2 v4 v7 v11 p l)

/-- The stored value at (p, q): h + agg * sigmoid (logit + b2), the gate's column spread over the lanes and the
    scalar bias over the rows. -/
theorem pay1_apply (v1 v16 : FVec Ideal S2000x128 .f32) (v31 : FVec Ideal S2000x1 .f32) (v32 : Vec Ideal S1x1 .f32)
    (p : Fin 2000) (q : Fin 128) :
    k1_pay1 (F := Ideal) v1 v16 v31 v32 (ix2 p q)
      = v1 (ix2 p q) + v16 (ix2 p q) * Ideal.logistic (v31 (ix2 p (0 : Fin 1)) + v32 (ix2 (0 : Fin 1) (0 : Fin 1))) := by
  unfold k1_pay1
  simp only [shapeCast_self]
  refine (addf_apply _ _ _).trans ?_
  refine congrArg (v1 (ix2 p q) + ·) ?_
  refine (mulf_apply _ _ _).trans ?_
  refine congrArg (v16 (ix2 p q) * ·) ?_
  refine (broadcastTo_a1_ab_apply _ _ p q).trans ?_
  show Ideal.logistic (v31 (ix2 p (0 : Fin 1)) + broadcastTo S2000x1 v32 _ (ix2 p (0 : Fin 1))) = _
  exact congrArg (fun z => Ideal.logistic (v31 (ix2 p (0 : Fin 1)) + z)) (broadcastTo_1b_ab_apply v32 _ p (0 : Fin 1))

/-! ## The tile's stored value, over variables -/

/-- The zero offsets of a whole-buffer access. -/
theorem hz : (![0, 0] : Fin 2 → Nat) = fun _ => 0 := funext fun a => by fin_cases a <;> rfl

/-- What the body leaves in the output tile at (p, q): the one-row layer of whatever the ten operand tiles hold on
    the rows and entries it reads (e0 … e9 name them). The one store covers the tile, every load reads a whole tile. -/
theorem out_apply (x0 x1 : Vec Ideal S2000x128 .f32) (x2 x3 : Vec Ideal S128x128 .f32) (x4 : Vec Ideal S1x128 .f32)
    (x5 x6 : Vec Ideal S128x128 .f32) (x7 : Vec Ideal S1x128 .f32) (x8 : Vec Ideal S128x1 .f32) (x9 : Vec Ideal S1x1 .f32)
    (p : Fin 2000) (q : Fin 128)
    (h n : Fin 128 → EReal) (Wh Wn : Fin 128 → Fin 128 → EReal) (ba : Fin 128 → EReal)
    (Uh Ua : Fin 128 → Fin 128 → EReal) (b1 : Fin 128 → EReal) (w2 : Fin 128 → EReal) (b2 : EReal)
    (e0 : ∀ k, x0 (ix2 p k) = h k) (e1 : ∀ k, x1 (ix2 p k) = n k)
    (e2 : ∀ k j, x2 (ix2 k j) = Wh k j) (e3 : ∀ k j, x3 (ix2 k j) = Wn k j) (e4 : ∀ j, x4 (ix2 (0 : Fin 1) j) = ba j)
    (e5 : ∀ k j, x5 (ix2 k j) = Uh k j) (e6 : ∀ k j, x6 (ix2 k j) = Ua k j) (e7 : ∀ j, x7 (ix2 (0 : Fin 1) j) = b1 j)
    (e8 : ∀ k, x8 (ix2 k (0 : Fin 1)) = w2 k) (e9 : x9 (ix2 (0 : Fin 1) (0 : Fin 1)) = b2) :
    out1_10 (F := Ideal) x0 x1 x2 x3 x4 x5 x6 x7 x8 x9 (ix2 p q) = rowAttn h n Wh Wn ba Uh Ua b1 w2 b2 q := by
  obtain rfl : (fun k => x0 (ix2 p k)) = h := funext e0
  obtain rfl : (fun k => x1 (ix2 p k)) = n := funext e1
  obtain rfl : (fun k j => x2 (ix2 k j)) = Wh := funext fun k => funext (e2 k)
  obtain rfl : (fun k j => x3 (ix2 k j)) = Wn := funext fun k => funext (e3 k)
  obtain rfl : (fun j => x4 (ix2 (0 : Fin 1) j)) = ba := funext e4
  obtain rfl : (fun k j => x5 (ix2 k j)) = Uh := funext fun k => funext (e5 k)
  obtain rfl : (fun k j => x6 (ix2 k j)) = Ua := funext fun k => funext (e6 k)
  obtain rfl : (fun j => x7 (ix2 (0 : Fin 1) j)) = b1 := funext e7
  obtain rfl : (fun k => x8 (ix2 k (0 : Fin 1))) = w2 := funext e8
  subst e9
  unfold out1_10
  rw [View.canon_unit_zero hz]
  simp only [View.ld_unit_zero (S := S2000x128) hz, View.ld_unit_zero (S := S128x128) hz, View.ld_unit_zero (S := S1x128) hz,
    View.ld_unit_zero (S := S128x1) hz, View.ld_unit_zero (S := S1x1) hz]
  refine (pay1_apply _ _ _ _ p q).trans ?_
  unfold rowAttn
  rw [pay2_eq, pay3_apply, pay4_apply]

end Attn

/-! ## From tiles to the array -/

section Region

variable (V : (c : Dev nD) → (b : Ref sig .tc) → Buf (Elt Ideal) ((c : Thread nD τ).loc b))

namespace Attn

/-- The index maps over the 25 grid points: the row-tiled operands (h, n, the result) are at block (t, 0) at point t. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_10.index t (0 : Fin 2) = t.val ∧ win1_10.index t (1 : Fin 2) = 0 :=
  (by decide +kernel : ∀ t : Fin grid1.N, _)

/-- The weights, biases and the scalar are at block (0, 0) at every point: their tile is the whole array. -/
theorem idx_whole : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, _)

/-- Tile t of h holds rows 2000 t … 2000 t + 1999 of the array. -/
theorem read_h (c : Dev nD) (t : Fin cfg1.N) (p : Fin 2000) (k : Fin 128) (r : Fin 50000) (hr : r.val = t.val * 2000 + p.val) :
    (iblk1 (F := Ideal) V c 0 t : Vec Ideal S2000x128 .f32) (ix2 p k) = (V c (Pipeline.arrRef spec1 0) : S50000x128.Idx → EReal) (ix2 r k) := by
  obtain ⟨e0, e1, -⟩ := idx_rows t
  unfold iblk1
  show (V c (Pipeline.arrRef spec1 0) : S50000x128.Idx → EReal) (((cfg1.win 0).blk t).view.emb (ix2 p k)) = _
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Tile t of n holds the same rows of its array. -/
theorem read_n (c : Dev nD) (t : Fin cfg1.N) (p : Fin 2000) (k : Fin 128) (r : Fin 50000) (hr : r.val = t.val * 2000 + p.val) :
    (iblk1 (F := Ideal) V c 1 t : Vec Ideal S2000x128 .f32) (ix2 p k) = (V c (Pipeline.arrRef spec1 1) : S50000x128.Idx → EReal) (ix2 r k) := by
  obtain ⟨-, -, e0, e1, -⟩ := idx_rows t
  unfold iblk1
  show (V c (Pipeline.arrRef spec1 1) : S50000x128.Idx → EReal) (((cfg1.win 1).blk t).view.emb (ix2 p k)) = _
  refine congrArg _ (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- The tile of each small operand is its whole array, at every point. -/
theorem read_2 (c : Dev nD) (t : Fin cfg1.N) (y : S128x128.Idx) :
    (iblk1 (F := Ideal) V c 2 t : Vec Ideal S128x128 .f32) y = (V c (Pipeline.arrRef spec1 2) : S128x128.Idx → EReal) y := by
  obtain ⟨⟨e0, e1⟩, -⟩ := idx_whole t
  unfold iblk1
  show (V c (Pipeline.arrRef spec1 2) : S128x128.Idx → EReal) (((cfg1.win 2).blk t).view.emb y) = _
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem read_3 (c : Dev nD) (t : Fin cfg1.N) (y : S128x128.Idx) :
    (iblk1 (F := Ideal) V c 3 t : Vec Ideal S128x128 .f32) y = (V c (Pipeline.arrRef spec1 3) : S128x128.Idx → EReal) y := by
  obtain ⟨-, ⟨e0, e1⟩, -⟩ := idx_whole t
  unfold iblk1
  show (V c (Pipeline.arrRef spec1 3) : S128x128.Idx → EReal) (((cfg1.win 3).blk t).view.emb y) = _
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem read_4 (c : Dev nD) (t : Fin cfg1.N) (y : S1x128.Idx) :
    (iblk1 (F := Ideal) V c 4 t : Vec Ideal S1x128 .f32) y = (V c (Pipeline.arrRef spec1 4) : S1x128.Idx → EReal) y := by
  obtain ⟨-, -, ⟨e0, e1⟩, -⟩ := idx_whole t
  unfold iblk1
  show (V c (Pipeline.arrRef spec1 4) : S1x128.Idx → EReal) (((cfg1.win 4).blk t).view.emb y) = _
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

theorem read_5 (c : Dev nD) (t : Fin cfg1.N) (y : S128x128.Idx) :
    (iblk1 (F := Ideal) V c 5 t : Vec Ideal S128x128 .f32) y = (V c (Pipeline.arrRef spec1 5) : S128x128.Idx → EReal) y := by
  obtain ⟨-, -, -, ⟨e0, e1⟩, -⟩ := idx_whole t
  unfold iblk1
  show (V c (Pipeline.arrRef spec1 5) : S128x128.Idx → EReal) (((cfg1.win 5).blk t).view.emb y) = _
  refine congrArg _ (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem read_6 (c : Dev nD) (t : Fin cfg1.N) (y : S128x128.Idx) :
    (iblk1 (F := Ideal) V c 6 t : Vec Ideal S128x128 .f32) y = (V c (Pipeline.arrRef spec1 6) : S128x128.Idx → EReal) y := by
  obtain ⟨-, -, -, -, ⟨e0, e1⟩, -⟩ := idx_whole t
  unfold iblk1
  show (V c (Pipeline.arrRef spec1 6) : S128x128.Idx → EReal) (((cfg1.win 6).blk t).view.emb y) = _
  refine congrArg _ (funext fun a => Fin.ext ?_)
  match a with
  | ⟨0, _⟩ => show win1_6.index t (0 : Fin 2) * 128 + 1 * (y 0).val = (y 0).val; rw [e0]; omega
  | ⟨1, _⟩ => show win1_6.index t (1 : Fin 2) * 128 + 1 * (y 1).val = (y 1).val; rw [e1]; omega

theorem read_7 (c : Dev nD) (t : Fin cfg1.N) (y : S1x128.Idx) :
    (iblk1 (F := Ideal) V c 7 t : Vec Ideal S1x128 .f32) y = (V c (Pipeline.arrRef spec1 7) : S1x128.Idx → EReal) y := by
  obtain ⟨-, -, -, -, -, ⟨e0, e1⟩, -⟩ := idx_whole t
  unfold iblk1
  show (V c (Pipeline.arrRef spec1 7) : S1x128.Idx → EReal) (((cfg1.win 7).blk t).view.emb y) = _
  refine congrArg _ (funext fun a => Fin.ext ?_)
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

theorem read_8 (c : Dev nD) (t : Fin cfg1.N) (y : S128x1.Idx) :
    (iblk1 (F := Ideal) V c 8 t : Vec Ideal S128x1 .f32) y = (V c (Pipeline.arrRef spec1 8) : S128x1.Idx → EReal) y := by
  obtain ⟨-, -, -, -, -, -, ⟨e0, e1⟩, -⟩ := idx_whole t
  unfold iblk1
  show (V c (Pipeline.arrRef spec1 8) : S128x1.Idx → EReal) (((cfg1.win 8).blk t).view.emb y) = _
  refine congrArg _ (funext fun a => Fin.ext ?_)
  match a with
  | ⟨0, _⟩ => show win1_8.index t (0 : Fin 2) * 128 + 1 * (y 0).val = (y 0).val; rw [e0]; omega
  | ⟨1, _⟩ => show win1_8.index t (1 : Fin 2) * 1 + 1 * (y 1).val = (y 1).val; rw [e1]; omega

theorem read_9 (c : Dev nD) (t : Fin cfg1.N) (y : S1x1.Idx) :
    (iblk1 (F := Ideal) V c 9 t : Vec Ideal S1x1 .f32) y = (V c (Pipeline.arrRef spec1 9) : S1x1.Idx → EReal) y := by
  obtain ⟨-, -, -, -, -, -, -, e0, e1⟩ := idx_whole t
  unfold iblk1
  show (V c (Pipeline.arrRef spec1 9) : S1x1.Idx → EReal) (((cfg1.win 9).blk t).view.emb y) = _
  refine congrArg _ (funext fun a => Fin.ext ?_)
  match a with
  | ⟨0, _⟩ => show win1_9.index t (0 : Fin 2) * 1 + 1 * (y 0).val = (y 0).val; rw [e0]; omega
  | ⟨1, _⟩ => show win1_9.index t (1 : Fin 2) * 1 + 1 * (y 1).val = (y 1).val; rw [e1]; omega

/-- The layer of the arrays the region finds, as one function of the output array's index. -/
abbrev wholeAttn (c : Dev nD) : S50000x128.Idx → EReal := fun i =>
  Spec.attn (fun r k => (V c (Pipeline.arrRef spec1 0) : S50000x128.Idx → EReal) (ix2 r k))
    (fun r k => (V c (Pipeline.arrRef spec1 1) : S50000x128.Idx → EReal) (ix2 r k))
    (fun k j => (V c (Pipeline.arrRef spec1 2) : S128x128.Idx → EReal) (ix2 k j))
    (fun k j => (V c (Pipeline.arrRef spec1 3) : S128x128.Idx → EReal) (ix2 k j))
    (fun j => (V c (Pipeline.arrRef spec1 4) : S1x128.Idx → EReal) (ix2 (0 : Fin 1) j))
    (fun k j => (V c (Pipeline.arrRef spec1 5) : S128x128.Idx → EReal) (ix2 k j))
    (fun k j => (V c (Pipeline.arrRef spec1 6) : S128x128.Idx → EReal) (ix2 k j))
    (fun j => (V c (Pipeline.arrRef spec1 7) : S1x128.Idx → EReal) (ix2 (0 : Fin 1) j))
    (fun k => (V c (Pipeline.arrRef spec1 8) : S128x1.Idx → EReal) (ix2 k (0 : Fin 1)))
    ((V c (Pipeline.arrRef spec1 9) : S1x1.Idx → EReal) (ix2 (0 : Fin 1) (0 : Fin 1)))
    (⟨(i 0).val, idx2_lt0 i⟩ : Fin 50000) (⟨(i 1).val, idx2_lt1 i⟩ : Fin 128)

/-- What point t writes back is tile t of that function: entry (p, q) of the tile is the layer at row 2000 t + p. -/
theorem flushed_eq (c : Dev nD) (t : Fin cfg1.N) :
    (dat1 (F := Ideal) V c).flushed 10 t = ((cfg1.win 10).blk t).view.read (Elt Ideal) (wholeAttn V c) := by
  show (cfg1.win 10).cut (grid1.coords t) ((dat1 (F := Ideal) V c).after 10 t) = _
  rw [after1_10]
  obtain ⟨-, -, -, -, e0, e1⟩ := idx_rows t
  funext y
  have hp : (y 0).val < 2000 := (y 0).isLt
  have hq : (y 1).val < 128 := (y 1).isLt
  have hy : (cfg1.win 10).xinj (grid1.coords t) y = ix2 (⟨(y 0).val, hp⟩ : Fin 2000) (⟨(y 1).val, hq⟩ : Fin 128) :=
    funext fun a => by
      match a with
      | ⟨0, _⟩ => rfl
      | ⟨1, _⟩ => rfl
  have hr : ((((cfg1.win 10).blk t).view.emb y) 0).val = t.val * 2000 + (y 0).val := by
    show win1_10.index t (0 : Fin 2) * 2000 + 1 * (y 0).val = _
    rw [e0]; omega
  have hc : ((((cfg1.win 10).blk t).view.emb y) 1).val = (y 1).val := by
    show win1_10.index t (1 : Fin 2) * 128 + 1 * (y 1).val = _
    rw [e1]; omega
  show out1_10 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((cfg1.win 10).xinj (grid1.coords t) y)
    = wholeAttn V c (((cfg1.win 10).blk t).view.emb y)
  refine (congrArg (out1_10 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) hy).trans ?_
  have hcol : (⟨(y 1).val, hq⟩ : Fin 128) = ⟨((((cfg1.win 10).blk t).view.emb y) 1).val, idx2_lt1 _⟩ := Fin.ext hc.symm
  refine Eq.trans ?_ (congrArg (fun q' => Spec.attn (fun r k => (V c (Pipeline.arrRef spec1 0) : S50000x128.Idx → EReal) (ix2 r k))
    (fun r k => (V c (Pipeline.arrRef spec1 1) : S50000x128.Idx → EReal) (ix2 r k))
    (fun k j => (V c (Pipeline.arrRef spec1 2) : S128x128.Idx → EReal) (ix2 k j))
    (fun k j => (V c (Pipeline.arrRef spec1 3) : S128x128.Idx → EReal) (ix2 k j))
    (fun j => (V c (Pipeline.arrRef spec1 4) : S1x128.Idx → EReal) (ix2 (0 : Fin 1) j))
    (fun k j => (V c (Pipeline.arrRef spec1 5) : S128x128.Idx → EReal) (ix2 k j))
    (fun k j => (V c (Pipeline.arrRef spec1 6) : S128x128.Idx → EReal) (ix2 k j))
    (fun j => (V c (Pipeline.arrRef spec1 7) : S1x128.Idx → EReal) (ix2 (0 : Fin 1) j))
    (fun k => (V c (Pipeline.arrRef spec1 8) : S128x1.Idx → EReal) (ix2 k (0 : Fin 1)))
    ((V c (Pipeline.arrRef spec1 9) : S1x1.Idx → EReal) (ix2 (0 : Fin 1) (0 : Fin 1)))
    (⟨((((cfg1.win 10).blk t).view.emb y) 0).val, idx2_lt0 _⟩ : Fin 50000) q') hcol)
  refine Eq.trans ?_ (spec_attn_row _ _ _ _ _ _ _ _ _ _ _ _).symm
  exact out_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    ⟨(y 0).val, hp⟩ ⟨(y 1).val, hq⟩ _ _ _ _ _ _ _ _ _ _
    (fun k => read_h V c t ⟨(y 0).val, hp⟩ k _ hr) (fun k => read_n V c t ⟨(y 0).val, hp⟩ k _ hr)
    (fun k j => read_2 V c t (ix2 k j)) (fun k j => read_3 V c t (ix2 k j)) (fun j => read_4 V c t (ix2 (0 : Fin 1) j))
    (fun k j => read_5 V c t (ix2 k j)) (fun k j => read_6 V c t (ix2 k j)) (fun j => read_7 V c t (ix2 (0 : Fin 1) j))
    (fun k => read_8 V c t (ix2 k (0 : Fin 1))) (read_9 V c t (ix2 (0 : Fin 1) (0 : Fin 1)))

/-- An index of the array is in point t's tile iff each coordinate is in the tile's range on its axis. -/
theorem mem_blk (t : Fin cfg1.N) (i : S50000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v31).slice (win1_10.rect t)).set ↔ _
  rw [View.set_slice_whole, Rect.mem_set_unit]
  exact Iff.rfl

/-- Row r lies in the tile of point r / 2000, and every point writes its tile back: the 25 tiles cover the array. -/
theorem cover (i : S50000x128.Idx) : ∃ t : Fin cfg1.N, (cfg1.win 10).flush t = true ∧ i ∈ ((cfg1.win 10).blk t).view.set := by
  have hN : cfg1.N = 25 := N_1
  have h0 : (i 0).val < 50000 := (i 0).isLt
  have h1 : (i 1).val < 128 := (i 1).isLt
  have ht : (i 0).val / 2000 < cfg1.N := by rw [hN]; omega
  obtain ⟨-, -, -, -, e0, e1⟩ := idx_rows ⟨(i 0).val / 2000, ht⟩
  have e0' : win1_10.index ⟨(i 0).val / 2000, ht⟩ (0 : Fin 2) = (i 0).val / 2000 := e0
  refine ⟨⟨(i 0).val / 2000, ht⟩, flush1_10 _, ?_⟩
  rw [mem_blk]
  intro a
  match a with
  | ⟨0, _⟩ =>
    show win1_10.index ⟨(i 0).val / 2000, ht⟩ (0 : Fin 2) * 2000 ≤ (i 0).val ∧ (i 0).val < win1_10.index ⟨(i 0).val / 2000, ht⟩ (0 : Fin 2) * 2000 + 2000
    rw [e0']; omega
  | ⟨1, _⟩ =>
    show win1_10.index ⟨(i 0).val / 2000, ht⟩ (1 : Fin 2) * 128 ≤ (i 1).val ∧ (i 1).val < win1_10.index ⟨(i 0).val / 2000, ht⟩ (1 : Fin 2) * 128 + 128
    rw [e1]; omega

/-- So the output array ends holding the layer of the arrays the region found. -/
theorem arr_eq (c : Dev nD) : (dat1 (F := Ideal) V c).arrAt 10 cfg1.N = wholeAttn V c :=
  (dat1 (F := Ideal) V c).arrAt_eq_of_cover 10 (wholeAttn V c) (fun t _ => flushed_eq V c t) cover

end Attn

/-- Region 1, index by index: entry (r, j) of its output array is the fused aggregation / attention layer of the ten
    operand arrays at row r, column j. -/
theorem region1_value (c : Dev nD) (H N : S50000x128.Idx → EReal) (Wh Wn : S128x128.Idx → EReal) (Ba : S1x128.Idx → EReal)
    (Uh Ua : S128x128.Idx → EReal) (B1 : S1x128.Idx → EReal) (W2 : S128x1.Idx → EReal) (B2 : S1x1.Idx → EReal)
    (h0 : V c (Pipeline.arrRef spec1 0) = H) (h1 : V c (Pipeline.arrRef spec1 1) = N) (h2 : V c (Pipeline.arrRef spec1 2) = Wh)
    (h3 : V c (Pipeline.arrRef spec1 3) = Wn) (h4 : V c (Pipeline.arrRef spec1 4) = Ba) (h5 : V c (Pipeline.arrRef spec1 5) = Uh)
    (h6 : V c (Pipeline.arrRef spec1 6) = Ua) (h7 : V c (Pipeline.arrRef spec1 7) = B1) (h8 : V c (Pipeline.arrRef spec1 8) = W2)
    (h9 : V c (Pipeline.arrRef spec1 9) = B2) (r : Fin 50000) (j : Fin 128) :
    (dat1 (F := Ideal) V c).arrAt 10 cfg1.N (ix2 r j)
      = Spec.attn (fun r k => H (ix2 r k)) (fun r k => N (ix2 r k)) (fun k j => Wh (ix2 k j)) (fun k j => Wn (ix2 k j)) (fun j => Ba (ix2 0 j))
          (fun k j => Uh (ix2 k j)) (fun k j => Ua (ix2 k j)) (fun j => B1 (ix2 0 j)) (fun k => W2 (ix2 k 0)) (B2 (ix2 0 0)) r j := by
  subst h0 h1 h2 h3 h4 h5 h6 h7 h8 h9
  exact congrFun (Attn.arr_eq V c) (ix2 r j)

end Region

end Cert.KernelIdeal.RegionValue

end
-- ==== Proof.RefAttn.lean ====
/-
  The fused aggregation / attention layer of the reference, read at an index.

  The reference multiplies the concatenation `[h, n]` (50000 x 256) by a 256-row weight matrix. Read at an
  index, a two-piece concatenation along the columns is the first piece below column 128 and the second piece,
  128 columns less, from column 128 on; a sum over the 256 columns is the sum over the first 128 plus the sum
  over the last 128 (the extended reals are a commutative monoid under addition: nothing here asks for
  finiteness). So `[h, n] · W = h · W[0:128] + n · W[128:256]`, which is the form `Spec.pairRelu` has. The gate
  is `1 / (1 + exp (-x))`, the definition of the logistic function, once the word 0x3F800000 is read as 1.
-/
import proofs.«167285_j14499809591443_1_alg».proof.Proof.Gen.ReferenceIdeal.Read
import proofs.«167285_j14499809591443_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

namespace Attn

/-- A sum over 256 columns is the sum over columns 0..127 plus the sum over columns 128..255. -/
theorem sum_split (f : Fin 256 → EReal) :
    ∑ k : Fin 256, f k = (∑ k : Fin 128, f (Spec.lo k)) + (∑ k : Fin 128, f (Spec.hi k)) := by
  have h := Fin.sum_univ_add (a := 128) (b := 128) (fun i : Fin (128 + 128) => f i)
  have hlo : ∀ k : Fin 128, (Fin.castAdd 128 k : Fin (128 + 128)) = Spec.lo k := fun k => Fin.ext rfl
  have hhi : ∀ k : Fin 128, (Fin.natAdd 128 k : Fin (128 + 128)) = Spec.hi k := fun k => Fin.ext (Nat.add_comm _ _)
  simp only [hlo, hhi] at h
  exact h

/-- The concatenation of two 50000 x 128 arrays along the columns, at a column below 128: the first array. -/
theorem cat_lo {α : Type} (a b : S50000x128.Idx → α) (h : Shape.Concatenates [S50000x128, S50000x128] S50000x256 1)
    (r : Fin 50000) (k : Fin 128) :
    concatenate S50000x256 1 [⟨S50000x128, a⟩, ⟨S50000x128, b⟩] h (ix2 r (Spec.lo k)) = a (ix2 r k) :=
  concatenate_pair_apply_left 1 a b h _ rfl _ (fun c => by
    match c with
    | ⟨0, _⟩ => rfl
    | ⟨1, _⟩ => rfl)

/-- The same concatenation at column `k + 128`: the second array at column `k`. -/
theorem cat_hi {α : Type} (a b : S50000x128.Idx → α) (h : Shape.Concatenates [S50000x128, S50000x128] S50000x256 1)
    (r : Fin 50000) (k : Fin 128) :
    concatenate S50000x256 1 [⟨S50000x128, a⟩, ⟨S50000x128, b⟩] h (ix2 r (Spec.hi k)) = b (ix2 r k) :=
  concatenate_pair_apply_right 1 a b h _ rfl rfl _
    (fun c hc => by
      match c with
      | ⟨0, _⟩ => rfl
      | ⟨1, _⟩ => exact absurd rfl hc)
    rfl

/-- `[h, n]` at a column below 128 is `h`. -/
theorem v27_lo (x0 : (⟨S50000x256, .f32⟩ : BufTy).Contents (Elt Ideal)) (x1 x2 : (⟨S800000, .i32⟩ : BufTy).Contents (Elt Ideal)) (x3 : (⟨S256x128, .f32⟩ : BufTy).Contents (Elt Ideal)) (x4 : (⟨S128, .f32⟩ : BufTy).Contents (Elt Ideal)) (r : Fin 50000) (k : Fin 128) :
    val_main_v27 (F := Ideal) x0 x1 x2 x3 x4 (ix2 r (Spec.lo k)) = val_main_v11 (F := Ideal) x0 x3 x4 (ix2 r k) := by
  unfold val_main_v27
  exact cat_lo _ _ _ r k

/-- `[h, n]` at column `k + 128` is `n` at column `k`. -/
theorem v27_hi (x0 : (⟨S50000x256, .f32⟩ : BufTy).Contents (Elt Ideal)) (x1 x2 : (⟨S800000, .i32⟩ : BufTy).Contents (Elt Ideal)) (x3 : (⟨S256x128, .f32⟩ : BufTy).Contents (Elt Ideal)) (x4 : (⟨S128, .f32⟩ : BufTy).Contents (Elt Ideal)) (r : Fin 50000) (k : Fin 128) :
    val_main_v27 (F := Ideal) x0 x1 x2 x3 x4 (ix2 r (Spec.hi k)) = val_main_v26 (F := Ideal) x0 x1 x2 x3 x4 (ix2 r k) := by
  unfold val_main_v27
  exact cat_hi _ _ _ r k

/-- `[h, agg]` at a column below 128 is `h`. -/
theorem v33_lo (x0 : (⟨S50000x256, .f32⟩ : BufTy).Contents (Elt Ideal)) (x1 x2 : (⟨S800000, .i32⟩ : BufTy).Contents (Elt Ideal)) (x3 : (⟨S256x128, .f32⟩ : BufTy).Contents (Elt Ideal)) (x4 : (⟨S128, .f32⟩ : BufTy).Contents (Elt Ideal)) (x15 : (⟨S256x128, .f32⟩ : BufTy).Contents (Elt Ideal)) (x16 : (⟨S128, .f32⟩ : BufTy).Contents (Elt Ideal)) (r : Fin 50000) (k : Fin 128) :
    val_main_v33 (F := Ideal) x0 x1 x2 x3 x4 x15 x16 (ix2 r (Spec.lo k)) = val_main_v11 (F := Ideal) x0 x3 x4 (ix2 r k) := by
  unfold val_main_v33
  exact cat_lo _ _ _ r k

/-- `[h, agg]` at column `k + 128` is `agg` at column `k`. -/
theorem v33_hi (x0 : (⟨S50000x256, .f32⟩ : BufTy).Contents (Elt Ideal)) (x1 x2 : (⟨S800000, .i32⟩ : BufTy).Contents (Elt Ideal)) (x3 : (⟨S256x128, .f32⟩ : BufTy).Contents (Elt Ideal)) (x4 : (⟨S128, .f32⟩ : BufTy).Contents (Elt Ideal)) (x15 : (⟨S256x128, .f32⟩ : BufTy).Contents (Elt Ideal)) (x16 : (⟨S128, .f32⟩ : BufTy).Contents (Elt Ideal)) (r : Fin 50000) (k : Fin 128) :
    val_main_v33 (F := Ideal) x0 x1 x2 x3 x4 x15 x16 (ix2 r (Spec.hi k)) = val_main_v32 (F := Ideal) x0 x1 x2 x3 x4 x15 x16 (ix2 r k) := by
  unfold val_main_v33
  exact cat_hi _ _ _ r k

/-- `agg = relu ([h, n] · agg_w + agg_b)`, with the product split at row 128 of the weights. -/
theorem agg_apply (x0 : (⟨S50000x256, .f32⟩ : BufTy).Contents (Elt Ideal)) (x1 x2 : (⟨S800000, .i32⟩ : BufTy).Contents (Elt Ideal)) (x3 : (⟨S256x128, .f32⟩ : BufTy).Contents (Elt Ideal)) (x4 : (⟨S128, .f32⟩ : BufTy).Contents (Elt Ideal)) (x15 : (⟨S256x128, .f32⟩ : BufTy).Contents (Elt Ideal)) (x16 : (⟨S128, .f32⟩ : BufTy).Contents (Elt Ideal)) (r : Fin 50000) (j : Fin 128) :
    val_main_v32 (F := Ideal) x0 x1 x2 x3 x4 x15 x16 (ix2 r j)
      = Spec.pairRelu (fun r k => val_main_v11 (F := Ideal) x0 x3 x4 (ix2 r k)) (fun r k => val_main_v26 (F := Ideal) x0 x1 x2 x3 x4 (ix2 r k))
          (fun k j => x15 (ix2 (Spec.lo k) j)) (fun k j => x15 (ix2 (Spec.hi k) j)) (fun j => x16 (ix1 j)) r j := by
  have el : ∀ k : Fin 256, lidx_main_v28 (ix2 r j) k = ix2 r k := fun k =>
    funext fun a => Fin.ext (by match a with | ⟨0, _⟩ => rfl | ⟨1, _⟩ => rfl)
  have er : ∀ k : Fin 256, ridx_main_v28 (ix2 r j) k = ix2 k j := fun k =>
    funext fun a => Fin.ext (by match a with | ⟨0, _⟩ => rfl | ⟨1, _⟩ => rfl)
  have eb : idx_main_v29 (idx_main_v30 (ix2 r j)) = ix1 j :=
    funext fun a => Fin.ext (by match a with | ⟨0, _⟩ => rfl)
  rw [val_main_v32_apply, val_main_v31_apply, val_main_v28_apply, val_main_v30_apply, val_main_v29_apply,
    val_main_call1_v0_apply, val_main_call1_cst_apply]
  simp only [el, er, eb, Ideal.addf_def, Ideal.maximumf_def, Ideal.ofBits_def, Ideal.ofBits_zero_f32]
  rw [sum_split]
  simp only [v27_lo, v27_hi]
  rfl

/-- `a = relu ([h, agg] · attn_w1 + attn_b1)`, split the same way. -/
theorem a_apply (x0 : (⟨S50000x256, .f32⟩ : BufTy).Contents (Elt Ideal)) (x1 x2 : (⟨S800000, .i32⟩ : BufTy).Contents (Elt Ideal)) (x3 : (⟨S256x128, .f32⟩ : BufTy).Contents (Elt Ideal)) (x4 : (⟨S128, .f32⟩ : BufTy).Contents (Elt Ideal)) (x11 : (⟨S256x128, .f32⟩ : BufTy).Contents (Elt Ideal)) (x12 : (⟨S128, .f32⟩ : BufTy).Contents (Elt Ideal)) (x15 : (⟨S256x128, .f32⟩ : BufTy).Contents (Elt Ideal)) (x16 : (⟨S128, .f32⟩ : BufTy).Contents (Elt Ideal)) (r : Fin 50000) (j : Fin 128) :
    val_main_v38 (F := Ideal) x0 x1 x2 x3 x4 x11 x12 x15 x16 (ix2 r j)
      = Spec.pairRelu (fun r k => val_main_v11 (F := Ideal) x0 x3 x4 (ix2 r k)) (Spec.pairRelu (fun r k => val_main_v11 (F := Ideal) x0 x3 x4 (ix2 r k)) (fun r k => val_main_v26 (F := Ideal) x0 x1 x2 x3 x4 (ix2 r k)) (fun k j => x15 (ix2 (Spec.lo k) j)) (fun k j => x15 (ix2 (Spec.hi k) j)) (fun j => x16 (ix1 j)))
          (fun k j => x11 (ix2 (Spec.lo k) j)) (fun k j => x11 (ix2 (Spec.hi k) j)) (fun j => x12 (ix1 j)) r j := by
  have el : ∀ k : Fin 256, lidx_main_v34 (ix2 r j) k = ix2 r k := fun k =>
    funext fun a => Fin.ext (by match a with | ⟨0, _⟩ => rfl | ⟨1, _⟩ => rfl)
  have er : ∀ k : Fin 256, ridx_main_v34 (ix2 r j) k = ix2 k j := fun k =>
    funext fun a => Fin.ext (by match a with | ⟨0, _⟩ => rfl | ⟨1, _⟩ => rfl)
  have eb : idx_main_v35 (idx_main_v36 (ix2 r j)) = ix1 j :=
    funext fun a => Fin.ext (by match a with | ⟨0, _⟩ => rfl)
  rw [val_main_v38_apply, val_main_v37_apply, val_main_v34_apply, val_main_v36_apply, val_main_v35_apply,
    val_main_call2_v0_apply, val_main_call2_cst_apply]
  simp only [el, er, eb, Ideal.addf_def, Ideal.maximumf_def, Ideal.ofBits_def, Ideal.ofBits_zero_f32]
  rw [sum_split]
  simp only [v33_lo, v33_hi, agg_apply]
  rfl

/-- The gate of a row: `1 / (1 + exp (-(a · attn_w2 + attn_b2)))`, the logistic function of `a · attn_w2 + attn_b2`. -/
theorem gate_apply (x0 : (⟨S50000x256, .f32⟩ : BufTy).Contents (Elt Ideal)) (x1 x2 : (⟨S800000, .i32⟩ : BufTy).Contents (Elt Ideal)) (x3 : (⟨S256x128, .f32⟩ : BufTy).Contents (Elt Ideal)) (x4 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x1, .f32⟩ : BufTy).Contents (Elt Ideal)) (x14 : (⟨S1, .f32⟩ : BufTy).Contents (Elt Ideal)) (x15 : (⟨S256x128, .f32⟩ : BufTy).Contents (Elt Ideal)) (x16 : (⟨S128, .f32⟩ : BufTy).Contents (Elt Ideal)) (r : Fin 50000) :
    val_main_v48 (F := Ideal) x0 x1 x2 x3 x4 x11 x12 x13 x14 x15 x16 (ix2 r (0 : Fin 1))
      = Spec.gate (Spec.pairRelu (fun r k => val_main_v11 (F := Ideal) x0 x3 x4 (ix2 r k)) (Spec.pairRelu (fun r k => val_main_v11 (F := Ideal) x0 x3 x4 (ix2 r k)) (fun r k => val_main_v26 (F := Ideal) x0 x1 x2 x3 x4 (ix2 r k)) (fun k j => x15 (ix2 (Spec.lo k) j)) (fun k j => x15 (ix2 (Spec.hi k) j)) (fun j => x16 (ix1 j)))
          (fun k j => x11 (ix2 (Spec.lo k) j)) (fun k j => x11 (ix2 (Spec.hi k) j)) (fun j => x12 (ix1 j))) (fun k => x13 (ix2 k 0)) (x14 (ix1 0)) r := by
  have el : ∀ k : Fin 128, lidx_main_v39 (ix2 r (0 : Fin 1)) k = ix2 r k := fun k =>
    funext fun a => Fin.ext (by match a with | ⟨0, _⟩ => rfl | ⟨1, _⟩ => rfl)
  have er : ∀ k : Fin 128, ridx_main_v39 (ix2 r (0 : Fin 1)) k = ix2 k 0 := fun k =>
    funext fun a => Fin.ext (by match a with | ⟨0, _⟩ => rfl | ⟨1, _⟩ => rfl)
  have eb : idx_main_v40 (idx_main_v41 (ix2 r (0 : Fin 1))) = ix1 0 :=
    funext fun a => Fin.ext (by match a with | ⟨0, _⟩ => rfl)
  rw [val_main_v48_apply, val_main_v47_apply, val_main_cst_6_apply, val_main_v46_apply, val_main_v45_apply,
    val_main_cst_5_apply, val_main_v44_apply, val_main_v43_apply, val_main_v42_apply, val_main_v39_apply,
    val_main_v41_apply, val_main_v40_apply]
  simp only [el, er, eb, a_apply, Ideal.hostDivf_def, Ideal.addf_def, Ideal.hostUnary_exp_def, Ideal.hostNegf_def,
    Ideal.negf_def, Ideal.ofBits_def, Ideal.ofBits_one_f32]
  rfl

end Attn

/-- The fused aggregation / attention layer: `h + agg * sigmoid (a · attn_w2 + attn_b2)`, the gate spread over the row. -/
theorem attn_apply (x0 : (⟨S50000x256, .f32⟩ : BufTy).Contents (Elt Ideal)) (x1 x2 : (⟨S800000, .i32⟩ : BufTy).Contents (Elt Ideal)) (x3 : (⟨S256x128, .f32⟩ : BufTy).Contents (Elt Ideal)) (x4 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x1, .f32⟩ : BufTy).Contents (Elt Ideal)) (x14 : (⟨S1, .f32⟩ : BufTy).Contents (Elt Ideal)) (x15 : (⟨S256x128, .f32⟩ : BufTy).Contents (Elt Ideal)) (x16 : (⟨S128, .f32⟩ : BufTy).Contents (Elt Ideal)) (r : Fin 50000) (j : Fin 128) :
    val_main_v51 (F := Ideal) x0 x1 x2 x3 x4 x11 x12 x13 x14 x15 x16 (ix2 r j)
      = Spec.attn (fun r k => val_main_v11 (F := Ideal) x0 x3 x4 (ix2 r k)) (fun r k => val_main_v26 (F := Ideal) x0 x1 x2 x3 x4 (ix2 r k))
          (fun k j => x15 (ix2 (Spec.lo k) j)) (fun k j => x15 (ix2 (Spec.hi k) j)) (fun j => x16 (ix1 j))
          (fun k j => x11 (ix2 (Spec.lo k) j)) (fun k j => x11 (ix2 (Spec.hi k) j)) (fun j => x12 (ix1 j))
          (fun k => x13 (ix2 k 0)) (x14 (ix1 0)) r j := by
  have eg : idx_main_v49 (ix2 r j) = ix2 r (0 : Fin 1) :=
    funext fun a => Fin.ext (by match a with | ⟨0, _⟩ => rfl | ⟨1, _⟩ => rfl)
  rw [val_main_v51_apply, val_main_v50_apply, val_main_v49_apply, eg, Attn.agg_apply, Attn.gate_apply]
  simp only [Ideal.addf_def, Ideal.mulf_def]
  rfl

end Cert.ReferenceIdeal.RefValue

end
-- ==== Proof.KStage1.lean ====
/-
  The second region: the fused aggregation / attention layer. Between the first and second regions the host
  gathers `h` along `src`, scatter-adds it at `dst` and divides by the clamped in-degree (the neighbour mean), cuts
  the two 256-row weight matrices into their upper and lower halves and turns three bias vectors into rows.
-/
import proofs.«167285_j14499809591443_1_alg».proof.Proof.KCarry
import proofs.«167285_j14499809591443_1_alg».proof.Proof.KRegionAttn
import proofs.«167285_j14499809591443_1_alg».proof.Proof.RefAttn

set_option maxRecDepth 16384

noncomputable section

namespace Cert.Chain

open Cert.KernelIdeal Cert.KernelIdeal.Gen Cert.ReferenceIdeal.Read
open Idealize.ShloMosaic Idealize.ShloMosaic.TcCoe Idealize.ShloMosaic.ValueIdx Idealize.SL.Sem Idealize.ShloMosaic.StableHlo
open Cert.KernelIdeal.RegionValue Cert.ReferenceIdeal.RefValue

variable (m : (ℓ : Loc nD τ sig) → Buf (Elt Ideal) ℓ) (ρ : Dev nD → PrngReg) (c : Dev nD)

variable (hK0 : W2 m ρ c (Proc.devRef .tc main_v8) = val_main_v11 (F := Ideal) (a0 m c) (a3 m c) (a4 m c))
include hK0

theorem W3_v8 : W3 m ρ c (Proc.devRef .tc main_v8) = val_main_v11 (F := Ideal) (a0 m c) (a3 m c) (a4 m c) := by
  refine Eq.trans (b := W2 m ρ c (Proc.devRef .tc main_v8)) (by host_keep) hK0

/-- The neighbour mean: the host operations between the regions, applied to `h`, are the reference's. -/
theorem W3_v23 : W3 m ρ c (Proc.devRef .tc main_v23) = val_main_v26 (F := Ideal) (a0 m c) (a1 m c) (a2 m c) (a3 m c) (a4 m c) := by
  show StableHlo.after hostOps1 (W2 m ρ c) (Proc.devRef .tc main_v23) = _
  after_results_simp
  rw [hK0, W2_arg1 m ρ c, W2_arg2 m ρ c, W2_v3 m ρ c]
  rfl
omit hK0

theorem W3_v24_at (k j : Fin 128) : (W3 m ρ c (Proc.devRef .tc main_v24) : S128x128.Idx → EReal) (ix2 k j)
    = (a15 m c : S256x128.Idx → EReal) (ix2 (Spec.lo k) j) := by
  show StableHlo.after hostOps1 (W2 m ρ c) (Proc.devRef .tc main_v24) (ix2 k j) = _
  after_results_simp
  rw [W2_arg15 m ρ c]
  exact slice2_axis0_apply 0 _ _ k j (Spec.lo k) (Nat.zero_add _).symm
theorem W3_v25_at (k j : Fin 128) : (W3 m ρ c (Proc.devRef .tc main_v25) : S128x128.Idx → EReal) (ix2 k j)
    = (a15 m c : S256x128.Idx → EReal) (ix2 (Spec.hi k) j) := by
  show StableHlo.after hostOps1 (W2 m ρ c) (Proc.devRef .tc main_v25) (ix2 k j) = _
  after_results_simp
  rw [W2_arg15 m ρ c]
  exact slice2_axis0_apply 128 _ _ k j (Spec.hi k) (Nat.add_comm _ _)
theorem W3_v26_at (k j : Fin 128) : (W3 m ρ c (Proc.devRef .tc main_v26) : S128x128.Idx → EReal) (ix2 k j)
    = (a11 m c : S256x128.Idx → EReal) (ix2 (Spec.lo k) j) := by
  show StableHlo.after hostOps1 (W2 m ρ c) (Proc.devRef .tc main_v26) (ix2 k j) = _
  after_results_simp
  rw [W2_arg11 m ρ c]
  exact slice2_axis0_apply 0 _ _ k j (Spec.lo k) (Nat.zero_add _).symm
theorem W3_v27_at (k j : Fin 128) : (W3 m ρ c (Proc.devRef .tc main_v27) : S128x128.Idx → EReal) (ix2 k j)
    = (a11 m c : S256x128.Idx → EReal) (ix2 (Spec.hi k) j) := by
  show StableHlo.after hostOps1 (W2 m ρ c) (Proc.devRef .tc main_v27) (ix2 k j) = _
  after_results_simp
  rw [W2_arg11 m ρ c]
  exact slice2_axis0_apply 128 _ _ k j (Spec.hi k) (Nat.add_comm _ _)
theorem W3_v28_row (j : Fin 128) : (W3 m ρ c (Proc.devRef .tc main_v28) : S1x128.Idx → EReal) (ix2 0 j) = (a16 m c : S128.Idx → EReal) (ix1 j) := by
  show StableHlo.after hostOps1 (W2 m ρ c) (Proc.devRef .tc main_v28) (ix2 0 j) = _
  after_results_simp
  rw [W2_arg16 m ρ c]
  exact shapeCast_a_1a_apply _ _ 0 j
theorem W3_v29_row (j : Fin 128) : (W3 m ρ c (Proc.devRef .tc main_v29) : S1x128.Idx → EReal) (ix2 0 j) = (a12 m c : S128.Idx → EReal) (ix1 j) := by
  show StableHlo.after hostOps1 (W2 m ρ c) (Proc.devRef .tc main_v29) (ix2 0 j) = _
  after_results_simp
  rw [W2_arg12 m ρ c]
  exact shapeCast_a_1a_apply _ _ 0 j
theorem W3_v30_one : (W3 m ρ c (Proc.devRef .tc main_v30) : S1x1.Idx → EReal) (ix2 0 0) = (a14 m c : S1.Idx → EReal) (ix1 0) := by
  show StableHlo.after hostOps1 (W2 m ρ c) (Proc.devRef .tc main_v30) (ix2 0 0) = _
  after_results_simp
  rw [W2_arg14 m ρ c]
  exact shapeCast_a_1a_apply _ _ 0 0

include hK0
/-- After the second region its output array holds the reference's gated sum `h + agg * attn`. -/
theorem stage1 : W4 m ρ c (Proc.devRef .tc main_v31) = val_main_v51 (F := Ideal) (a0 m c) (a1 m c) (a2 m c) (a3 m c) (a4 m c) (a11 m c) (a12 m c) (a13 m c) (a14 m c) (a15 m c) (a16 m c) := by
  refine (W4_arr m ρ c 10).trans ?_
  show ((dat1 (V3 m ρ) c).arrAt 10 cfg1.N : S50000x128.Idx → EReal) = _
  funext i
  obtain ⟨r, j, rfl⟩ : ∃ (r : Fin 50000) (j : Fin 128), i = ix2 r j := ⟨i 0, i 1, eq_ix2 i⟩
  have e2 : (fun k j : Fin 128 => (W3 m ρ c (Proc.devRef .tc main_v24) : S128x128.Idx → EReal) (ix2 k j))
      = fun k j => (a15 m c : S256x128.Idx → EReal) (ix2 (Spec.lo k) j) := funext fun k => funext fun j => W3_v24_at m ρ c k j
  have e3 : (fun k j : Fin 128 => (W3 m ρ c (Proc.devRef .tc main_v25) : S128x128.Idx → EReal) (ix2 k j))
      = fun k j => (a15 m c : S256x128.Idx → EReal) (ix2 (Spec.hi k) j) := funext fun k => funext fun j => W3_v25_at m ρ c k j
  have e4 : (fun j : Fin 128 => (W3 m ρ c (Proc.devRef .tc main_v28) : S1x128.Idx → EReal) (ix2 0 j))
      = fun j => (a16 m c : S128.Idx → EReal) (ix1 j) := funext fun j => W3_v28_row m ρ c j
  have e5 : (fun k j : Fin 128 => (W3 m ρ c (Proc.devRef .tc main_v26) : S128x128.Idx → EReal) (ix2 k j))
      = fun k j => (a11 m c : S256x128.Idx → EReal) (ix2 (Spec.lo k) j) := funext fun k => funext fun j => W3_v26_at m ρ c k j
  have e6 : (fun k j : Fin 128 => (W3 m ρ c (Proc.devRef .tc main_v27) : S128x128.Idx → EReal) (ix2 k j))
      = fun k j => (a11 m c : S256x128.Idx → EReal) (ix2 (Spec.hi k) j) := funext fun k => funext fun j => W3_v27_at m ρ c k j
  have e7 : (fun j : Fin 128 => (W3 m ρ c (Proc.devRef .tc main_v29) : S1x128.Idx → EReal) (ix2 0 j))
      = fun j => (a12 m c : S128.Idx → EReal) (ix1 j) := funext fun j => W3_v29_row m ρ c j
  rw [region1_value (V3 m ρ) c _ _ (W3 m ρ c (Proc.devRef .tc main_v24)) (W3 m ρ c (Proc.devRef .tc main_v25))
      (W3 m ρ c (Proc.devRef .tc main_v28)) (W3 m ρ c (Proc.devRef .tc main_v26)) (W3 m ρ c (Proc.devRef .tc main_v27))
      (W3 m ρ c (Proc.devRef .tc main_v29)) (a13 m c) (W3 m ρ c (Proc.devRef .tc main_v30))
      (W3_v8 m ρ c hK0) (W3_v23 m ρ c hK0) rfl rfl rfl rfl rfl rfl (W3_arg13 m ρ c) rfl r j,
    attn_apply, e2, e3, e4, e5, e6, e7, W3_v30_one m ρ c]

end Cert.Chain

end
-- ==== Proof.LibLayerSlices.lean ====
/-
  Reading a stacked parameter array one layer at a time. A model with L layers keeps its per-layer vectors as the rows
  of an [L, n] matrix and its per-layer matrices as the slabs of an [L, a, b] tensor; a program picks layer l with a
  unit-extent slice followed by reshapes that drop (and sometimes put back) the unit axis. Read at an index, each
  of these chains is just the stacked array at (l, ·).
-/
import Idealize.ShloMosaic.Lib.Pipeline.Value
import Idealize.ShloMosaic.Lib.ValueIdx
import Idealize.ShloMosaic.Lib.ValueLayout

noncomputable section

namespace Cert.LibLayerSlices

open Idealize.ShloMosaic Idealize.ShloMosaic.ValueIdx

variable {α : Type}

/-- Row `l` of an [L, n] matrix, cut out as a [1, n] slice at offset `o = l`, squeezed to [n] and cast back to a
    [1, n] row: at (0, j) it is the matrix at (l, j). -/
theorem row_slice_cast_cast {L n : Nat} (o : Nat) (X : (⟨2, ![L, n]⟩ : Shape).Idx → α)
    (hs : (⟨2, ![L, n]⟩ : Shape).Slices ![o, 0] ⟨2, ![1, n]⟩)
    (h1 : (⟨2, ![1, n]⟩ : Shape).ShapeCasts ⟨1, ![n]⟩) (h2 : (⟨1, ![n]⟩ : Shape).ShapeCasts ⟨2, ![1, n]⟩)
    (l : Fin L) (hl : l.val = o) (u : Fin 1) (j : Fin n) :
    shapeCast ⟨2, ![1, n]⟩ (shapeCast ⟨1, ![n]⟩ (extractStridedSlice ⟨2, ![1, n]⟩ ![o, 0] X hs) h1) h2 (ix2 u j) = X (ix2 l j) :=
  (shapeCast_a_1a_apply _ h2 u j).trans
    ((shapeCast_1a_a_apply _ h1 j).trans (slice2_axis0_apply o X hs (0 : Fin 1) j l (by rw [hl]; rfl)))

/-- Slab `l` of an [L, a, b] tensor, cut out as a [1, a, b] slice at offset `o = l` and squeezed to an [a, b] matrix:
    at (i, j) it is the tensor at (l, i, j). -/
theorem slab_slice_cast {L a b : Nat} (o : Nat) (X : (⟨3, ![L, a, b]⟩ : Shape).Idx → α)
    (hs : (⟨3, ![L, a, b]⟩ : Shape).Slices ![o, 0, 0] ⟨3, ![1, a, b]⟩)
    (hc : (⟨3, ![1, a, b]⟩ : Shape).ShapeCasts ⟨2, ![a, b]⟩)
    (l : Fin L) (hl : l.val = o) (i : Fin a) (j : Fin b) :
    shapeCast ⟨2, ![a, b]⟩ (extractStridedSlice ⟨3, ![1, a, b]⟩ ![o, 0, 0] X hs) hc (ix2 i j) = X (ix3 l i j) :=
  (shapeCast_1ab_ab_apply _ hc i j).trans
    (extractStridedSlice_apply _ X hs _ (ix3 l i j) (fun ax => by
      match ax with
      | ⟨0, _⟩ => exact hl.trans (Nat.add_zero o).symm
      | ⟨1, _⟩ => exact (Nat.zero_add _).symm
      | ⟨2, _⟩ => exact (Nat.zero_add _).symm))

end Cert.LibLayerSlices

end
-- ==== Proof.KRegionGc.lean ====
/-
  What each graph-convolution region leaves in its output array, index by index.

  The three kernels compute, on a tile of 2000 rows, the product of the tile with a 128 x 128 weight matrix (into a
  zero accumulator), add the bias row, subtract the mean row, scale by gamma * rsqrt (var + eps), add the beta row
  and clamp at zero; the two residual kernels then add the previous layer's tile. Each row vector is spread over the
  rows of the tile. Read at an index (p, q) of tile t this is the layer `Spec.gc` (or `Spec.gcResid`) at row
  `2000 t + p` and column `q` of the arrays the region finds; the 25 tiles cover the 50000 rows, so the array after
  the region is that layer of those arrays.
-/
import proofs.«167285_j14499809591443_1_alg».proof.Proof.Gen.KernelIdeal.Frame
import proofs.«167285_j14499809591443_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx Idealize.SL.Sem
open Idealize.ShloMosaic.TcCoe
open Idealize.ShloMosaic.Pipeline (Dat)

/-! ## The tile's arithmetic at an index -/

/-- The zero offsets of a whole-buffer load or store, as the constant function. -/
theorem gc_off_zero : (![0, 0] : Fin 2 → Nat) = fun _ => 0 := funext fun a => by fin_cases a <;> rfl

/-- The left operand's row at output index `j` is `j`'s row, whatever the contraction position. -/
theorem gc_lhs_row (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The right operand's column at output index `j` is `j`'s column, whatever the contraction position. -/
theorem gc_rhs_col (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product of a 2000 x 128 tile with a 128 x 128 matrix into the zero accumulator, at (p, q): the sum over the
    contracted axis of the products. -/
theorem gc_matmul_apply (x : FVec Ideal S2000x128 .f32) (w : FVec Ideal S128x128 .f32) (p : Fin 2000) (q : Fin 128) :
    matmul dot_S2000x128_S128x128_S2000x128_1_0_0_1_n_n none x w (constant S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact gc_lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact gc_rhs_col _ _)
  rw [el, er]

/-- The tile of a graph-convolution layer at (p, q), from the loaded tile, the weight matrix and the five row vectors
    (bias, gamma, var, mean, beta in the order the body loads them): every row vector is read at its one row. -/
theorem gc_pay_apply (v0 : FVec Ideal S2000x128 .f32) (v2 : FVec Ideal S128x128 .f32) (v5 v9 v11 v17 v23 : FVec Ideal S1x128 .f32)
    (p : Fin 2000) (q : Fin 128) :
    k2_pay1 (F := Ideal) v0 v2 v5 v9 v11 v17 v23 (ix2 p q)
      = max (((((∑ k : Fin 128, v0 (ix2 p k) * v2 (ix2 k q)) + v5 (ix2 0 q)) - v17 (ix2 0 q))
              * (v9 (ix2 0 q) * Ideal.rsqrt (v11 (ix2 0 q) + Spec.eps))) + v23 (ix2 0 q)) 0 := by
  unfold k2_pay1
  rw [shapeCast_self, shapeCast_self, shapeCast_self, shapeCast_self, shapeCast_self, shapeCast_self, shapeCast_self]
  show max ((((matmul dot_S2000x128_S128x128_S2000x128_1_0_0_1_n_n none v0 v2 (constant S2000x128 .f32 0x00000000#32) (ix2 p q)
        + broadcastTo S2000x128 v5 broadcasts_S1x128_S2000x128 (ix2 p q))
        - broadcastTo S2000x128 v17 broadcasts_S1x128_S2000x128 (ix2 p q))
        * broadcastTo S2000x128 (mulf (F := Ideal) v9 (rsqrt (addf v11 (broadcast S1x128 (Scalar.ofBits .f32 0x3727C5AC#32)))))
            broadcasts_S1x128_S2000x128 (ix2 p q))
        + broadcastTo S2000x128 v23 broadcasts_S1x128_S2000x128 (ix2 p q))
      (Ideal.ofBits .f32 0x00000000#32) = _
  rw [gc_matmul_apply, broadcastTo_1b_ab_apply, broadcastTo_1b_ab_apply, broadcastTo_1b_ab_apply, broadcastTo_1b_ab_apply,
    Ideal.ofBits_zero_f32]
  rfl

/-- The residual kernels' tile is the same tile with the previous layer's tile added. -/
theorem gc_pay3_apply (v0 : FVec Ideal S2000x128 .f32) (v2 : FVec Ideal S128x128 .f32) (v5 v9 v11 v17 v23 : FVec Ideal S1x128 .f32)
    (v29 : FVec Ideal S2000x128 .f32) (p : Fin 2000) (q : Fin 128) :
    k3_pay1 (F := Ideal) v0 v2 v5 v9 v11 v17 v23 v29 (ix2 p q)
      = max (((((∑ k : Fin 128, v0 (ix2 p k) * v2 (ix2 k q)) + v5 (ix2 0 q)) - v17 (ix2 0 q))
              * (v9 (ix2 0 q) * Ideal.rsqrt (v11 (ix2 0 q) + Spec.eps))) + v23 (ix2 0 q)) 0 + v29 (ix2 p q) := by
  have e : k3_pay1 (F := Ideal) v0 v2 v5 v9 v11 v17 v23 v29
      = addf (k2_pay1 (F := Ideal) v0 v2 v5 v9 v11 v17 v23) (shapeCast S2000x128 v29 shapeCasts_S2000x128_S2000x128) := rfl
  rw [e, shapeCast_self]
  exact congrArg (· + v29 (ix2 p q)) (gc_pay_apply v0 v2 v5 v9 v11 v17 v23 p q)

/-- The second residual kernel's tile: the same text, so the same value. -/
theorem gc_pay4_apply (v0 : FVec Ideal S2000x128 .f32) (v2 : FVec Ideal S128x128 .f32) (v5 v9 v11 v17 v23 : FVec Ideal S1x128 .f32)
    (v29 : FVec Ideal S2000x128 .f32) (p : Fin 2000) (q : Fin 128) :
    k4_pay1 (F := Ideal) v0 v2 v5 v9 v11 v17 v23 v29 (ix2 p q)
      = max (((((∑ k : Fin 128, v0 (ix2 p k) * v2 (ix2 k q)) + v5 (ix2 0 q)) - v17 (ix2 0 q))
              * (v9 (ix2 0 q) * Ideal.rsqrt (v11 (ix2 0 q) + Spec.eps))) + v23 (ix2 0 q)) 0 + v29 (ix2 p q) := by
  have e : k4_pay1 (F := Ideal) v0 v2 v5 v9 v11 v17 v23 v29
      = addf (k2_pay1 (F := Ideal) v0 v2 v5 v9 v11 v17 v23) (shapeCast S2000x128 v29 shapeCasts_S2000x128_S2000x128) := rfl
  rw [e, shapeCast_self]
  exact congrArg (· + v29 (ix2 p q)) (gc_pay_apply v0 v2 v5 v9 v11 v17 v23 p q)

/-! ## The layer as one function of the output array's index -/

/-- A graph-convolution layer's output array as one function of its seven input arrays, index by index. -/
def gcLayerArr (R : S50000x128.Idx → EReal) (W : S128x128.Idx → EReal) (B G Be M Va : S1x128.Idx → EReal) :
    S50000x128.Idx → EReal :=
  fun i => Spec.gc (fun r k => R (ix2 r k)) (fun k j => W (ix2 k j)) (fun j => B (ix2 0 j)) (fun j => G (ix2 0 j))
    (fun j => Be (ix2 0 j)) (fun j => M (ix2 0 j)) (fun j => Va (ix2 0 j)) ⟨(i 0).val, idx2_lt0 i⟩ ⟨(i 1).val, idx2_lt1 i⟩

/-- The same with the residual connection: the previous layer's array added. -/
def gcResidLayerArr (R : S50000x128.Idx → EReal) (W : S128x128.Idx → EReal) (B G Be M Va : S1x128.Idx → EReal)
    (Hp : S50000x128.Idx → EReal) : S50000x128.Idx → EReal :=
  fun i => Spec.gcResid (fun r k => R (ix2 r k)) (fun k j => W (ix2 k j)) (fun j => B (ix2 0 j)) (fun j => G (ix2 0 j))
    (fun j => Be (ix2 0 j)) (fun j => M (ix2 0 j)) (fun j => Va (ix2 0 j)) (fun r j => Hp (ix2 r j))
    ⟨(i 0).val, idx2_lt0 i⟩ ⟨(i 1).val, idx2_lt1 i⟩

/-- THE SHARED ARITHMETIC. A tile whose row-tiled input holds, in its row `p`, row `r` of `R`, and whose other inputs
    are the weight matrix and the five row vectors, holds at (p, q) the layer at (r, q): the sums agree term by term
    and the row vectors entry by entry. -/
theorem gc_tile_in_array (x0 : FVec Ideal S2000x128 .f32) (x1 : FVec Ideal S128x128 .f32) (x2 x3 x4 x5 x6 : FVec Ideal S1x128 .f32)
    (R : S50000x128.Idx → EReal) (W : S128x128.Idx → EReal) (B G Be M Va : S1x128.Idx → EReal)
    (p : Fin 2000) (q : Fin 128) (r : Fin 50000)
    (e0 : ∀ k : Fin 128, x0 (ix2 p k) = R (ix2 r k)) (e1 : ∀ k : Fin 128, x1 (ix2 k q) = W (ix2 k q))
    (e2 : x2 (ix2 0 q) = B (ix2 0 q)) (e3 : x3 (ix2 0 q) = G (ix2 0 q)) (e4 : x4 (ix2 0 q) = Be (ix2 0 q))
    (e5 : x5 (ix2 0 q) = M (ix2 0 q)) (e6 : x6 (ix2 0 q) = Va (ix2 0 q)) :
    max (((((∑ k : Fin 128, x0 (ix2 p k) * x1 (ix2 k q)) + x2 (ix2 0 q)) - x5 (ix2 0 q))
            * (x3 (ix2 0 q) * Ideal.rsqrt (x6 (ix2 0 q) + Spec.eps))) + x4 (ix2 0 q)) 0
      = gcLayerArr R W B G Be M Va (ix2 r q) := by
  show _ = max (((((∑ k : Fin 128, R (ix2 r k) * W (ix2 k q)) + B (ix2 0 q)) - M (ix2 0 q))
            * (G (ix2 0 q) * Ideal.rsqrt (Va (ix2 0 q) + Spec.eps))) + Be (ix2 0 q)) 0
  rw [e2, e3, e4, e5, e6]
  refine congrArg (fun s => max ((((s + B (ix2 0 q)) - M (ix2 0 q))
            * (G (ix2 0 q) * Ideal.rsqrt (Va (ix2 0 q) + Spec.eps))) + Be (ix2 0 q)) 0) (Finset.sum_congr rfl fun k _ => ?_)
  rw [e0 k, e1 k]

/-! ## Region 2: from the tiles to the array -/

section Region2
variable (V : (c : Dev nD) → (b : Ref sig .tc) → Buf (Elt Ideal) ((c : Thread nD τ).loc b))

/-- What region 2's body leaves in its output tile, at (p, q), from the input tiles in window order
    (rows, weights, bias, gamma, beta, mean, var). -/
theorem gc_out2_apply (x0 : FVec Ideal S2000x128 .f32) (x1 : FVec Ideal S128x128 .f32) (x2 x3 x4 x5 x6 : FVec Ideal S1x128 .f32)
    (p : Fin 2000) (q : Fin 128) :
    out2_7 (F := Ideal) x0 x1 x2 x3 x4 x5 x6 (ix2 p q)
      = max (((((∑ k : Fin 128, x0 (ix2 p k) * x1 (ix2 k q)) + x2 (ix2 0 q)) - x5 (ix2 0 q))
              * (x3 (ix2 0 q) * Ideal.rsqrt (x6 (ix2 0 q) + Spec.eps))) + x4 (ix2 0 q)) 0 := by
  unfold out2_7
  rw [View.canon_unit_zero gc_off_zero]
  simp only [View.ld_unit_zero (S := S2000x128) gc_off_zero, View.ld_unit_zero (S := S128x128) gc_off_zero,
    View.ld_unit_zero (S := S1x128) gc_off_zero]
  exact gc_pay_apply x0 x1 x2 x3 x6 x5 x4 p q

/-- The printed index maps, decided over the 25 grid points: the row-tiled windows sit at block (t, 0), the weight
    matrix and the five row vectors at block (0, 0). -/
theorem gc_idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Tile t of the row-tiled input is rows 2000 t … 2000 t + 1999 of its array. -/
theorem gc_rows2_0 (c : Dev nD) (R : S50000x128.Idx → EReal) (h : V c (Pipeline.arrRef spec2 0) = R) (t : Fin cfg2.N)
    (p : Fin 2000) (k : Fin 128) (r : Fin 50000) (hr : r.val = 2000 * t.val + p.val) :
    (iblk2 (F := Ideal) V c 0 t : Vec Ideal S2000x128 .f32) (ix2 p k) = R (ix2 r k) := by
  subst h
  obtain ⟨i0, i1, -⟩ := gc_idx2 t
  show V c (Pipeline.arrRef spec2 0) ((win2_0.blk t).view.emb (ix2 p k)) = _
  refine congrArg (V c (Pipeline.arrRef spec2 0)) (funext fun a => Fin.ext ?_)
  match a with
  | ⟨0, _⟩ => show win2_0.index t (0 : Fin 2) * 2000 + 1 * p.val = r.val; rw [i0, hr]; omega
  | ⟨1, _⟩ => show win2_0.index t (1 : Fin 2) * 128 + 1 * k.val = k.val; rw [i1]; omega

/-- The weight window's one tile is the whole weight matrix. -/
theorem gc_weights2 (c : Dev nD) (W : S128x128.Idx → EReal) (h : V c (Pipeline.arrRef spec2 1) = W) (t : Fin cfg2.N)
    (k q : Fin 128) :
    (iblk2 (F := Ideal) V c 1 t : Vec Ideal S128x128 .f32) (ix2 k q) = W (ix2 k q) := by
  subst h
  obtain ⟨-, -, i0, i1, -⟩ := gc_idx2 t
  show V c (Pipeline.arrRef spec2 1) ((win2_1.blk t).view.emb (ix2 k q)) = _
  refine congrArg (V c (Pipeline.arrRef spec2 1)) (funext fun a => Fin.ext ?_)
  match a with
  | ⟨0, _⟩ => show win2_1.index t (0 : Fin 2) * 128 + 1 * k.val = k.val; rw [i0]; omega
  | ⟨1, _⟩ => show win2_1.index t (1 : Fin 2) * 128 + 1 * q.val = q.val; rw [i1]; omega

/-- The bias window's one tile is the whole bias row. -/
theorem gc_vec2_2 (c : Dev nD) (B : S1x128.Idx → EReal) (h : V c (Pipeline.arrRef spec2 2) = B) (t : Fin cfg2.N)
    (q : Fin 128) :
    (iblk2 (F := Ideal) V c 2 t : Vec Ideal S1x128 .f32) (ix2 0 q) = B (ix2 0 q) := by
  subst h
  obtain ⟨-, -, -, -, i0, i1, -⟩ := gc_idx2 t
  show V c (Pipeline.arrRef spec2 2) ((win2_2.blk t).view.emb (ix2 (0 : Fin 1) q)) = _
  refine congrArg (V c (Pipeline.arrRef spec2 2)) (funext fun a => Fin.ext ?_)
  match a with
  | ⟨0, _⟩ => show win2_2.index t (0 : Fin 2) * 1 + 1 * 0 = 0; rw [i0]
  | ⟨1, _⟩ => show win2_2.index t (1 : Fin 2) * 128 + 1 * q.val = q.val; rw [i1]; omega

/-- The gamma window's one tile is the whole gamma row. -/
theorem gc_vec2_3 (c : Dev nD) (G : S1x128.Idx → EReal) (h : V c (Pipeline.arrRef spec2 3) = G) (t : Fin cfg2.N)
    (q : Fin 128) :
    (iblk2 (F := Ideal) V c 3 t : Vec Ideal S1x128 .f32) (ix2 0 q) = G (ix2 0 q) := by
  subst h
  obtain ⟨-, -, -, -, -, -, i0, i1, -⟩ := gc_idx2 t
  show V c (Pipeline.arrRef spec2 3) ((win2_3.blk t).view.emb (ix2 (0 : Fin 1) q)) = _
  refine congrArg (V c (Pipeline.arrRef spec2 3)) (funext fun a => Fin.ext ?_)
  match a with
  | ⟨0, _⟩ => show win2_3.index t (0 : Fin 2) * 1 + 1 * 0 = 0; rw [i0]
  | ⟨1, _⟩ => show win2_3.index t (1 : Fin 2) * 128 + 1 * q.val = q.val; rw [i1]; omega

/-- The beta window's one tile is the whole beta row. -/
theorem gc_vec2_4 (c : Dev nD) (Be : S1x128.Idx → EReal) (h : V c (Pipeline.arrRef spec2 4) = Be) (t : Fin cfg2.N)
    (q : Fin 128) :
    (iblk2 (F := Ideal) V c 4 t : Vec Ideal S1x128 .f32) (ix2 0 q) = Be (ix2 0 q) := by
  subst h
  obtain ⟨-, -, -, -, -, -, -, -, i0, i1, -⟩ := gc_idx2 t
  show V c (Pipeline.arrRef spec2 4) ((win2_4.blk t).view.emb (ix2 (0 : Fin 1) q)) = _
  refine congrArg (V c (Pipeline.arrRef spec2 4)) (funext fun a => Fin.ext ?_)
  match a with
  | ⟨0, _⟩ => show win2_4.index t (0 : Fin 2) * 1 + 1 * 0 = 0; rw [i0]
  | ⟨1, _⟩ => show win2_4.index t (1 : Fin 2) * 128 + 1 * q.val = q.val; rw [i1]; omega

/-- The mean window's one tile is the whole mean row. -/
theorem gc_vec2_5 (c : Dev nD) (M : S1x128.Idx → EReal) (h : V c (Pipeline.arrRef spec2 5) = M) (t : Fin cfg2.N)
    (q : Fin 128) :
    (iblk2 (F := Ideal) V c 5 t : Vec Ideal S1x128 .f32) (ix2 0 q) = M (ix2 0 q) := by
  subst h
  obtain ⟨-, -, -, -, -, -, -, -, -, -, i0, i1, -⟩ := gc_idx2 t
  show V c (Pipeline.arrRef spec2 5) ((win2_5.blk t).view.emb (ix2 (0 : Fin 1) q)) = _
  refine congrArg (V c (Pipeline.arrRef spec2 5)) (funext fun a => Fin.ext ?_)
  match a with
  | ⟨0, _⟩ => show win2_5.index t (0 : Fin 2) * 1 + 1 * 0 = 0; rw [i0]
  | ⟨1, _⟩ => show win2_5.index t (1 : Fin 2) * 128 + 1 * q.val = q.val; rw [i1]; omega

/-- The var window's one tile is the whole var row. -/
theorem gc_vec2_6 (c : Dev nD) (Va : S1x128.Idx → EReal) (h : V c (Pipeline.arrRef spec2 6) = Va) (t : Fin cfg2.N)
    (q : Fin 128) :
    (iblk2 (F := Ideal) V c 6 t : Vec Ideal S1x128 .f32) (ix2 0 q) = Va (ix2 0 q) := by
  subst h
  obtain ⟨-, -, -, -, -, -, -, -, -, -, -, -, i0, i1, -⟩ := gc_idx2 t
  show V c (Pipeline.arrRef spec2 6) ((win2_6.blk t).view.emb (ix2 (0 : Fin 1) q)) = _
  refine congrArg (V c (Pipeline.arrRef spec2 6)) (funext fun a => Fin.ext ?_)
  match a with
  | ⟨0, _⟩ => show win2_6.index t (0 : Fin 2) * 1 + 1 * 0 = 0; rw [i0]
  | ⟨1, _⟩ => show win2_6.index t (1 : Fin 2) * 128 + 1 * q.val = q.val; rw [i1]; omega

/-- Element (p, q) of the output's tile t sits at row 2000 t + p, column q of the output array. -/
theorem gc_emb2 (t : Fin cfg2.N) (p : Fin 2000) (q : Fin 128) (r : Fin 50000) (hr : r.val = 2000 * t.val + p.val) :
    ((cfg2.win 7).blk t).view.emb (ix2 p q) = (ix2 r q : S50000x128.Idx) := by
  obtain ⟨-, -, -, -, -, -, -, -, -, -, -, -, -, -, i0, i1⟩ := gc_idx2 t
  funext a; apply Fin.ext
  match a with
  | ⟨0, _⟩ => show win2_7.index t (0 : Fin 2) * 2000 + 1 * p.val = r.val; rw [i0, hr]; omega
  | ⟨1, _⟩ => show win2_7.index t (1 : Fin 2) * 128 + 1 * q.val = q.val; rw [i1]; omega

/-- What grid point t writes back is tile t of the layer's whole-array function. -/
theorem gc_flushed2 (c : Dev nD) (R : S50000x128.Idx → EReal) (W : S128x128.Idx → EReal) (B G Be M Va : S1x128.Idx → EReal)
    (h0 : V c (Pipeline.arrRef spec2 0) = R) (h1 : V c (Pipeline.arrRef spec2 1) = W) (h2 : V c (Pipeline.arrRef spec2 2) = B)
    (h3 : V c (Pipeline.arrRef spec2 3) = G) (h4 : V c (Pipeline.arrRef spec2 4) = Be) (h5 : V c (Pipeline.arrRef spec2 5) = M)
    (h6 : V c (Pipeline.arrRef spec2 6) = Va)
    (t : Fin cfg2.N) :
    (dat2 (F := Ideal) V c).flushed 7 t = ((cfg2.win 7).blk t).view.read (Elt Ideal) (gcLayerArr R W B G Be M Va) := by
  show (cfg2.win 7).cut (grid2.coords t) ((dat2 V c).after 7 t) = _
  rw [after2_7]
  funext j
  obtain ⟨p, q, rfl⟩ : ∃ (p : Fin 2000) (q : Fin 128), j = (ix2 p q : S2000x128.Idx) := ⟨j 0, j 1, @eq_ix2 2000 128 j⟩
  have hN : cfg2.N = 25 := N_2
  have hp : 2000 * t.val + p.val < 50000 := by have := t.isLt; have := p.isLt; omega
  show out2_7 (F := Ideal) (iblk2 V c 0 t) (iblk2 V c 1 t) (iblk2 V c 2 t) (iblk2 V c 3 t) (iblk2 V c 4 t) (iblk2 V c 5 t) (iblk2 V c 6 t) (ix2 p q)
    = gcLayerArr R W B G Be M Va (((cfg2.win 7).blk t).view.emb (ix2 p q))
  rw [gc_emb2 t p q ⟨2000 * t.val + p.val, hp⟩ rfl]
  refine (gc_out2_apply (iblk2 V c 0 t) (iblk2 V c 1 t) (iblk2 V c 2 t) (iblk2 V c 3 t) (iblk2 V c 4 t) (iblk2 V c 5 t) (iblk2 V c 6 t) p q).trans ?_
  exact gc_tile_in_array (iblk2 V c 0 t) (iblk2 V c 1 t) (iblk2 V c 2 t) (iblk2 V c 3 t) (iblk2 V c 4 t) (iblk2 V c 5 t) (iblk2 V c 6 t)
    R W B G Be M Va p q ⟨2000 * t.val + p.val, hp⟩
    (fun k => gc_rows2_0 V c R h0 t p k ⟨2000 * t.val + p.val, hp⟩ rfl) (fun k => gc_weights2 V c W h1 t k q)
    (gc_vec2_2 V c B h2 t q) (gc_vec2_3 V c G h3 t q) (gc_vec2_4 V c Be h4 t q) (gc_vec2_5 V c M h5 t q)
    (gc_vec2_6 V c Va h6 t q)

/-- An index of the output array is in tile t iff each coordinate is in the tile's range on its axis. -/
theorem gc_mem_blk2 (t : Fin cfg2.N) (i : S50000x128.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole main_v73).slice (win2_7.rect t)).set ↔ _
  rw [View.set_slice_whole, Rect.mem_set_unit]
  exact Iff.rfl

/-- Row r of the output is covered by grid point r / 2000. -/
theorem gc_cover2 (i : S50000x128.Idx) :
    ∃ t : Fin cfg2.N, (cfg2.win 7).flush t = true ∧ i ∈ ((cfg2.win 7).blk t).view.set := by
  have hi0 : (i 0).val < 50000 := idx2_lt0 i
  have hi1 : (i 1).val < 128 := idx2_lt1 i
  have hN : cfg2.N = 25 := N_2
  obtain ⟨t, ht⟩ : ∃ t : Fin cfg2.N, t.val = (i 0).val / 2000 :=
    ⟨⟨(i 0).val / 2000, lt_of_lt_of_eq (show (i 0).val / 2000 < 25 by omega) hN.symm⟩, rfl⟩
  obtain ⟨-, -, -, -, -, -, -, -, -, -, -, -, -, -, i0, i1⟩ := gc_idx2 t
  refine ⟨t, flush2_7 t, ?_⟩
  rw [gc_mem_blk2]
  intro a
  match a with
  | ⟨0, _⟩ => show win2_7.index t (0 : Fin 2) * 2000 ≤ (i 0).val ∧ (i 0).val < win2_7.index t (0 : Fin 2) * 2000 + 2000; rw [i0, ht]; omega
  | ⟨1, _⟩ => show win2_7.index t (1 : Fin 2) * 128 ≤ (i 1).val ∧ (i 1).val < win2_7.index t (1 : Fin 2) * 128 + 128; rw [i1]; omega

/-- The output array after the region: the layer's whole-array function of the input arrays. -/
theorem gc_array2 (c : Dev nD) (R : S50000x128.Idx → EReal) (W : S128x128.Idx → EReal) (B G Be M Va : S1x128.Idx → EReal)
    (h0 : V c (Pipeline.arrRef spec2 0) = R) (h1 : V c (Pipeline.arrRef spec2 1) = W) (h2 : V c (Pipeline.arrRef spec2 2) = B)
    (h3 : V c (Pipeline.arrRef spec2 3) = G) (h4 : V c (Pipeline.arrRef spec2 4) = Be) (h5 : V c (Pipeline.arrRef spec2 5) = M)
    (h6 : V c (Pipeline.arrRef spec2 6) = Va) :
    (dat2 (F := Ideal) V c).arrAt 7 cfg2.N = gcLayerArr R W B G Be M Va :=
  (dat2 (F := Ideal) V c).arrAt_eq_of_cover 7 (gcLayerArr R W B G Be M Va)
    (fun t _ => gc_flushed2 V c R W B G Be M Va h0 h1 h2 h3 h4 h5 h6 t) gc_cover2

/-- REGION 2: the output array at (r, j) is the graph-convolution layer. -/
theorem region2_value (c : Dev nD) (R : S50000x128.Idx → EReal) (W : S128x128.Idx → EReal) (B G Be M Va : S1x128.Idx → EReal)
    (h0 : V c (Pipeline.arrRef spec2 0) = R) (h1 : V c (Pipeline.arrRef spec2 1) = W) (h2 : V c (Pipeline.arrRef spec2 2) = B)
    (h3 : V c (Pipeline.arrRef spec2 3) = G) (h4 : V c (Pipeline.arrRef spec2 4) = Be) (h5 : V c (Pipeline.arrRef spec2 5) = M)
    (h6 : V c (Pipeline.arrRef spec2 6) = Va) (r : Fin 50000) (j : Fin 128) :
    (dat2 (F := Ideal) V c).arrAt 7 cfg2.N (ix2 r j)
      = Spec.gc (fun r k => R (ix2 r k)) (fun k j => W (ix2 k j)) (fun j => B (ix2 0 j)) (fun j => G (ix2 0 j)) (fun j => Be (ix2 0 j))
          (fun j => M (ix2 0 j)) (fun j => Va (ix2 0 j)) r j := by
  rw [gc_array2 V c R W B G Be M Va h0 h1 h2 h3 h4 h5 h6]
  rfl

end Region2

/-! ## Region 3 (with the residual connection): from the tiles to the array -/

section Region3
variable (V : (c : Dev nD) → (b : Ref sig .tc) → Buf (Elt Ideal) ((c : Thread nD τ).loc b))

/-- What region 3's body leaves in its output tile, at (p, q), from the input tiles in window order
    (rows, weights, bias, gamma, beta, mean, var, previous layer). -/
theorem gc_out3_apply (x0 : FVec Ideal S2000x128 .f32) (x1 : FVec Ideal S128x128 .f32) (x2 x3 x4 x5 x6 : FVec Ideal S1x128 .f32)
    (x7 : FVec Ideal S2000x128 .f32) (p : Fin 2000) (q : Fin 128) :
    out3_8 (F := Ideal) x0 x1 x2 x3 x4 x5 x6 x7 (ix2 p q)
      = max (((((∑ k : Fin 128, x0 (ix2 p k) * x1 (ix2 k q)) + x2 (ix2 0 q)) - x5 (ix2 0 q))
              * (x3 (ix2 0 q) * Ideal.rsqrt (x6 (ix2 0 q) + Spec.eps))) + x4 (ix2 0 q)) 0 + x7 (ix2 p q) := by
  unfold out3_8
  rw [View.canon_unit_zero gc_off_zero]
  simp only [View.ld_unit_zero (S := S2000x128) gc_off_zero, View.ld_unit_zero (S := S128x128) gc_off_zero,
    View.ld_unit_zero (S := S1x128) gc_off_zero]
  exact gc_pay3_apply x0 x1 x2 x3 x6 x5 x4 x7 p q

/-- The printed index maps, decided over the 25 grid points: the row-tiled windows sit at block (t, 0), the weight
    matrix and the five row vectors at block (0, 0). -/
theorem gc_idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

/-- Tile t of the row-tiled input is rows 2000 t … 2000 t + 1999 of its array. -/
theorem gc_rows3_0 (c : Dev nD) (R : S50000x128.Idx → EReal) (h : V c (Pipeline.arrRef spec3 0) = R) (t : Fin cfg3.N)
    (p : Fin 2000) (k : Fin 128) (r : Fin 50000) (hr : r.val = 2000 * t.val + p.val) :
    (iblk3 (F := Ideal) V c 0 t : Vec Ideal S2000x128 .f32) (ix2 p k) = R (ix2 r k) := by
  subst h
  obtain ⟨i0, i1, -⟩ := gc_idx3 t
  show V c (Pipeline.arrRef spec3 0) ((win3_0.blk t).view.emb (ix2 p k)) = _
  refine congrArg (V c (Pipeline.arrRef spec3 0)) (funext fun a => Fin.ext ?_)
  match a with
  | ⟨0, _⟩ => show win3_0.index t (0 : Fin 2) * 2000 + 1 * p.val = r.val; rw [i0, hr]; omega
  | ⟨1, _⟩ => show win3_0.index t (1 : Fin 2) * 128 + 1 * k.val = k.val; rw [i1]; omega

/-- The weight window's one tile is the whole weight matrix. -/
theorem gc_weights3 (c : Dev nD) (W : S128x128.Idx → EReal) (h : V c (Pipeline.arrRef spec3 1) = W) (t : Fin cfg3.N)
    (k q : Fin 128) :
    (iblk3 (F := Ideal) V c 1 t : Vec Ideal S128x128 .f32) (ix2 k q) = W (ix2 k q) := by
  subst h
  obtain ⟨-, -, i0, i1, -⟩ := gc_idx3 t
  show V c (Pipeline.arrRef spec3 1) ((win3_1.blk t).view.emb (ix2 k q)) = _
  refine congrArg (V c (Pipeline.arrRef spec3 1)) (funext fun a => Fin.ext ?_)
  match a with
  | ⟨0, _⟩ => show win3_1.index t (0 : Fin 2) * 128 + 1 * k.val = k.val; rw [i0]; omega
  | ⟨1, _⟩ => show win3_1.index t (1 : Fin 2) * 128 + 1 * q.val = q.val; rw [i1]; omega

/-- The bias window's one tile is the whole bias row. -/
theorem gc_vec3_2 (c : Dev nD) (B : S1x128.Idx → EReal) (h : V c (Pipeline.arrRef spec3 2) = B) (t : Fin cfg3.N)
    (q : Fin 128) :
    (iblk3 (F := Ideal) V c 2 t : Vec Ideal S1x128 .f32) (ix2 0 q) = B (ix2 0 q) := by
  subst h
  obtain ⟨-, -, -, -, i0, i1, -⟩ := gc_idx3 t
  show V c (Pipeline.arrRef spec3 2) ((win3_2.blk t).view.emb (ix2 (0 : Fin 1) q)) = _
  refine congrArg (V c (Pipeline.arrRef spec3 2)) (funext fun a => Fin.ext ?_)
  match a with
  | ⟨0, _⟩ => show win3_2.index t (0 : Fin 2) * 1 + 1 * 0 = 0; rw [i0]
  | ⟨1, _⟩ => show win3_2.index t (1 : Fin 2) * 128 + 1 * q.val = q.val; rw [i1]; omega

/-- The gamma window's one tile is the whole gamma row. -/
theorem gc_vec3_3 (c : Dev nD) (G : S1x128.Idx → EReal) (h : V c (Pipeline.arrRef spec3 3) = G) (t : Fin cfg3.N)
    (q : Fin 128) :
    (iblk3 (F := Ideal) V c 3 t : Vec Ideal S1x128 .f32) (ix2 0 q) = G (ix2 0 q) := by
  subst h
  obtain ⟨-, -, -, -, -, -, i0, i1, -⟩ := gc_idx3 t
  show V c (Pipeline.arrRef spec3 3) ((win3_3.blk t).view.emb (ix2 (0 : Fin 1) q)) = _
  refine congrArg (V c (Pipeline.arrRef spec3 3)) (funext fun a => Fin.ext ?_)
  match a with
  | ⟨0, _⟩ => show win3_3.index t (0 : Fin 2) * 1 + 1 * 0 = 0; rw [i0]
  | ⟨1, _⟩ => show win3_3.index t (1 : Fin 2) * 128 + 1 * q.val = q.val; rw [i1]; omega

/-- The beta window's one tile is the whole beta row. -/
theorem gc_vec3_4 (c : Dev nD) (Be : S1x128.Idx → EReal) (h : V c (Pipeline.arrRef spec3 4) = Be) (t : Fin cfg3.N)
    (q : Fin 128) :
    (iblk3 (F := Ideal) V c 4 t : Vec Ideal S1x128 .f32) (ix2 0 q) = Be (ix2 0 q) := by
  subst h
  obtain ⟨-, -, -, -, -, -, -, -, i0, i1, -⟩ := gc_idx3 t
  show V c (Pipeline.arrRef spec3 4) ((win3_4.blk t).view.emb (ix2 (0 : Fin 1) q)) = _
  refine congrArg (V c (Pipeline.arrRef spec3 4)) (funext fun a => Fin.ext ?_)
  match a with
  | ⟨0, _⟩ => show win3_4.index t (0 : Fin 2) * 1 + 1 * 0 = 0; rw [i0]
  | ⟨1, _⟩ => show win3_4.index t (1 : Fin 2) * 128 + 1 * q.val = q.val; rw [i1]; omega

/-- The mean window's one tile is the whole mean row. -/
theorem gc_vec3_5 (c : Dev nD) (M : S1x128.Idx → EReal) (h : V c (Pipeline.arrRef spec3 5) = M) (t : Fin cfg3.N)
    (q : Fin 128) :
    (iblk3 (F := Ideal) V c 5 t : Vec Ideal S1x128 .f32) (ix2 0 q) = M (ix2 0 q) := by
  subst h
  obtain ⟨-, -, -, -, -, -, -, -, -, -, i0, i1, -⟩ := gc_idx3 t
  show V c (Pipeline.arrRef spec3 5) ((win3_5.blk t).view.emb (ix2 (0 : Fin 1) q)) = _
  refine congrArg (V c (Pipeline.arrRef spec3 5)) (funext fun a => Fin.ext ?_)
  match a with
  | ⟨0, _⟩ => show win3_5.index t (0 : Fin 2) * 1 + 1 * 0 = 0; rw [i0]
  | ⟨1, _⟩ => show win3_5.index t (1 : Fin 2) * 128 + 1 * q.val = q.val; rw [i1]; omega

/-- The var window's one tile is the whole var row. -/
theorem gc_vec3_6 (c : Dev nD) (Va : S1x128.Idx → EReal) (h : V c (Pipeline.arrRef spec3 6) = Va) (t : Fin cfg3.N)
    (q : Fin 128) :
    (iblk3 (F := Ideal) V c 6 t : Vec Ideal S1x128 .f32) (ix2 0 q) = Va (ix2 0 q) := by
  subst h
  obtain ⟨-, -, -, -, -, -, -, -, -, -, -, -, i0, i1, -⟩ := gc_idx3 t
  show V c (Pipeline.arrRef spec3 6) ((win3_6.blk t).view.emb (ix2 (0 : Fin 1) q)) = _
  refine congrArg (V c (Pipeline.arrRef spec3 6)) (funext fun a => Fin.ext ?_)
  match a with
  | ⟨0, _⟩ => show win3_6.index t (0 : Fin 2) * 1 + 1 * 0 = 0; rw [i0]
  | ⟨1, _⟩ => show win3_6.index t (1 : Fin 2) * 128 + 1 * q.val = q.val; rw [i1]; omega

/-- Tile t of the previous layer's window is rows 2000 t … 2000 t + 1999 of its array. -/
theorem gc_rows3_7 (c : Dev nD) (Hp : S50000x128.Idx → EReal) (h : V c (Pipeline.arrRef spec3 7) = Hp) (t : Fin cfg3.N)
    (p : Fin 2000) (k : Fin 128) (r : Fin 50000) (hr : r.val = 2000 * t.val + p.val) :
    (iblk3 (F := Ideal) V c 7 t : Vec Ideal S2000x128 .f32) (ix2 p k) = Hp (ix2 r k) := by
  subst h
  obtain ⟨-, -, -, -, -, -, -, -, -, -, -, -, -, -, i0, i1, -⟩ := gc_idx3 t
  show V c (Pipeline.arrRef spec3 7) ((win3_7.blk t).view.emb (ix2 p k)) = _
  refine congrArg (V c (Pipeline.arrRef spec3 7)) (funext fun a => Fin.ext ?_)
  match a with
  | ⟨0, _⟩ => show win3_7.index t (0 : Fin 2) * 2000 + 1 * p.val = r.val; rw [i0, hr]; omega
  | ⟨1, _⟩ => show win3_7.index t (1 : Fin 2) * 128 + 1 * k.val = k.val; rw [i1]; omega

/-- Element (p, q) of the output's tile t sits at row 2000 t + p, column q of the output array. -/
theorem gc_emb3 (t : Fin cfg3.N) (p : Fin 2000) (q : Fin 128) (r : Fin 50000) (hr : r.val = 2000 * t.val + p.val) :
    ((cfg3.win 8).blk t).view.emb (ix2 p q) = (ix2 r q : S50000x128.Idx) := by
  obtain ⟨-, -, -, -, -, -, -, -, -, -, -, -, -, -, -, -, i0, i1⟩ := gc_idx3 t
  funext a; apply Fin.ext
  match a with
  | ⟨0, _⟩ => show win3_8.index t (0 : Fin 2) * 2000 + 1 * p.val = r.val; rw [i0, hr]; omega
  | ⟨1, _⟩ => show win3_8.index t (1 : Fin 2) * 128 + 1 * q.val = q.val; rw [i1]; omega

/-- What grid point t writes back is tile t of the layer's whole-array function. -/
theorem gc_flushed3 (c : Dev nD) (R : S50000x128.Idx → EReal) (W : S128x128.Idx → EReal) (B G Be M Va : S1x128.Idx → EReal) (Hp : S50000x128.Idx → EReal)
    (h0 : V c (Pipeline.arrRef spec3 0) = R) (h1 : V c (Pipeline.arrRef spec3 1) = W) (h2 : V c (Pipeline.arrRef spec3 2) = B)
    (h3 : V c (Pipeline.arrRef spec3 3) = G) (h4 : V c (Pipeline.arrRef spec3 4) = Be) (h5 : V c (Pipeline.arrRef spec3 5) = M)
    (h6 : V c (Pipeline.arrRef spec3 6) = Va) (h7 : V c (Pipeline.arrRef spec3 7) = Hp)
    (t : Fin cfg3.N) :
    (dat3 (F := Ideal) V c).flushed 8 t = ((cfg3.win 8).blk t).view.read (Elt Ideal) (gcResidLayerArr R W B G Be M Va Hp) := by
  show (cfg3.win 8).cut (grid3.coords t) ((dat3 V c).after 8 t) = _
  rw [after3_8]
  funext j
  obtain ⟨p, q, rfl⟩ : ∃ (p : Fin 2000) (q : Fin 128), j = (ix2 p q : S2000x128.Idx) := ⟨j 0, j 1, @eq_ix2 2000 128 j⟩
  have hN : cfg3.N = 25 := N_3
  have hp : 2000 * t.val + p.val < 50000 := by have := t.isLt; have := p.isLt; omega
  show out3_8 (F := Ideal) (iblk3 V c 0 t) (iblk3 V c 1 t) (iblk3 V c 2 t) (iblk3 V c 3 t) (iblk3 V c 4 t) (iblk3 V c 5 t) (iblk3 V c 6 t) (iblk3 V c 7 t) (ix2 p q)
    = gcResidLayerArr R W B G Be M Va Hp (((cfg3.win 8).blk t).view.emb (ix2 p q))
  rw [gc_emb3 t p q ⟨2000 * t.val + p.val, hp⟩ rfl]
  refine (gc_out3_apply (iblk3 V c 0 t) (iblk3 V c 1 t) (iblk3 V c 2 t) (iblk3 V c 3 t) (iblk3 V c 4 t) (iblk3 V c 5 t) (iblk3 V c 6 t) (iblk3 V c 7 t) p q).trans ?_
  show _ = gcLayerArr R W B G Be M Va (ix2 (⟨2000 * t.val + p.val, hp⟩ : Fin 50000) q) + Hp (ix2 (⟨2000 * t.val + p.val, hp⟩ : Fin 50000) q)
  rw [gc_rows3_7 V c Hp h7 t p q ⟨2000 * t.val + p.val, hp⟩ rfl]
  refine congrArg (· + Hp (ix2 (⟨2000 * t.val + p.val, hp⟩ : Fin 50000) q)) ?_
  exact gc_tile_in_array (iblk3 V c 0 t) (iblk3 V c 1 t) (iblk3 V c 2 t) (iblk3 V c 3 t) (iblk3 V c 4 t) (iblk3 V c 5 t) (iblk3 V c 6 t)
    R W B G Be M Va p q ⟨2000 * t.val + p.val, hp⟩
    (fun k => gc_rows3_0 V c R h0 t p k ⟨2000 * t.val + p.val, hp⟩ rfl) (fun k => gc_weights3 V c W h1 t k q)
    (gc_vec3_2 V c B h2 t q) (gc_vec3_3 V c G h3 t q) (gc_vec3_4 V c Be h4 t q) (gc_vec3_5 V c M h5 t q)
    (gc_vec3_6 V c Va h6 t q)

/-- An index of the output array is in tile t iff each coordinate is in the tile's range on its axis. -/
theorem gc_mem_blk3 (t : Fin cfg3.N) (i : S50000x128.Idx) :
    i ∈ ((cfg3.win 8).blk t).view.set ↔ ∀ a : Fin 2, win3_8.index t a * S2000x128.size a ≤ (i a).val
      ∧ (i a).val < win3_8.index t a * S2000x128.size a + S2000x128.size a := by
  show i ∈ ((View.whole main_v105).slice (win3_8.rect t)).set ↔ _
  rw [View.set_slice_whole, Rect.mem_set_unit]
  exact Iff.rfl

/-- Row r of the output is covered by grid point r / 2000. -/
theorem gc_cover3 (i : S50000x128.Idx) :
    ∃ t : Fin cfg3.N, (cfg3.win 8).flush t = true ∧ i ∈ ((cfg3.win 8).blk t).view.set := by
  have hi0 : (i 0).val < 50000 := idx2_lt0 i
  have hi1 : (i 1).val < 128 := idx2_lt1 i
  have hN : cfg3.N = 25 := N_3
  obtain ⟨t, ht⟩ : ∃ t : Fin cfg3.N, t.val = (i 0).val / 2000 :=
    ⟨⟨(i 0).val / 2000, lt_of_lt_of_eq (show (i 0).val / 2000 < 25 by omega) hN.symm⟩, rfl⟩
  obtain ⟨-, -, -, -, -, -, -, -, -, -, -, -, -, -, -, -, i0, i1⟩ := gc_idx3 t
  refine ⟨t, flush3_8 t, ?_⟩
  rw [gc_mem_blk3]
  intro a
  match a with
  | ⟨0, _⟩ => show win3_8.index t (0 : Fin 2) * 2000 ≤ (i 0).val ∧ (i 0).val < win3_8.index t (0 : Fin 2) * 2000 + 2000; rw [i0, ht]; omega
  | ⟨1, _⟩ => show win3_8.index t (1 : Fin 2) * 128 ≤ (i 1).val ∧ (i 1).val < win3_8.index t (1 : Fin 2) * 128 + 128; rw [i1]; omega

/-- The output array after the region: the layer's whole-array function of the input arrays. -/
theorem gc_array3 (c : Dev nD) (R : S50000x128.Idx → EReal) (W : S128x128.Idx → EReal) (B G Be M Va : S1x128.Idx → EReal) (Hp : S50000x128.Idx → EReal)
    (h0 : V c (Pipeline.arrRef spec3 0) = R) (h1 : V c (Pipeline.arrRef spec3 1) = W) (h2 : V c (Pipeline.arrRef spec3 2) = B)
    (h3 : V c (Pipeline.arrRef spec3 3) = G) (h4 : V c (Pipeline.arrRef spec3 4) = Be) (h5 : V c (Pipeline.arrRef spec3 5) = M)
    (h6 : V c (Pipeline.arrRef spec3 6) = Va) (h7 : V c (Pipeline.arrRef spec3 7) = Hp) :
    (dat3 (F := Ideal) V c).arrAt 8 cfg3.N = gcResidLayerArr R W B G Be M Va Hp :=
  (dat3 (F := Ideal) V c).arrAt_eq_of_cover 8 (gcResidLayerArr R W B G Be M Va Hp)
    (fun t _ => gc_flushed3 V c R W B G Be M Va Hp h0 h1 h2 h3 h4 h5 h6 h7 t) gc_cover3

/-- REGION 3: the output array at (r, j) is the graph-convolution layer with the residual added. -/
theorem region3_value (c : Dev nD) (R : S50000x128.Idx → EReal) (W : S128x128.Idx → EReal) (B G Be M Va : S1x128.Idx → EReal) (Hp : S50000x128.Idx → EReal)
    (h0 : V c (Pipeline.arrRef spec3 0) = R) (h1 : V c (Pipeline.arrRef spec3 1) = W) (h2 : V c (Pipeline.arrRef spec3 2) = B)
    (h3 : V c (Pipeline.arrRef spec3 3) = G) (h4 : V c (Pipeline.arrRef spec3 4) = Be) (h5 : V c (Pipeline.arrRef spec3 5) = M)
    (h6 : V c (Pipeline.arrRef spec3 6) = Va) (h7 : V c (Pipeline.arrRef spec3 7) = Hp) (r : Fin 50000) (j : Fin 128) :
    (dat3 (F := Ideal) V c).arrAt 8 cfg3.N (ix2 r j)
      = Spec.gcResid (fun r k => R (ix2 r k)) (fun k j => W (ix2 k j)) (fun j => B (ix2 0 j)) (fun j => G (ix2 0 j)) (fun j => Be (ix2 0 j))
          (fun j => M (ix2 0 j)) (fun j => Va (ix2 0 j)) (fun r j => Hp (ix2 r j)) r j := by
  rw [gc_array3 V c R W B G Be M Va Hp h0 h1 h2 h3 h4 h5 h6 h7]
  rfl

end Region3

/-! ## Region 4 (with the residual connection): from the tiles to the array -/

section Region4
variable (V : (c : Dev nD) → (b : Ref sig .tc) → Buf (Elt Ideal) ((c : Thread nD τ).loc b))

/-- What region 4's body leaves in its output tile, at (p, q), from the input tiles in window order
    (rows, weights, bias, gamma, beta, mean, var, previous layer). -/
theorem gc_out4_apply (x0 : FVec Ideal S2000x128 .f32) (x1 : FVec Ideal S128x128 .f32) (x2 x3 x4 x5 x6 : FVec Ideal S1x128 .f32)
    (x7 : FVec Ideal S2000x128 .f32) (p : Fin 2000) (q : Fin 128) :
    out4_8 (F := Ideal) x0 x1 x2 x3 x4 x5 x6 x7 (ix2 p q)
      = max (((((∑ k : Fin 128, x0 (ix2 p k) * x1 (ix2 k q)) + x2 (ix2 0 q)) - x5 (ix2 0 q))
              * (x3 (ix2 0 q) * Ideal.rsqrt (x6 (ix2 0 q) + Spec.eps))) + x4 (ix2 0 q)) 0 + x7 (ix2 p q) := by
  unfold out4_8
  rw [View.canon_unit_zero gc_off_zero]
  simp only [View.ld_unit_zero (S := S2000x128) gc_off_zero, View.ld_unit_zero (S := S128x128) gc_off_zero,
    View.ld_unit_zero (S := S1x128) gc_off_zero]
  exact gc_pay4_apply x0 x1 x2 x3 x6 x5 x4 x7 p q

/-- The printed index maps, decided over the 25 grid points: the row-tiled windows sit at block (t, 0), the weight
    matrix and the five row vectors at block (0, 0). -/
theorem gc_idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

/-- Tile t of the row-tiled input is rows 2000 t … 2000 t + 1999 of its array. -/
theorem gc_rows4_0 (c : Dev nD) (R : S50000x128.Idx → EReal) (h : V c (Pipeline.arrRef spec4 0) = R) (t : Fin cfg4.N)
    (p : Fin 2000) (k : Fin 128) (r : Fin 50000) (hr : r.val = 2000 * t.val + p.val) :
    (iblk4 (F := Ideal) V c 0 t : Vec Ideal S2000x128 .f32) (ix2 p k) = R (ix2 r k) := by
  subst h
  obtain ⟨i0, i1, -⟩ := gc_idx4 t
  show V c (Pipeline.arrRef spec4 0) ((win4_0.blk t).view.emb (ix2 p k)) = _
  refine congrArg (V c (Pipeline.arrRef spec4 0)) (funext fun a => Fin.ext ?_)
  match a with
  | ⟨0, _⟩ => show win4_0.index t (0 : Fin 2) * 2000 + 1 * p.val = r.val; rw [i0, hr]; omega
  | ⟨1, _⟩ => show win4_0.index t (1 : Fin 2) * 128 + 1 * k.val = k.val; rw [i1]; omega

/-- The weight window's one tile is the whole weight matrix. -/
theorem gc_weights4 (c : Dev nD) (W : S128x128.Idx → EReal) (h : V c (Pipeline.arrRef spec4 1) = W) (t : Fin cfg4.N)
    (k q : Fin 128) :
    (iblk4 (F := Ideal) V c 1 t : Vec Ideal S128x128 .f32) (ix2 k q) = W (ix2 k q) := by
  subst h
  obtain ⟨-, -, i0, i1, -⟩ := gc_idx4 t
  show V c (Pipeline.arrRef spec4 1) ((win4_1.blk t).view.emb (ix2 k q)) = _
  refine congrArg (V c (Pipeline.arrRef spec4 1)) (funext fun a => Fin.ext ?_)
  match a with
  | ⟨0, _⟩ => show win4_1.index t (0 : Fin 2) * 128 + 1 * k.val = k.val; rw [i0]; omega
  | ⟨1, _⟩ => show win4_1.index t (1 : Fin 2) * 128 + 1 * q.val = q.val; rw [i1]; omega

/-- The bias window's one tile is the whole bias row. -/
theorem gc_vec4_2 (c : Dev nD) (B : S1x128.Idx → EReal) (h : V c (Pipeline.arrRef spec4 2) = B) (t : Fin cfg4.N)
    (q : Fin 128) :
    (iblk4 (F := Ideal) V c 2 t : Vec Ideal S1x128 .f32) (ix2 0 q) = B (ix2 0 q) := by
  subst h
  obtain ⟨-, -, -, -, i0, i1, -⟩ := gc_idx4 t
  show V c (Pipeline.arrRef spec4 2) ((win4_2.blk t).view.emb (ix2 (0 : Fin 1) q)) = _
  refine congrArg (V c (Pipeline.arrRef spec4 2)) (funext fun a => Fin.ext ?_)
  match a with
  | ⟨0, _⟩ => show win4_2.index t (0 : Fin 2) * 1 + 1 * 0 = 0; rw [i0]
  | ⟨1, _⟩ => show win4_2.index t (1 : Fin 2) * 128 + 1 * q.val = q.val; rw [i1]; omega

/-- The gamma window's one tile is the whole gamma row. -/
theorem gc_vec4_3 (c : Dev nD) (G : S1x128.Idx → EReal) (h : V c (Pipeline.arrRef spec4 3) = G) (t : Fin cfg4.N)
    (q : Fin 128) :
    (iblk4 (F := Ideal) V c 3 t : Vec Ideal S1x128 .f32) (ix2 0 q) = G (ix2 0 q) := by
  subst h
  obtain ⟨-, -, -, -, -, -, i0, i1, -⟩ := gc_idx4 t
  show V c (Pipeline.arrRef spec4 3) ((win4_3.blk t).view.emb (ix2 (0 : Fin 1) q)) = _
  refine congrArg (V c (Pipeline.arrRef spec4 3)) (funext fun a => Fin.ext ?_)
  match a with
  | ⟨0, _⟩ => show win4_3.index t (0 : Fin 2) * 1 + 1 * 0 = 0; rw [i0]
  | ⟨1, _⟩ => show win4_3.index t (1 : Fin 2) * 128 + 1 * q.val = q.val; rw [i1]; omega

/-- The beta window's one tile is the whole beta row. -/
theorem gc_vec4_4 (c : Dev nD) (Be : S1x128.Idx → EReal) (h : V c (Pipeline.arrRef spec4 4) = Be) (t : Fin cfg4.N)
    (q : Fin 128) :
    (iblk4 (F := Ideal) V c 4 t : Vec Ideal S1x128 .f32) (ix2 0 q) = Be (ix2 0 q) := by
  subst h
  obtain ⟨-, -, -, -, -, -, -, -, i0, i1, -⟩ := gc_idx4 t
  show V c (Pipeline.arrRef spec4 4) ((win4_4.blk t).view.emb (ix2 (0 : Fin 1) q)) = _
  refine congrArg (V c (Pipeline.arrRef spec4 4)) (funext fun a => Fin.ext ?_)
  match a with
  | ⟨0, _⟩ => show win4_4.index t (0 : Fin 2) * 1 + 1 * 0 = 0; rw [i0]
  | ⟨1, _⟩ => show win4_4.index t (1 : Fin 2) * 128 + 1 * q.val = q.val; rw [i1]; omega

/-- The mean window's one tile is the whole mean row. -/
theorem gc_vec4_5 (c : Dev nD) (M : S1x128.Idx → EReal) (h : V c (Pipeline.arrRef spec4 5) = M) (t : Fin cfg4.N)
    (q : Fin 128) :
    (iblk4 (F := Ideal) V c 5 t : Vec Ideal S1x128 .f32) (ix2 0 q) = M (ix2 0 q) := by
  subst h
  obtain ⟨-, -, -, -, -, -, -, -, -, -, i0, i1, -⟩ := gc_idx4 t
  show V c (Pipeline.arrRef spec4 5) ((win4_5.blk t).view.emb (ix2 (0 : Fin 1) q)) = _
  refine congrArg (V c (Pipeline.arrRef spec4 5)) (funext fun a => Fin.ext ?_)
  match a with
  | ⟨0, _⟩ => show win4_5.index t (0 : Fin 2) * 1 + 1 * 0 = 0; rw [i0]
  | ⟨1, _⟩ => show win4_5.index t (1 : Fin 2) * 128 + 1 * q.val = q.val; rw [i1]; omega

/-- The var window's one tile is the whole var row. -/
theorem gc_vec4_6 (c : Dev nD) (Va : S1x128.Idx → EReal) (h : V c (Pipeline.arrRef spec4 6) = Va) (t : Fin cfg4.N)
    (q : Fin 128) :
    (iblk4 (F := Ideal) V c 6 t : Vec Ideal S1x128 .f32) (ix2 0 q) = Va (ix2 0 q) := by
  subst h
  obtain ⟨-, -, -, -, -, -, -, -, -, -, -, -, i0, i1, -⟩ := gc_idx4 t
  show V c (Pipeline.arrRef spec4 6) ((win4_6.blk t).view.emb (ix2 (0 : Fin 1) q)) = _
  refine congrArg (V c (Pipeline.arrRef spec4 6)) (funext fun a => Fin.ext ?_)
  match a with
  | ⟨0, _⟩ => show win4_6.index t (0 : Fin 2) * 1 + 1 * 0 = 0; rw [i0]
  | ⟨1, _⟩ => show win4_6.index t (1 : Fin 2) * 128 + 1 * q.val = q.val; rw [i1]; omega

/-- Tile t of the previous layer's window is rows 2000 t … 2000 t + 1999 of its array. -/
theorem gc_rows4_7 (c : Dev nD) (Hp : S50000x128.Idx → EReal) (h : V c (Pipeline.arrRef spec4 7) = Hp) (t : Fin cfg4.N)
    (p : Fin 2000) (k : Fin 128) (r : Fin 50000) (hr : r.val = 2000 * t.val + p.val) :
    (iblk4 (F := Ideal) V c 7 t : Vec Ideal S2000x128 .f32) (ix2 p k) = Hp (ix2 r k) := by
  subst h
  obtain ⟨-, -, -, -, -, -, -, -, -, -, -, -, -, -, i0, i1, -⟩ := gc_idx4 t
  show V c (Pipeline.arrRef spec4 7) ((win4_7.blk t).view.emb (ix2 p k)) = _
  refine congrArg (V c (Pipeline.arrRef spec4 7)) (funext fun a => Fin.ext ?_)
  match a with
  | ⟨0, _⟩ => show win4_7.index t (0 : Fin 2) * 2000 + 1 * p.val = r.val; rw [i0, hr]; omega
  | ⟨1, _⟩ => show win4_7.index t (1 : Fin 2) * 128 + 1 * k.val = k.val; rw [i1]; omega

/-- Element (p, q) of the output's tile t sits at row 2000 t + p, column q of the output array. -/
theorem gc_emb4 (t : Fin cfg4.N) (p : Fin 2000) (q : Fin 128) (r : Fin 50000) (hr : r.val = 2000 * t.val + p.val) :
    ((cfg4.win 8).blk t).view.emb (ix2 p q) = (ix2 r q : S50000x128.Idx) := by
  obtain ⟨-, -, -, -, -, -, -, -, -, -, -, -, -, -, -, -, i0, i1⟩ := gc_idx4 t
  funext a; apply Fin.ext
  match a with
  | ⟨0, _⟩ => show win4_8.index t (0 : Fin 2) * 2000 + 1 * p.val = r.val; rw [i0, hr]; omega
  | ⟨1, _⟩ => show win4_8.index t (1 : Fin 2) * 128 + 1 * q.val = q.val; rw [i1]; omega

/-- What grid point t writes back is tile t of the layer's whole-array function. -/
theorem gc_flushed4 (c : Dev nD) (R : S50000x128.Idx → EReal) (W : S128x128.Idx → EReal) (B G Be M Va : S1x128.Idx → EReal) (Hp : S50000x128.Idx → EReal)
    (h0 : V c (Pipeline.arrRef spec4 0) = R) (h1 : V c (Pipeline.arrRef spec4 1) = W) (h2 : V c (Pipeline.arrRef spec4 2) = B)
    (h3 : V c (Pipeline.arrRef spec4 3) = G) (h4 : V c (Pipeline.arrRef spec4 4) = Be) (h5 : V c (Pipeline.arrRef spec4 5) = M)
    (h6 : V c (Pipeline.arrRef spec4 6) = Va) (h7 : V c (Pipeline.arrRef spec4 7) = Hp)
    (t : Fin cfg4.N) :
    (dat4 (F := Ideal) V c).flushed 8 t = ((cfg4.win 8).blk t).view.read (Elt Ideal) (gcResidLayerArr R W B G Be M Va Hp) := by
  show (cfg4.win 8).cut (grid4.coords t) ((dat4 V c).after 8 t) = _
  rw [after4_8]
  funext j
  obtain ⟨p, q, rfl⟩ : ∃ (p : Fin 2000) (q : Fin 128), j = (ix2 p q : S2000x128.Idx) := ⟨j 0, j 1, @eq_ix2 2000 128 j⟩
  have hN : cfg4.N = 25 := N_4
  have hp : 2000 * t.val + p.val < 50000 := by have := t.isLt; have := p.isLt; omega
  show out4_8 (F := Ideal) (iblk4 V c 0 t) (iblk4 V c 1 t) (iblk4 V c 2 t) (iblk4 V c 3 t) (iblk4 V c 4 t) (iblk4 V c 5 t) (iblk4 V c 6 t) (iblk4 V c 7 t) (ix2 p q)
    = gcResidLayerArr R W B G Be M Va Hp (((cfg4.win 8).blk t).view.emb (ix2 p q))
  rw [gc_emb4 t p q ⟨2000 * t.val + p.val, hp⟩ rfl]
  refine (gc_out4_apply (iblk4 V c 0 t) (iblk4 V c 1 t) (iblk4 V c 2 t) (iblk4 V c 3 t) (iblk4 V c 4 t) (iblk4 V c 5 t) (iblk4 V c 6 t) (iblk4 V c 7 t) p q).trans ?_
  show _ = gcLayerArr R W B G Be M Va (ix2 (⟨2000 * t.val + p.val, hp⟩ : Fin 50000) q) + Hp (ix2 (⟨2000 * t.val + p.val, hp⟩ : Fin 50000) q)
  rw [gc_rows4_7 V c Hp h7 t p q ⟨2000 * t.val + p.val, hp⟩ rfl]
  refine congrArg (· + Hp (ix2 (⟨2000 * t.val + p.val, hp⟩ : Fin 50000) q)) ?_
  exact gc_tile_in_array (iblk4 V c 0 t) (iblk4 V c 1 t) (iblk4 V c 2 t) (iblk4 V c 3 t) (iblk4 V c 4 t) (iblk4 V c 5 t) (iblk4 V c 6 t)
    R W B G Be M Va p q ⟨2000 * t.val + p.val, hp⟩
    (fun k => gc_rows4_0 V c R h0 t p k ⟨2000 * t.val + p.val, hp⟩ rfl) (fun k => gc_weights4 V c W h1 t k q)
    (gc_vec4_2 V c B h2 t q) (gc_vec4_3 V c G h3 t q) (gc_vec4_4 V c Be h4 t q) (gc_vec4_5 V c M h5 t q)
    (gc_vec4_6 V c Va h6 t q)

/-- An index of the output array is in tile t iff each coordinate is in the tile's range on its axis. -/
theorem gc_mem_blk4 (t : Fin cfg4.N) (i : S50000x128.Idx) :
    i ∈ ((cfg4.win 8).blk t).view.set ↔ ∀ a : Fin 2, win4_8.index t a * S2000x128.size a ≤ (i a).val
      ∧ (i a).val < win4_8.index t a * S2000x128.size a + S2000x128.size a := by
  show i ∈ ((View.whole main_v137).slice (win4_8.rect t)).set ↔ _
  rw [View.set_slice_whole, Rect.mem_set_unit]
  exact Iff.rfl

/-- Row r of the output is covered by grid point r / 2000. -/
theorem gc_cover4 (i : S50000x128.Idx) :
    ∃ t : Fin cfg4.N, (cfg4.win 8).flush t = true ∧ i ∈ ((cfg4.win 8).blk t).view.set := by
  have hi0 : (i 0).val < 50000 := idx2_lt0 i
  have hi1 : (i 1).val < 128 := idx2_lt1 i
  have hN : cfg4.N = 25 := N_4
  obtain ⟨t, ht⟩ : ∃ t : Fin cfg4.N, t.val = (i 0).val / 2000 :=
    ⟨⟨(i 0).val / 2000, lt_of_lt_of_eq (show (i 0).val / 2000 < 25 by omega) hN.symm⟩, rfl⟩
  obtain ⟨-, -, -, -, -, -, -, -, -, -, -, -, -, -, -, -, i0, i1⟩ := gc_idx4 t
  refine ⟨t, flush4_8 t, ?_⟩
  rw [gc_mem_blk4]
  intro a
  match a with
  | ⟨0, _⟩ => show win4_8.index t (0 : Fin 2) * 2000 ≤ (i 0).val ∧ (i 0).val < win4_8.index t (0 : Fin 2) * 2000 + 2000; rw [i0, ht]; omega
  | ⟨1, _⟩ => show win4_8.index t (1 : Fin 2) * 128 ≤ (i 1).val ∧ (i 1).val < win4_8.index t (1 : Fin 2) * 128 + 128; rw [i1]; omega

/-- The output array after the region: the layer's whole-array function of the input arrays. -/
theorem gc_array4 (c : Dev nD) (R : S50000x128.Idx → EReal) (W : S128x128.Idx → EReal) (B G Be M Va : S1x128.Idx → EReal) (Hp : S50000x128.Idx → EReal)
    (h0 : V c (Pipeline.arrRef spec4 0) = R) (h1 : V c (Pipeline.arrRef spec4 1) = W) (h2 : V c (Pipeline.arrRef spec4 2) = B)
    (h3 : V c (Pipeline.arrRef spec4 3) = G) (h4 : V c (Pipeline.arrRef spec4 4) = Be) (h5 : V c (Pipeline.arrRef spec4 5) = M)
    (h6 : V c (Pipeline.arrRef spec4 6) = Va) (h7 : V c (Pipeline.arrRef spec4 7) = Hp) :
    (dat4 (F := Ideal) V c).arrAt 8 cfg4.N = gcResidLayerArr R W B G Be M Va Hp :=
  (dat4 (F := Ideal) V c).arrAt_eq_of_cover 8 (gcResidLayerArr R W B G Be M Va Hp)
    (fun t _ => gc_flushed4 V c R W B G Be M Va Hp h0 h1 h2 h3 h4 h5 h6 h7 t) gc_cover4

/-- REGION 4: the output array at (r, j) is the graph-convolution layer with the residual added. -/
theorem region4_value (c : Dev nD) (R : S50000x128.Idx → EReal) (W : S128x128.Idx → EReal) (B G Be M Va : S1x128.Idx → EReal) (Hp : S50000x128.Idx → EReal)
    (h0 : V c (Pipeline.arrRef spec4 0) = R) (h1 : V c (Pipeline.arrRef spec4 1) = W) (h2 : V c (Pipeline.arrRef spec4 2) = B)
    (h3 : V c (Pipeline.arrRef spec4 3) = G) (h4 : V c (Pipeline.arrRef spec4 4) = Be) (h5 : V c (Pipeline.arrRef spec4 5) = M)
    (h6 : V c (Pipeline.arrRef spec4 6) = Va) (h7 : V c (Pipeline.arrRef spec4 7) = Hp) (r : Fin 50000) (j : Fin 128) :
    (dat4 (F := Ideal) V c).arrAt 8 cfg4.N (ix2 r j)
      = Spec.gcResid (fun r k => R (ix2 r k)) (fun k j => W (ix2 k j)) (fun j => B (ix2 0 j)) (fun j => G (ix2 0 j)) (fun j => Be (ix2 0 j))
          (fun j => M (ix2 0 j)) (fun j => Va (ix2 0 j)) (fun r j => Hp (ix2 r j)) r j := by
  rw [gc_array4 V c R W B G Be M Va Hp h0 h1 h2 h3 h4 h5 h6 h7]
  rfl

end Region4

end Cert.KernelIdeal.RegionValue

end
-- ==== Proof.KStage2.lean ====
/-
  The third region: the first graph-convolution layer. Between the second and third regions the host scales the gated
  features by the out-degree normaliser, gathers along `src`, scatter-adds at `dst` and scales by the in-degree
  normaliser; it also cuts layer 0 out of the stacked weights and statistics.
-/
import proofs.«167285_j14499809591443_1_alg».proof.Proof.KCarry
import proofs.«167285_j14499809591443_1_alg».proof.Proof.LibLayerSlices
import proofs.«167285_j14499809591443_1_alg».proof.Proof.KRegionGc
import proofs.«167285_j14499809591443_1_alg».proof.Proof.RefDense

set_option maxRecDepth 16384

noncomputable section

namespace Cert.Chain

open Cert.KernelIdeal Cert.KernelIdeal.Gen Cert.ReferenceIdeal.Read
open Idealize.ShloMosaic Idealize.ShloMosaic.TcCoe Idealize.ShloMosaic.ValueIdx Idealize.SL.Sem Idealize.ShloMosaic.StableHlo
open Cert.KernelIdeal.RegionValue Cert.ReferenceIdeal.RefValue

variable (m : (ℓ : Loc nD τ sig) → Buf (Elt Ideal) ℓ) (ρ : Dev nD → PrngReg) (c : Dev nD)

open Cert.LibLayerSlices

variable (hK : W4 m ρ c (Proc.devRef .tc main_v31) = val_main_v51 (F := Ideal) (a0 m c) (a1 m c) (a2 m c) (a3 m c) (a4 m c) (a11 m c) (a12 m c) (a13 m c) (a14 m c) (a15 m c) (a16 m c))
include hK

/-- The normalised aggregation `seg ((x * inv_out)[src], dst) * inv_in`: the host operations between the regions, applied to
    the previous layer's output, are the reference's. -/
theorem W5_rst : W5 m ρ c (Proc.devRef .tc main_v55) = val_main_v75 (F := Ideal) (a0 m c) (a1 m c) (a2 m c) (a3 m c) (a4 m c) (a11 m c) (a12 m c) (a13 m c) (a14 m c) (a15 m c) (a16 m c) := by
  show StableHlo.after hostOps2 (W4 m ρ c) (Proc.devRef .tc main_v55) = _
  after_results_simp
  rw [hK, W4_v6 m ρ c, W4_v3 m ρ c, W4_arg1 m ρ c, W4_arg2 m ρ c]
  rfl
omit hK

/-- The layer's weight matrix: slab 0 of `gc_w`. -/
theorem W5_w_at (k j : Fin 128) : (W5 m ρ c (Proc.devRef .tc main_v57) : S128x128.Idx → EReal) (ix2 k j)
    = (a5 m c : S3x128x128.Idx → EReal) (ix3 0 k j) := by
  show StableHlo.after hostOps2 (W4 m ρ c) (Proc.devRef .tc main_v57) (ix2 k j) = _
  after_results_simp
  rw [W4_arg5 m ρ c]
  exact slab_slice_cast 0 _ _ _ 0 rfl k j
/-- Row 0 of argument 6, as a [1, 128] row. -/
theorem W5_b_row (j : Fin 128) : (W5 m ρ c (Proc.devRef .tc main_v68) : S1x128.Idx → EReal) (ix2 0 j)
    = (a6 m c : S3x128.Idx → EReal) (ix2 0 j) := by
  show StableHlo.after hostOps2 (W4 m ρ c) (Proc.devRef .tc main_v68) (ix2 0 j) = _
  after_results_simp
  rw [W4_arg6 m ρ c]
  exact row_slice_cast_cast 0 _ _ _ _ 0 rfl 0 j
/-- Row 0 of argument 7, as a [1, 128] row. -/
theorem W5_g_row (j : Fin 128) : (W5 m ρ c (Proc.devRef .tc main_v69) : S1x128.Idx → EReal) (ix2 0 j)
    = (a7 m c : S3x128.Idx → EReal) (ix2 0 j) := by
  show StableHlo.after hostOps2 (W4 m ρ c) (Proc.devRef .tc main_v69) (ix2 0 j) = _
  after_results_simp
  rw [W4_arg7 m ρ c]
  exact row_slice_cast_cast 0 _ _ _ _ 0 rfl 0 j
/-- Row 0 of argument 8, as a [1, 128] row. -/
theorem W5_be_row (j : Fin 128) : (W5 m ρ c (Proc.devRef .tc main_v70) : S1x128.Idx → EReal) (ix2 0 j)
    = (a8 m c : S3x128.Idx → EReal) (ix2 0 j) := by
  show StableHlo.after hostOps2 (W4 m ρ c) (Proc.devRef .tc main_v70) (ix2 0 j) = _
  after_results_simp
  rw [W4_arg8 m ρ c]
  exact row_slice_cast_cast 0 _ _ _ _ 0 rfl 0 j
/-- Row 0 of argument 9, as a [1, 128] row. -/
theorem W5_mu_row (j : Fin 128) : (W5 m ρ c (Proc.devRef .tc main_v71) : S1x128.Idx → EReal) (ix2 0 j)
    = (a9 m c : S3x128.Idx → EReal) (ix2 0 j) := by
  show StableHlo.after hostOps2 (W4 m ρ c) (Proc.devRef .tc main_v71) (ix2 0 j) = _
  after_results_simp
  rw [W4_arg9 m ρ c]
  exact row_slice_cast_cast 0 _ _ _ _ 0 rfl 0 j
/-- Row 0 of argument 10, as a [1, 128] row. -/
theorem W5_va_row (j : Fin 128) : (W5 m ρ c (Proc.devRef .tc main_v72) : S1x128.Idx → EReal) (ix2 0 j)
    = (a10 m c : S3x128.Idx → EReal) (ix2 0 j) := by
  show StableHlo.after hostOps2 (W4 m ρ c) (Proc.devRef .tc main_v72) (ix2 0 j) = _
  after_results_simp
  rw [W4_arg10 m ρ c]
  exact row_slice_cast_cast 0 _ _ _ _ 0 rfl 0 j

include hK
/-- After this region its output array holds the reference's layer output. -/
theorem stage2 : W6 m ρ c (Proc.devRef .tc main_v73) = val_main_v105 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) := by
  refine (W6_arr m ρ c 7).trans ?_
  show ((dat2 (V5 m ρ) c).arrAt 7 cfg2.N : S50000x128.Idx → EReal) = _
  funext i
  obtain ⟨r, j, rfl⟩ : ∃ (r : Fin 50000) (j : Fin 128), i = ix2 r j := ⟨i 0, i 1, eq_ix2 i⟩
  have e1 : (fun k j : Fin 128 => (W5 m ρ c (Proc.devRef .tc main_v57) : S128x128.Idx → EReal) (ix2 k j))
      = fun k j => (a5 m c : S3x128x128.Idx → EReal) (ix3 0 k j) := funext fun k => funext fun j => W5_w_at m ρ c k j
  have e_b : (fun j : Fin 128 => (W5 m ρ c (Proc.devRef .tc main_v68) : S1x128.Idx → EReal) (ix2 0 j))
      = fun j => (a6 m c : S3x128.Idx → EReal) (ix2 0 j) := funext fun j => W5_b_row m ρ c j
  have e_g : (fun j : Fin 128 => (W5 m ρ c (Proc.devRef .tc main_v69) : S1x128.Idx → EReal) (ix2 0 j))
      = fun j => (a7 m c : S3x128.Idx → EReal) (ix2 0 j) := funext fun j => W5_g_row m ρ c j
  have e_be : (fun j : Fin 128 => (W5 m ρ c (Proc.devRef .tc main_v70) : S1x128.Idx → EReal) (ix2 0 j))
      = fun j => (a8 m c : S3x128.Idx → EReal) (ix2 0 j) := funext fun j => W5_be_row m ρ c j
  have e_mu : (fun j : Fin 128 => (W5 m ρ c (Proc.devRef .tc main_v71) : S1x128.Idx → EReal) (ix2 0 j))
      = fun j => (a9 m c : S3x128.Idx → EReal) (ix2 0 j) := funext fun j => W5_mu_row m ρ c j
  have e_va : (fun j : Fin 128 => (W5 m ρ c (Proc.devRef .tc main_v72) : S1x128.Idx → EReal) (ix2 0 j))
      = fun j => (a10 m c : S3x128.Idx → EReal) (ix2 0 j) := funext fun j => W5_va_row m ρ c j
  rw [region2_value (V5 m ρ) c _ (W5 m ρ c (Proc.devRef .tc main_v57)) (W5 m ρ c (Proc.devRef .tc main_v68)) (W5 m ρ c (Proc.devRef .tc main_v69)) (W5 m ρ c (Proc.devRef .tc main_v70)) (W5 m ρ c (Proc.devRef .tc main_v71)) (W5 m ρ c (Proc.devRef .tc main_v72))
      (W5_rst m ρ c hK) rfl rfl rfl rfl rfl rfl r j,
    gc0_apply, e1, e_b, e_g, e_be, e_mu, e_va]

end Cert.Chain

end
-- ==== Proof.KNorms.lean ====
/-
  The two degree normalisers, clamp(deg, 1) ^ (-1/2) for the out- and the in-degree, are computed once by the host,
  between the second and third regions, and read again before the fourth and fifth: what those buffers hold at each
  of the later boundaries.
-/
import proofs.«167285_j14499809591443_1_alg».proof.Proof.KCarry

set_option maxRecDepth 16384

noncomputable section

namespace Cert.Chain

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

theorem W5_v36 : W5 m ρ c (Proc.devRef .tc main_v36) = val_main_v56 (F := Ideal) (a1 m c) := by
  show StableHlo.after hostOps2 (W4 m ρ c) (Proc.devRef .tc main_v36) = _
  after_results_simp
  rw [W4_v6 m ρ c]
  rfl
theorem W5_v41 : W5 m ρ c (Proc.devRef .tc main_v41) = val_main_v61 (F := Ideal) (a2 m c) := by
  show StableHlo.after hostOps2 (W4 m ρ c) (Proc.devRef .tc main_v41) = _
  after_results_simp
  rw [W4_v3 m ρ c]
  rfl
theorem W6_v36 : W6 m ρ c (Proc.devRef .tc main_v36) = val_main_v56 (F := Ideal) (a1 m c) := (r2 m ρ c main_v36 (by decide)).trans (W5_v36 m ρ c)
theorem W6_v41 : W6 m ρ c (Proc.devRef .tc main_v41) = val_main_v61 (F := Ideal) (a2 m c) := (r2 m ρ c main_v41 (by decide)).trans (W5_v41 m ρ c)
theorem W7_v36 : W7 m ρ c (Proc.devRef .tc main_v36) = val_main_v56 (F := Ideal) (a1 m c) := by
  refine Eq.trans (b := W6 m ρ c (Proc.devRef .tc main_v36)) (by host_keep) (W6_v36 m ρ c)
theorem W7_v41 : W7 m ρ c (Proc.devRef .tc main_v41) = val_main_v61 (F := Ideal) (a2 m c) := by
  refine Eq.trans (b := W6 m ρ c (Proc.devRef .tc main_v41)) (by host_keep) (W6_v41 m ρ c)
theorem W8_v36 : W8 m ρ c (Proc.devRef .tc main_v36) = val_main_v56 (F := Ideal) (a1 m c) := (r3 m ρ c main_v36 (by decide)).trans (W7_v36 m ρ c)
theorem W8_v41 : W8 m ρ c (Proc.devRef .tc main_v41) = val_main_v61 (F := Ideal) (a2 m c) := (r3 m ρ c main_v41 (by decide)).trans (W7_v41 m ρ c)

end Cert.Chain

end
-- ==== Proof.KStage3.lean ====
/-
  The fourth region: the second graph-convolution layer, with the residual connection. The host stretch before it
  normalises and aggregates the previous layer's output as before and cuts layer 1 out of the stacked parameters.
-/
import proofs.«167285_j14499809591443_1_alg».proof.Proof.KCarry
import proofs.«167285_j14499809591443_1_alg».proof.Proof.KNorms
import proofs.«167285_j14499809591443_1_alg».proof.Proof.LibLayerSlices
import proofs.«167285_j14499809591443_1_alg».proof.Proof.KRegionGc
import proofs.«167285_j14499809591443_1_alg».proof.Proof.RefDense

set_option maxRecDepth 16384

noncomputable section

namespace Cert.Chain

open Cert.KernelIdeal Cert.KernelIdeal.Gen Cert.ReferenceIdeal.Read
open Idealize.ShloMosaic Idealize.ShloMosaic.TcCoe Idealize.ShloMosaic.ValueIdx Idealize.SL.Sem Idealize.ShloMosaic.StableHlo
open Cert.KernelIdeal.RegionValue Cert.ReferenceIdeal.RefValue

variable (m : (ℓ : Loc nD τ sig) → Buf (Elt Ideal) ℓ) (ρ : Dev nD → PrngReg) (c : Dev nD)

open Cert.LibLayerSlices

variable (hK : W6 m ρ c (Proc.devRef .tc main_v73) = val_main_v105 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c))
include hK

theorem W7_prev : W7 m ρ c (Proc.devRef .tc main_v73) = val_main_v105 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) := by
  refine Eq.trans (b := W6 m ρ c (Proc.devRef .tc main_v73)) (by host_keep) hK

/-- The normalised aggregation `seg ((x * inv_out)[src], dst) * inv_in`: the host operations between the regions, applied to
    the previous layer's output, are the reference's. -/
theorem W7_rst : W7 m ρ c (Proc.devRef .tc main_v87) = val_main_v119 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) := by
  show StableHlo.after hostOps3 (W6 m ρ c) (Proc.devRef .tc main_v87) = _
  after_results_simp
  rw [hK, W6_v36 m ρ c, W6_v41 m ρ c, W6_arg1 m ρ c, W6_arg2 m ρ c]
  rfl
omit hK

/-- The layer's weight matrix: slab 1 of `gc_w`. -/
theorem W7_w_at (k j : Fin 128) : (W7 m ρ c (Proc.devRef .tc main_v89) : S128x128.Idx → EReal) (ix2 k j)
    = (a5 m c : S3x128x128.Idx → EReal) (ix3 1 k j) := by
  show StableHlo.after hostOps3 (W6 m ρ c) (Proc.devRef .tc main_v89) (ix2 k j) = _
  after_results_simp
  rw [W6_arg5 m ρ c]
  exact slab_slice_cast 1 _ _ _ 1 rfl k j
/-- Row 1 of argument 6, as a [1, 128] row. -/
theorem W7_b_row (j : Fin 128) : (W7 m ρ c (Proc.devRef .tc main_v100) : S1x128.Idx → EReal) (ix2 0 j)
    = (a6 m c : S3x128.Idx → EReal) (ix2 1 j) := by
  show StableHlo.after hostOps3 (W6 m ρ c) (Proc.devRef .tc main_v100) (ix2 0 j) = _
  after_results_simp
  rw [W6_arg6 m ρ c]
  exact row_slice_cast_cast 1 _ _ _ _ 1 rfl 0 j
/-- Row 1 of argument 7, as a [1, 128] row. -/
theorem W7_g_row (j : Fin 128) : (W7 m ρ c (Proc.devRef .tc main_v101) : S1x128.Idx → EReal) (ix2 0 j)
    = (a7 m c : S3x128.Idx → EReal) (ix2 1 j) := by
  show StableHlo.after hostOps3 (W6 m ρ c) (Proc.devRef .tc main_v101) (ix2 0 j) = _
  after_results_simp
  rw [W6_arg7 m ρ c]
  exact row_slice_cast_cast 1 _ _ _ _ 1 rfl 0 j
/-- Row 1 of argument 8, as a [1, 128] row. -/
theorem W7_be_row (j : Fin 128) : (W7 m ρ c (Proc.devRef .tc main_v102) : S1x128.Idx → EReal) (ix2 0 j)
    = (a8 m c : S3x128.Idx → EReal) (ix2 1 j) := by
  show StableHlo.after hostOps3 (W6 m ρ c) (Proc.devRef .tc main_v102) (ix2 0 j) = _
  after_results_simp
  rw [W6_arg8 m ρ c]
  exact row_slice_cast_cast 1 _ _ _ _ 1 rfl 0 j
/-- Row 1 of argument 9, as a [1, 128] row. -/
theorem W7_mu_row (j : Fin 128) : (W7 m ρ c (Proc.devRef .tc main_v103) : S1x128.Idx → EReal) (ix2 0 j)
    = (a9 m c : S3x128.Idx → EReal) (ix2 1 j) := by
  show StableHlo.after hostOps3 (W6 m ρ c) (Proc.devRef .tc main_v103) (ix2 0 j) = _
  after_results_simp
  rw [W6_arg9 m ρ c]
  exact row_slice_cast_cast 1 _ _ _ _ 1 rfl 0 j
/-- Row 1 of argument 10, as a [1, 128] row. -/
theorem W7_va_row (j : Fin 128) : (W7 m ρ c (Proc.devRef .tc main_v104) : S1x128.Idx → EReal) (ix2 0 j)
    = (a10 m c : S3x128.Idx → EReal) (ix2 1 j) := by
  show StableHlo.after hostOps3 (W6 m ρ c) (Proc.devRef .tc main_v104) (ix2 0 j) = _
  after_results_simp
  rw [W6_arg10 m ρ c]
  exact row_slice_cast_cast 1 _ _ _ _ 1 rfl 0 j

include hK
/-- After this region its output array holds the reference's layer output. -/
theorem stage3 : W8 m ρ c (Proc.devRef .tc main_v105) = val_main_v150 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) := by
  refine (W8_arr m ρ c 8).trans ?_
  show ((dat3 (V7 m ρ) c).arrAt 8 cfg3.N : S50000x128.Idx → EReal) = _
  funext i
  obtain ⟨r, j, rfl⟩ : ∃ (r : Fin 50000) (j : Fin 128), i = ix2 r j := ⟨i 0, i 1, eq_ix2 i⟩
  have e1 : (fun k j : Fin 128 => (W7 m ρ c (Proc.devRef .tc main_v89) : S128x128.Idx → EReal) (ix2 k j))
      = fun k j => (a5 m c : S3x128x128.Idx → EReal) (ix3 1 k j) := funext fun k => funext fun j => W7_w_at m ρ c k j
  have e_b : (fun j : Fin 128 => (W7 m ρ c (Proc.devRef .tc main_v100) : S1x128.Idx → EReal) (ix2 0 j))
      = fun j => (a6 m c : S3x128.Idx → EReal) (ix2 1 j) := funext fun j => W7_b_row m ρ c j
  have e_g : (fun j : Fin 128 => (W7 m ρ c (Proc.devRef .tc main_v101) : S1x128.Idx → EReal) (ix2 0 j))
      = fun j => (a7 m c : S3x128.Idx → EReal) (ix2 1 j) := funext fun j => W7_g_row m ρ c j
  have e_be : (fun j : Fin 128 => (W7 m ρ c (Proc.devRef .tc main_v102) : S1x128.Idx → EReal) (ix2 0 j))
      = fun j => (a8 m c : S3x128.Idx → EReal) (ix2 1 j) := funext fun j => W7_be_row m ρ c j
  have e_mu : (fun j : Fin 128 => (W7 m ρ c (Proc.devRef .tc main_v103) : S1x128.Idx → EReal) (ix2 0 j))
      = fun j => (a9 m c : S3x128.Idx → EReal) (ix2 1 j) := funext fun j => W7_mu_row m ρ c j
  have e_va : (fun j : Fin 128 => (W7 m ρ c (Proc.devRef .tc main_v104) : S1x128.Idx → EReal) (ix2 0 j))
      = fun j => (a10 m c : S3x128.Idx → EReal) (ix2 1 j) := funext fun j => W7_va_row m ρ c j
  rw [region3_value (V7 m ρ) c _ (W7 m ρ c (Proc.devRef .tc main_v89)) (W7 m ρ c (Proc.devRef .tc main_v100)) (W7 m ρ c (Proc.devRef .tc main_v101)) (W7 m ρ c (Proc.devRef .tc main_v102)) (W7 m ρ c (Proc.devRef .tc main_v103)) (W7 m ρ c (Proc.devRef .tc main_v104)) _
      (W7_rst m ρ c hK) rfl rfl rfl rfl rfl rfl (W7_prev m ρ c hK) r j,
    gc1_apply, e1, e_b, e_g, e_be, e_mu, e_va]

end Cert.Chain

end
-- ==== Proof.KStage4.lean ====
/-
  The fifth region: the third graph-convolution layer, with the residual connection. The host stretch before it
  normalises and aggregates the previous layer's output as before and cuts layer 2 out of the stacked parameters.
-/
import proofs.«167285_j14499809591443_1_alg».proof.Proof.KCarry
import proofs.«167285_j14499809591443_1_alg».proof.Proof.KNorms
import proofs.«167285_j14499809591443_1_alg».proof.Proof.LibLayerSlices
import proofs.«167285_j14499809591443_1_alg».proof.Proof.KRegionGc
import proofs.«167285_j14499809591443_1_alg».proof.Proof.RefDense

set_option maxRecDepth 16384

noncomputable section

namespace Cert.Chain

open Cert.KernelIdeal Cert.KernelIdeal.Gen Cert.ReferenceIdeal.Read
open Idealize.ShloMosaic Idealize.ShloMosaic.TcCoe Idealize.ShloMosaic.ValueIdx Idealize.SL.Sem Idealize.ShloMosaic.StableHlo
open Cert.KernelIdeal.RegionValue Cert.ReferenceIdeal.RefValue

variable (m : (ℓ : Loc nD τ sig) → Buf (Elt Ideal) ℓ) (ρ : Dev nD → PrngReg) (c : Dev nD)

open Cert.LibLayerSlices

variable (hK : W8 m ρ c (Proc.devRef .tc main_v105) = val_main_v150 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c))
include hK

theorem W9_prev : W9 m ρ c (Proc.devRef .tc main_v105) = val_main_v150 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) := by
  refine Eq.trans (b := W8 m ρ c (Proc.devRef .tc main_v105)) (by host_keep) hK

/-- The normalised aggregation `seg ((x * inv_out)[src], dst) * inv_in`: the host operations between the regions, applied to
    the previous layer's output, are the reference's. -/
theorem W9_rst : W9 m ρ c (Proc.devRef .tc main_v119) = val_main_v164 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) := by
  show StableHlo.after hostOps4 (W8 m ρ c) (Proc.devRef .tc main_v119) = _
  after_results_simp
  rw [hK, W8_v36 m ρ c, W8_v41 m ρ c, W8_arg1 m ρ c, W8_arg2 m ρ c]
  rfl
omit hK

/-- The layer's weight matrix: slab 2 of `gc_w`. -/
theorem W9_w_at (k j : Fin 128) : (W9 m ρ c (Proc.devRef .tc main_v121) : S128x128.Idx → EReal) (ix2 k j)
    = (a5 m c : S3x128x128.Idx → EReal) (ix3 2 k j) := by
  show StableHlo.after hostOps4 (W8 m ρ c) (Proc.devRef .tc main_v121) (ix2 k j) = _
  after_results_simp
  rw [W8_arg5 m ρ c]
  exact slab_slice_cast 2 _ _ _ 2 rfl k j
/-- Row 2 of argument 6, as a [1, 128] row. -/
theorem W9_b_row (j : Fin 128) : (W9 m ρ c (Proc.devRef .tc main_v132) : S1x128.Idx → EReal) (ix2 0 j)
    = (a6 m c : S3x128.Idx → EReal) (ix2 2 j) := by
  show StableHlo.after hostOps4 (W8 m ρ c) (Proc.devRef .tc main_v132) (ix2 0 j) = _
  after_results_simp
  rw [W8_arg6 m ρ c]
  exact row_slice_cast_cast 2 _ _ _ _ 2 rfl 0 j
/-- Row 2 of argument 7, as a [1, 128] row. -/
theorem W9_g_row (j : Fin 128) : (W9 m ρ c (Proc.devRef .tc main_v133) : S1x128.Idx → EReal) (ix2 0 j)
    = (a7 m c : S3x128.Idx → EReal) (ix2 2 j) := by
  show StableHlo.after hostOps4 (W8 m ρ c) (Proc.devRef .tc main_v133) (ix2 0 j) = _
  after_results_simp
  rw [W8_arg7 m ρ c]
  exact row_slice_cast_cast 2 _ _ _ _ 2 rfl 0 j
/-- Row 2 of argument 8, as a [1, 128] row. -/
theorem W9_be_row (j : Fin 128) : (W9 m ρ c (Proc.devRef .tc main_v134) : S1x128.Idx → EReal) (ix2 0 j)
    = (a8 m c : S3x128.Idx → EReal) (ix2 2 j) := by
  show StableHlo.after hostOps4 (W8 m ρ c) (Proc.devRef .tc main_v134) (ix2 0 j) = _
  after_results_simp
  rw [W8_arg8 m ρ c]
  exact row_slice_cast_cast 2 _ _ _ _ 2 rfl 0 j
/-- Row 2 of argument 9, as a [1, 128] row. -/
theorem W9_mu_row (j : Fin 128) : (W9 m ρ c (Proc.devRef .tc main_v135) : S1x128.Idx → EReal) (ix2 0 j)
    = (a9 m c : S3x128.Idx → EReal) (ix2 2 j) := by
  show StableHlo.after hostOps4 (W8 m ρ c) (Proc.devRef .tc main_v135) (ix2 0 j) = _
  after_results_simp
  rw [W8_arg9 m ρ c]
  exact row_slice_cast_cast 2 _ _ _ _ 2 rfl 0 j
/-- Row 2 of argument 10, as a [1, 128] row. -/
theorem W9_va_row (j : Fin 128) : (W9 m ρ c (Proc.devRef .tc main_v136) : S1x128.Idx → EReal) (ix2 0 j)
    = (a10 m c : S3x128.Idx → EReal) (ix2 2 j) := by
  show StableHlo.after hostOps4 (W8 m ρ c) (Proc.devRef .tc main_v136) (ix2 0 j) = _
  after_results_simp
  rw [W8_arg10 m ρ c]
  exact row_slice_cast_cast 2 _ _ _ _ 2 rfl 0 j

include hK
/-- After this region its output array holds the reference's layer output. -/
theorem stage4 : W10 m ρ c (Proc.devRef .tc main_v137) = val_main_v195 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) := by
  refine (W10_arr m ρ c 8).trans ?_
  show ((dat4 (V9 m ρ) c).arrAt 8 cfg4.N : S50000x128.Idx → EReal) = _
  funext i
  obtain ⟨r, j, rfl⟩ : ∃ (r : Fin 50000) (j : Fin 128), i = ix2 r j := ⟨i 0, i 1, eq_ix2 i⟩
  have e1 : (fun k j : Fin 128 => (W9 m ρ c (Proc.devRef .tc main_v121) : S128x128.Idx → EReal) (ix2 k j))
      = fun k j => (a5 m c : S3x128x128.Idx → EReal) (ix3 2 k j) := funext fun k => funext fun j => W9_w_at m ρ c k j
  have e_b : (fun j : Fin 128 => (W9 m ρ c (Proc.devRef .tc main_v132) : S1x128.Idx → EReal) (ix2 0 j))
      = fun j => (a6 m c : S3x128.Idx → EReal) (ix2 2 j) := funext fun j => W9_b_row m ρ c j
  have e_g : (fun j : Fin 128 => (W9 m ρ c (Proc.devRef .tc main_v133) : S1x128.Idx → EReal) (ix2 0 j))
      = fun j => (a7 m c : S3x128.Idx → EReal) (ix2 2 j) := funext fun j => W9_g_row m ρ c j
  have e_be : (fun j : Fin 128 => (W9 m ρ c (Proc.devRef .tc main_v134) : S1x128.Idx → EReal) (ix2 0 j))
      = fun j => (a8 m c : S3x128.Idx → EReal) (ix2 2 j) := funext fun j => W9_be_row m ρ c j
  have e_mu : (fun j : Fin 128 => (W9 m ρ c (Proc.devRef .tc main_v135) : S1x128.Idx → EReal) (ix2 0 j))
      = fun j => (a9 m c : S3x128.Idx → EReal) (ix2 2 j) := funext fun j => W9_mu_row m ρ c j
  have e_va : (fun j : Fin 128 => (W9 m ρ c (Proc.devRef .tc main_v136) : S1x128.Idx → EReal) (ix2 0 j))
      = fun j => (a10 m c : S3x128.Idx → EReal) (ix2 2 j) := funext fun j => W9_va_row m ρ c j
  rw [region4_value (V9 m ρ) c _ (W9 m ρ c (Proc.devRef .tc main_v121)) (W9 m ρ c (Proc.devRef .tc main_v132)) (W9 m ρ c (Proc.devRef .tc main_v133)) (W9 m ρ c (Proc.devRef .tc main_v134)) (W9 m ρ c (Proc.devRef .tc main_v135)) (W9 m ρ c (Proc.devRef .tc main_v136)) _
      (W9_rst m ρ c hK) rfl rfl rfl rfl rfl rfl (W9_prev m ρ c hK) r j,
    gc2_apply, e1, e_b, e_g, e_be, e_mu, e_va]

end Cert.Chain

end
-- ==== Proof.KStage5.lean ====
/-
  The sixth region: the output projection. The one host operation before it turns the output bias into a row.
-/
import proofs.«167285_j14499809591443_1_alg».proof.Proof.KCarry
import proofs.«167285_j14499809591443_1_alg».proof.Proof.KRegionDense
import proofs.«167285_j14499809591443_1_alg».proof.Proof.RefDense

set_option maxRecDepth 16384

noncomputable section

namespace Cert.Chain

open Cert.KernelIdeal Cert.KernelIdeal.Gen Cert.ReferenceIdeal.Read
open Idealize.ShloMosaic Idealize.ShloMosaic.TcCoe Idealize.ShloMosaic.ValueIdx Idealize.SL.Sem Idealize.ShloMosaic.StableHlo
open Cert.KernelIdeal.RegionValue Cert.ReferenceIdeal.RefValue

variable (m : (ℓ : Loc nD τ sig) → Buf (Elt Ideal) ℓ) (ρ : Dev nD → PrngReg) (c : Dev nD)

variable (hK : W10 m ρ c (Proc.devRef .tc main_v137) = val_main_v195 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c))
include hK
theorem W11_v137 : W11 m ρ c (Proc.devRef .tc main_v137) = val_main_v195 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) := by
  refine Eq.trans (b := W10 m ρ c (Proc.devRef .tc main_v137)) (by host_keep) hK
omit hK
theorem W11_v138_row (j : Fin 50) : (W11 m ρ c (Proc.devRef .tc main_v138) : S1x50.Idx → EReal) (ix2 0 j) = (a18 m c : S50.Idx → EReal) (ix1 j) := by
  show StableHlo.after hostOps5 (W10 m ρ c) (Proc.devRef .tc main_v138) (ix2 0 j) = _
  after_results_simp
  rw [W10_arg18 m ρ c]
  exact shapeCast_a_1a_apply _ _ 0 j
include hK
/-- After the last region the result array holds the reference's result. -/
theorem stage5 : W12 m ρ c (Proc.devRef .tc main_v139) = val_main_v199 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) := by
  refine (W12_arr m ρ c 3).trans ?_
  show ((dat5 (V11 m ρ) c).arrAt 3 cfg5.N : S50000x50.Idx → EReal) = _
  funext i
  obtain ⟨r, j, rfl⟩ : ∃ (r : Fin 50000) (j : Fin 50), i = ix2 r j := ⟨i 0, i 1, eq_ix2 i⟩
  have hb : (fun j : Fin 50 => (W11 m ρ c (Proc.devRef .tc main_v138) : S1x50.Idx → EReal) (ix2 0 j))
      = fun j => (a18 m c : S50.Idx → EReal) (ix1 j) := funext fun j => W11_v138_row m ρ c j
  rw [region5_value (V11 m ρ) c _ (a17 m c) (W11 m ρ c (Proc.devRef .tc main_v138)) (W11_v137 m ρ c hK) (W11_arg17 m ρ c) rfl r j,
    out_apply, hb]

end Cert.Chain

end
-- ==== Proof.lean ====
/-
  The certificate of a six-kernel graph-network forward pass against its jnp reference.

  The program: an input encoder `h = relu (features · w_in + b_in)`; the neighbour mean of `h` over the incoming edges;
  a fused aggregation / attention layer `h + agg * sigmoid (...)`; three graph-convolution layers, each a degree-normalised
  sparse aggregation followed by a dense layer, batch-norm statistics and a relu (the last two with a residual); an
  output projection. The kernel program computes the six dense layers in six tiled kernels (25 row tiles of 2000 rows)
  and leaves the gathers and scatter-adds to the host; the reference computes everything on the host.

  At the extended reals the two agree layer by layer. Each dense layer is stated once as a plain function of matrices
  (Spec.lean); a kernel's output array, read at an index, is that function of its operands (one module per kind of
  kernel), and so is the reference's stage (two modules). The sparse steps between the layers are the SAME host
  operations in both programs, applied to equal arrays, and are never opened. The only law of arithmetic used is that a
  sum over 256 indices is the sum over the first 128 plus the sum over the last 128 (a matrix product with a
  concatenation is the sum of two products); it holds in any commutative additive monoid, so the precondition
  (finite inputs) is not needed for the value, and the idealization ledger is empty.
-/
import proofs.«167285_j14499809591443_1_alg».proof.Defs
import proofs.«167285_j14499809591443_1_alg».proof.Proof.Gen.Kernel
import proofs.«167285_j14499809591443_1_alg».proof.Proof.Gen.Kernel.Frame
import proofs.«167285_j14499809591443_1_alg».proof.Proof.Gen.KernelIdeal
import proofs.«167285_j14499809591443_1_alg».proof.Proof.Gen.KernelIdeal.Frame
import proofs.«167285_j14499809591443_1_alg».proof.Proof.Gen.ReferenceIdeal
import proofs.«167285_j14499809591443_1_alg».proof.Proof.Gen.ReferenceIdeal.Run
import proofs.«167285_j14499809591443_1_alg».proof.Proof.Gen.ReferenceIdeal.Read
import proofs.«167285_j14499809591443_1_alg».proof.Proof.Gen.Pre_finite_inputs
import proofs.«167285_j14499809591443_1_alg».proof.Proof.KernelRun
import proofs.«167285_j14499809591443_1_alg».proof.Proof.KStage0
import proofs.«167285_j14499809591443_1_alg».proof.Proof.KStage1
import proofs.«167285_j14499809591443_1_alg».proof.Proof.KStage2
import proofs.«167285_j14499809591443_1_alg».proof.Proof.KStage3
import proofs.«167285_j14499809591443_1_alg».proof.Proof.KStage4
import proofs.«167285_j14499809591443_1_alg».proof.Proof.KStage5
import Idealize.ShloMosaic.Adequacy
import Idealize.ShloMosaic.Init

set_option maxRecDepth 16384

noncomputable section

namespace Cert.Proof

open Idealize.ShloMosaic Idealize.ShloMosaic.TcCoe Idealize.SL.Sem

section Value
open Cert.KernelIdeal Cert.KernelIdeal.Gen Cert.Chain Cert.ReferenceIdeal.Read

variable (m : (ℓ : Loc nD τ sig) → Buf (Elt Ideal) ℓ) (ρ : Dev nD → PrngReg) (c : Dev nD)

/-- The kernel program's result array ends at the reference's result term of the kernel program's own arguments: the six
    layers chained, each region's output feeding the host operations before the next. -/
theorem kernel_value : W12 m ρ c (Proc.devRef .tc main_v139) = val_main_v199 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) := by
  have k0 := stage0 m ρ c
  have k1 := stage1 m ρ c k0
  have k2 := stage2 m ρ c k1
  have k3 := stage3 m ρ c k2
  have k4 := stage4 m ρ c k3
  exact stage5 m ρ c k4

end Value

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, end with equal results: the kernel
    program's result array is the reference's result term of its own arguments (`kernel_value`), and the arguments agree. -/
theorem algebraic : Cert.algebraic_KernelIdeal_ReferenceIdeal := by
  intro m ρ m' ρ' _ hagree
  refine ⟨fun c => Cert.KernelIdeal.Gen.W12 m ρ c (Proc.devRef .tc Cert.KernelIdeal.main_v139),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  rw [Cert.ReferenceIdeal.Read.val_main_v199_eq, h0, h1, h2, h3, h4, h5, h6, h7, h8, h9, h10, h11, h12, h13, h14, h15, h16, h17, h18]
  exact (kernel_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
